-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x2048 : Shape := ⟨2, ![8192, 2048]⟩
abbrev S2048x8192 : Shape := ⟨2, ![2048, 8192]⟩
abbrev S8192 : Shape := ⟨1, ![8192]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S2048x8192 : S_.BroadcastsInDim S2048x8192 (![] : Fin 0 → Fin S2048x8192.rank)
  reducesTo_S2048x8192_S_d0_1 : S2048x8192.ReducesTo [0, 1] S_
  bcast_S_S8192 : S_.BroadcastsInDim S8192 (![] : Fin 0 → Fin S8192.rank)
  reducesTo_S8192_S_d0 : S8192.ReducesTo [0] S_

variable [Facts]

def fn_part1 {F : FTy → Type} [FloatOps F] (main_arg4 : FVec F S8192 .f32) (main_arg5 : FVec F S2048x8192 .f32) (main_arg6 : FVec F S8192 .f32) (main_v13 : IVec S_ 1) (main_v16 : IVec S2048x8192 1) : IVec S_ 1 :=
  let main_c_5 : IVec S_ 1 := constantI S_ 1 1#1
  let main_v17 : IVec S_ 1 := (fun x v => Host.reduce IntOp.andi x v reducesTo_S2048x8192_S_d0_1 h_S_) main_v16 main_c_5
  let main_v18 : IVec S_ 1 := andi main_v13 main_v17
  let main_v19 : FVec F S8192 .f32 := Host.absf main_arg4
  let main_cst_6 : FVec F S_ .f32 := constant S_ .f32 0x7F800000#32
  let main_v20 : FVec F S8192 .f32 := broadcastInDim S8192 ![] bcast_S_S8192 main_cst_6
  let main_v21 : IVec S8192 1 := cmpf .olt main_v19 main_v20
  let main_c_7 : IVec S_ 1 := constantI S_ 1 1#1
  let main_v22 : IVec S_ 1 := (fun x v => Host.reduce IntOp.andi x v reducesTo_S8192_S_d0 h_S_) main_v21 main_c_7
  let main_v23 : IVec S_ 1 := andi main_v18 main_v22
  let main_v24 : FVec F S2048x8192 .f32 := Host.absf main_arg5
  let main_cst_8 : FVec F S_ .f32 := constant S_ .f32 0x7F800000#32
  let main_v25 : FVec F S2048x8192 .f32 := broadcastInDim S2048x8192 ![] bcast_S_S2048x8192 main_cst_8
  let main_v26 : IVec S2048x8192 1 := cmpf .olt main_v24 main_v25
  let main_c_9 : IVec S_ 1 := constantI S_ 1 1#1
  let main_v27 : IVec S_ 1 := (fun x v => Host.reduce IntOp.andi x v reducesTo_S2048x8192_S_d0_1 h_S_) main_v26 main_c_9
  let main_v28 : IVec S_ 1 := andi main_v23 main_v27
  let main_v29 : FVec F S8192 .f32 := Host.absf main_arg6
  let main_cst_10 : FVec F S_ .f32 := constant S_ .f32 0x7F800000#32
  let main_v30 : FVec F S8192 .f32 := broadcastInDim S8192 ![] bcast_S_S8192 main_cst_10
  let main_v31 : IVec S8192 1 := cmpf .olt main_v29 main_v30
  let main_c_11 : IVec S_ 1 := constantI S_ 1 1#1
  let main_v32 : IVec S_ 1 := (fun x v => Host.reduce IntOp.andi x v reducesTo_S8192_S_d0 h_S_) main_v31 main_c_11
  let main_v33 : IVec S_ 1 := andi main_v28 main_v32
  main_v33

def fn {F : FTy → Type} [FloatOps F] (main_arg0 : FVec F S8192x2048 .f32) (main_arg1 : FVec F S8192x2048 .f32) (main_arg2 : FVec F S8192x2048 .f32) (main_arg3 : FVec F S2048x8192 .f32) (main_arg4 : FVec F S8192 .f32) (main_arg5 : FVec F S2048x8192 .f32) (main_arg6 : FVec F S8192 .f32) : IVec S_ 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x2048 .f32 := Host.absf main_arg1
  let main_cst_0 : FVec F S_ .f32 := constant S_ .f32 0x7F800000#32
  let main_v5 : FVec F S8192x2048 .f32 := broadcastInDim S8192x2048 ![] bcast_S_S8192x2048 main_cst_0
  let main_v6 : IVec S8192x2048 1 := cmpf .olt main_v4 main_v5
  let main_c_1 : IVec S_ 1 := constantI S_ 1 1#1
  let main_v7 : IVec S_ 1 := (fun x v => Host.reduce IntOp.andi x v reducesTo_S8192x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S2048x8192 .f32 := Host.absf main_arg3
  let main_cst_4 : FVec F S_ .f32 := constant S_ .f32 0x7F800000#32
  let main_v15 : FVec F S2048x8192 .f32 := broadcastInDim S2048x8192 ![] bcast_S_S2048x8192 main_cst_4
  let main_v16 : IVec S2048x8192 1 := cmpf .olt main_v14 main_v15
  fn_part1 (F := F) main_arg4 main_arg5 main_arg6 main_v13 main_v16
-- ==== Kernel.lean ====
abbrev S8192x2048 : Shape := ⟨2, ![8192, 2048]⟩
abbrev S2048x8192 : Shape := ⟨2, ![2048, 8192]⟩
abbrev S8192 : Shape := ⟨1, ![8192]⟩
abbrev S1x8192 : Shape := ⟨2, ![1, 8192]⟩
abbrev S1024x512 : Shape := ⟨2, ![1024, 512]⟩
abbrev S1024x256 : Shape := ⟨2, ![1024, 256]⟩
abbrev S512x256 : Shape := ⟨2, ![512, 256]⟩
abbrev S1x256 : Shape := ⟨2, ![1, 256]⟩

abbrev nBuf : Space → Nat
  | .hbm => 15
  | .vmem => 38
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192, .f32⟩
  | .hbm, ⟨5, _⟩ => ⟨S2048x8192, .f32⟩
  | .hbm, ⟨6, _⟩ => ⟨S8192, .f32⟩
  | .hbm, ⟨7, _⟩ => ⟨S8192x2048, .bf16⟩
  | .hbm, ⟨8, _⟩ => ⟨S8192x2048, .bf16⟩
  | .hbm, ⟨9, _⟩ => ⟨S2048x8192, .bf16⟩
  | .hbm, ⟨10, _⟩ => ⟨S2048x8192, .bf16⟩
  | .hbm, ⟨11, _⟩ => ⟨S8192, .f32⟩
  | .hbm, ⟨12, _⟩ => ⟨S1x8192, .f32⟩
  | .hbm, ⟨13, _⟩ => ⟨S8192x2048, .f32⟩
  | .hbm, ⟨14, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x256, .f32⟩
  | .local _ .vmem, ⟨5, _⟩ => ⟨S1024x256, .f32⟩
  | .local _ .vmem, ⟨6, _⟩ => ⟨S512x256, .bf16⟩
  | .local _ .vmem, ⟨7, _⟩ => ⟨S512x256, .bf16⟩
  | .local _ .vmem, ⟨8, _⟩ => ⟨S512x256, .bf16⟩
  | .local _ .vmem, ⟨9, _⟩ => ⟨S512x256, .bf16⟩
  | .local _ .vmem, ⟨10, _⟩ => ⟨S512x256, .bf16⟩
  | .local _ .vmem, ⟨11, _⟩ => ⟨S512x256, .bf16⟩
  | .local _ .vmem, ⟨12, _⟩ => ⟨S512x256, .bf16⟩
  | .local _ .vmem, ⟨13, _⟩ => ⟨S512x256, .bf16⟩
  | .local _ .vmem, ⟨14, _⟩ => ⟨S512x256, .bf16⟩
  | .local _ .vmem, ⟨15, _⟩ => ⟨S512x256, .bf16⟩
  | .local _ .vmem, ⟨16, _⟩ => ⟨S512x256, .bf16⟩
  | .local _ .vmem, ⟨17, _⟩ => ⟨S512x256, .bf16⟩
  | .local _ .vmem, ⟨18, _⟩ => ⟨S512x256, .bf16⟩
  | .local _ .vmem, ⟨19, _⟩ => ⟨S512x256, .bf16⟩
  | .local _ .vmem, ⟨20, _⟩ => ⟨S512x256, .bf16⟩
  | .local _ .vmem, ⟨21, _⟩ => ⟨S512x256, .bf16⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S1x256, .f32⟩
  | .local _ .vmem, ⟨29, _⟩ => ⟨S1x256, .f32⟩
  | .local _ .vmem, ⟨30, _⟩ => ⟨S1024x256, .f32⟩
  | .local _ .vmem, ⟨31, _⟩ => ⟨S1024x256, .f32⟩
  | .local _ .vmem, ⟨32, _⟩ => ⟨S1024x256, .f32⟩
  | .local _ .vmem, ⟨33, _⟩ => ⟨S1024x256, .f32⟩
  | .local _ .vmem, ⟨34, _⟩ => ⟨S1024x256, .f32⟩
  | .local _ .vmem, ⟨35, _⟩ => ⟨S1024x256, .f32⟩
  | .local _ .vmem, ⟨36, _⟩ => ⟨S1024x256, .f32⟩
  | .local _ .vmem, ⟨37, _⟩ => ⟨S1024x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_scratch0 : Ref sig .tc := ⟨.vmem, 34, rfl⟩
abbrev cc0_scratch1 : Ref sig .tc := ⟨.vmem, 35, rfl⟩
abbrev cc0_scratch2 : Ref sig .tc := ⟨.vmem, 36, rfl⟩
abbrev cc0_scratch3 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨3, ![8, 8, 4], ![false, false, false]⟩

def k0_cond2 (i : grid0.Coords) : BitVec 1 :=
  let arg2 : BitVec 32 := BitVec.ofNat 32 (i 2).val
  let c3_i32 : BitVec 32 := 3#32
  let v55 : BitVec 1 := Scalar.cmpi .eq arg2 c3_i32
  let v56 : BitVec 32 := Scalar.extui v55
  let c0_i32_43 : BitVec 32 := 0#32
  let v57 : BitVec 1 := Scalar.cmpi .ne v56 c0_i32_43
  v57

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg2.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg2.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg2.toNat, v0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg2.toNat, v0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg2.toNat, v0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg2.toNat, v0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg2.toNat, v0.toNat]

def cc0_transform_11 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  let c0_i32_0 : BitVec 32 := 0#32
  ![c0_i32.toNat, v0.toNat]

def cc0_transform_13 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  let c0_i32_0 : BitVec 32 := 0#32
  ![c0_i32.toNat, v0.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  let c0_i32_0 : BitVec 32 := 0#32
  ![c0_i32.toNat, v0.toNat]

def cc0_transform_15 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, true]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, true]

abbrev stage0_6 : Fin 2 → Memref sig .tc .vmem S512x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, true]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true, true]

abbrev stage0_10 : Fin 2 → Memref sig .tc .vmem S512x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true, false]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true, false]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true, false]

abbrev stage0_14 : Fin 2 → Memref sig .tc .vmem S1x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![false, true, false]

abbrev stage0_15 : Fin 2 → Memref sig .tc .vmem S1024x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true, false]

abbrev stage0_16 : Fin 2 → Memref sig .tc .vmem S1024x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true, false]

class Facts₀ : Prop where
  bitsLt_bf16_f32 : FTy.bits .bf16 < FTy.bits .f32
  shapeCasts_S8192_S1x8192 : S8192.ShapeCasts S1x8192
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  dot_S1024x512_S512x256_S1024x256_1_0_0_1_n_n_wf : DotDims.WF S1024x512 S512x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x2048.size a
  hwx0_0 : ∀ i : grid0.Coords, EltTy.bits .bf16 = 32 ∨ (Rect.block (s := S8192x2048) S1024x512.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S8192x2048.size a
  hwx0_1 : ∀ i : grid0.Coords, EltTy.bits .bf16 = 32 ∨ (Rect.block (s := S8192x2048) S1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S8192x2048.size a
  hwx0_2 : ∀ i : grid0.Coords, EltTy.bits .f32 = 32 ∨ (Rect.block (s := S8192x2048) S1024x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x256.size a ≤ S2048x8192.size a
  hwx0_3 : ∀ i : grid0.Coords, EltTy.bits .bf16 = 32 ∨ (Rect.block (s := S2048x8192) S512x256.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S2048x8192.size a
  hwx0_4 : ∀ i : grid0.Coords, EltTy.bits .bf16 = 32 ∨ (Rect.block (s := S2048x8192) S512x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x256.size a ≤ S2048x8192.size a
  hwx0_5 : ∀ i : grid0.Coords, EltTy.bits .bf16 = 32 ∨ (Rect.block (s := S2048x8192) S512x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x256.size a ≤ S2048x8192.size a
  hwx0_6 : ∀ i : grid0.Coords, EltTy.bits .bf16 = 32 ∨ (Rect.block (s := S2048x8192) S512x256.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x256.size a ≤ S2048x8192.size a
  hwx0_7 : ∀ i : grid0.Coords, EltTy.bits .bf16 = 32 ∨ (Rect.block (s := S2048x8192) S512x256.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x256.size a ≤ S2048x8192.size a
  hwx0_8 : ∀ i : grid0.Coords, EltTy.bits .bf16 = 32 ∨ (Rect.block (s := S2048x8192) S512x256.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x256.size a ≤ S2048x8192.size a
  hwx0_9 : ∀ i : grid0.Coords, EltTy.bits .bf16 = 32 ∨ (Rect.block (s := S2048x8192) S512x256.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S512x256.size a ≤ S2048x8192.size a
  hwx0_10 : ∀ i : grid0.Coords, EltTy.bits .bf16 = 32 ∨ (Rect.block (s := S2048x8192) S512x256.size (cc0_transform_10 i) (hinb0_10 i)).WholeWords (EltTy.packing .bf16)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x8192.size a
  hwx0_11 : ∀ i : grid0.Coords, EltTy.bits .f32 = 32 ∨ (Rect.block (s := S1x8192) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x8192.size a
  hwx0_12 : ∀ i : grid0.Coords, EltTy.bits .f32 = 32 ∨ (Rect.block (s := S1x8192) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x8192.size a
  hwx0_13 : ∀ i : grid0.Coords, EltTy.bits .f32 = 32 ∨ (Rect.block (s := S1x8192) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S1x256.size a ≤ S1x8192.size a
  hwx0_14 : ∀ i : grid0.Coords, EltTy.bits .f32 = 32 ∨ (Rect.block (s := S1x8192) S1x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S1024x256.size a ≤ S8192x2048.size a
  hwx0_15 : ∀ i : grid0.Coords, EltTy.bits .f32 = 32 ∨ (Rect.block (s := S8192x2048) S1024x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S1024x256.size a ≤ S8192x2048.size a
  hwx0_16 : ∀ i : grid0.Coords, EltTy.bits .f32 = 32 ∨ (Rect.block (s := S8192x2048) S1024x256.size (cc0_transform_16 i) (hinb0_16 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf

abbrev win0_0 : Pipeline.Window sig grid0 :=
  Pipeline.Window.ofSpec (Memref.whole main_v0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x256.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S512x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S512x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x256.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v3) S512x256.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v3) S512x256.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v3) S512x256.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v3) S512x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v5) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v5) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v5) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_v5) S1x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v6_0) S1024x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v6_1) S1024x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev idle0 : Fin 17 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | 16 => fun i => !(k0_cond2 i == 1#1) | ⟨_ + 17, h⟩ => absurd h (Nat.not_lt.2 (Nat.le_add_left _ _))

class Facts : Prop extends Facts₀ where

variable [Facts]
-- ==== ReferenceIdeal.lean ====
abbrev S8192x2048 : Shape := ⟨2, ![8192, 2048]⟩
abbrev S2048x8192 : Shape := ⟨2, ![2048, 8192]⟩
abbrev S8192 : Shape := ⟨1, ![8192]⟩
abbrev S8192x8192 : Shape := ⟨2, ![8192, 8192]⟩
abbrev S1x8192 : Shape := ⟨2, ![1, 8192]⟩
abbrev S_ : Shape := ⟨0, ![]⟩

abbrev nBuf : Space → Nat
  | .hbm => 50
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S2048x8192, .f32⟩
  | .hbm, ⟨4, _⟩ => ⟨S8192, .f32⟩
  | .hbm, ⟨5, _⟩ => ⟨S2048x8192, .f32⟩
  | .hbm, ⟨6, _⟩ => ⟨S8192, .f32⟩
  | .hbm, ⟨7, _⟩ => ⟨S8192x8192, .f32⟩
  | .hbm, ⟨8, _⟩ => ⟨S1x8192, .f32⟩
  | .hbm, ⟨9, _⟩ => ⟨S8192x8192, .f32⟩
  | .hbm, ⟨10, _⟩ => ⟨S8192x8192, .f32⟩
  | .hbm, ⟨11, _⟩ => ⟨S8192x8192, .f32⟩
  | .hbm, ⟨12, _⟩ => ⟨S8192x8192, .f32⟩
  | .hbm, ⟨13, _⟩ => ⟨S1x8192, .f32⟩
  | .hbm, ⟨14, _⟩ => ⟨S8192x8192, .f32⟩
  | .hbm, ⟨15, _⟩ => ⟨S8192x8192, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192x2048, .f32⟩
  | .hbm, ⟨24, _⟩ => ⟨S8192x2048, .f32⟩
  | .hbm, ⟨25, _⟩ => ⟨S_, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S_, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst : Ref sig .tc := ⟨.hbm, 22, rfl⟩
abbrev main_v15 : Ref sig .tc := ⟨.hbm, 23, rfl⟩
abbrev main_v16 : Ref sig .tc := ⟨.hbm, 24, rfl⟩
abbrev main_cst_0 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_cst_4 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩

abbrev nD : Nat := 1
abbrev τ : Topo := Topo.v7x

variable {F : FTy → Type} [FloatOps F]

class Facts₀ : Prop where
  bcast_S8192_S1x8192_1 : S8192.BroadcastsInDim S1x8192 (![1] : Fin 1 → Fin S1x8192.rank)
  bcast_S1x8192_S8192x8192_0_1 : S1x8192.BroadcastsInDim S8192x8192 (![0, 1] : Fin 2 → Fin S8192x8192.rank)
  slices_S8192x8192_S8192x2048_0_0 : S8192x8192.Slices ![0, 0] S8192x2048
  slices_S8192x8192_S8192x2048_0_2048 : S8192x8192.Slices ![0, 2048] S8192x2048
  slices_S8192x8192_S8192x2048_0_4096 : S8192x8192.Slices ![0, 4096] S8192x2048
  slices_S8192x8192_S8192x2048_0_6144 : S8192x8192.Slices ![0, 6144] S8192x2048
  bcast_S_S8192x2048 : S_.BroadcastsInDim S8192x2048 (![] : Fin 0 → Fin S8192x2048.rank)
  dot_S8192x2048_S2048x8192_S8192x8192_1_0_0_1_n_n_wf : DotDims.WF S8192x2048 S2048x8192 S8192x8192 [1] [0] [0] [1] [] []

variable [Facts₀]

def dot_S8192x2048_S2048x8192_S8192x8192_1_0_0_1_n_n : DotDims S8192x2048 S2048x8192 S8192x8192 where
  lhsContracting := [1]
  rhsContracting := [0]
  lhsNonContracting := [0]
  rhsNonContracting := [1]
  lhsBatch := []
  rhsBatch := []
  wf := dot_S8192x2048_S2048x8192_S8192x8192_1_0_0_1_n_n_wf

class Facts : Prop extends Facts₀ where

variable [Facts]
-- ==== Proof.BitsFrameDefs.lean ====
/-
  What the three runs of the LSTM-cell kernel's body share.

  The grid is 8 x 8 x 4: a point is (row block mb, column block nb, reduction block kb), kb innermost, so the
  point numbered t has kb = t mod 4. The body keeps four accumulators (one per gate) in scratch buffers
  between points: at kb = 0 it zeroes them, at every point it adds the two products of that reduction block
  into each, and at kb = 3 it turns them into the two result blocks. Hence three control cases, by t mod 4:
  0 (reset, then add), 1 or 2 (add), 3 (add, then finish). The result windows' blocks do not depend on kb;
  they are stored, and written back, only at kb = 3.

  Here: the arrays as the region finds them (after the six host operations before it), each window's
  block at a point, that an input window's staging buffer holds its block at every point, the two branch
  conditions in closed form over the grid, where the result windows are idle, and the scratch invariant's
  spelling as owned memrefs.
-/
import proofs.«168456_j39350490366667_2_alg».proof.Proof.Gen.Kernel.Launch
import proofs.«168456_j39350490366667_2_alg».proof.Proof.Gen.Kernel.Skeleton
import proofs.«168456_j39350490366667_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers' contents when the region is entered: after the host operations before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is
    not fetched the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is
    not fetched the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is
    not fetched the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is
    not fetched the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is
    not fetched the block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where it is
    not fetched the block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: where it is
    not fetched the block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: where it is
    not fetched the block index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not: where it is
    not fetched the block index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not: where it is
    not fetched the block index has not moved. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not: where it is
    not fetched the block index has not moved. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not: where it is
    not fetched the block index has not moved. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current staging buffer holds its block at every point, fetched there or not: where it is
    not fetched the block index has not moved. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's current staging buffer holds its block at every point, fetched there or not: where it is
    not fetched the block index has not moved. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's current staging buffer holds its block at every point, fetched there or not: where it is
    not fetched the block index has not moved. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The reset's condition: the reduction coordinate is 0. -/
abbrev cond0_0 (i : grid0.Coords) : Prop := (Scalar.cmpi .ne (Scalar.extui (Scalar.cmpi .eq (BitVec.ofNat 32 (i 2).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The finish's condition: the reduction coordinate is 3, the last. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the result windows are idle -/

/-- Away from the finish the body stores nothing into result window 15: the window is idle there, -/
theorem idleAt0_15 : ∀ t : Fin cfg0.N, ¬cond0_1 (grid0.coords t) → cfg0.idle 15 (grid0.coords t) = true := by decide +kernel
/-- and its block is not written back there. -/
theorem noFlush0_15 : ∀ t : Fin cfg0.N, ¬cond0_1 (grid0.coords t) → (cfg0.win 15).flush t = false := by decide +kernel
/-- At the finish it is live. -/
theorem liveAt0_15 : ∀ t : Fin cfg0.N, cond0_1 (grid0.coords t) → cfg0.idle 15 (grid0.coords t) = false := by decide +kernel

/-- Away from the finish the body stores nothing into result window 16: the window is idle there, -/
theorem idleAt0_16 : ∀ t : Fin cfg0.N, ¬cond0_1 (grid0.coords t) → cfg0.idle 16 (grid0.coords t) = true := by decide +kernel
/-- and its block is not written back there. -/
theorem noFlush0_16 : ∀ t : Fin cfg0.N, ¬cond0_1 (grid0.coords t) → (cfg0.win 16).flush t = false := by decide +kernel
/-- At the finish it is live. -/
theorem liveAt0_16 : ∀ t : Fin cfg0.N, cond0_1 (grid0.coords t) → cfg0.idle 16 (grid0.coords t) = false := by decide +kernel

/-! ## The staging and scratch memrefs -/

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x256 .f32 := win0_16.stage (cfg0.slots t 16)
abbrev hs0_16 (t : Fin cfg0.N) : (ms0_16 t).IsWhole := hstage0_16 ((cfg0.slots t 16).cast nbuf0_16)
/-- One staging buffer of result window 15, through which its contents are stated. -/
abbrev VO0_15 : View sig .tc .vmem S1024x256 .f32 := (Memref.whole cc0_stg15_0 : Memref sig .tc .vmem S1024x256 .f32).view
/-- One staging buffer of result window 16, through which its contents are stated. -/
abbrev VO0_16 : View sig .tc .vmem S1024x256 .f32 := (Memref.whole cc0_stg16_0 : Memref sig .tc .vmem S1024x256 .f32).view
/-- Accumulator 0: a whole scoped buffer of the kernel's own, and its view. -/
abbrev scM0_0 : Memref sig .tc .vmem S1024x256 .f32 := Memref.whole cc0_scratch0
abbrev VS0_0 : View sig .tc .vmem S1024x256 .f32 := scM0_0.view
/-- Accumulator 1: a whole scoped buffer of the kernel's own, and its view. -/
abbrev scM0_1 : Memref sig .tc .vmem S1024x256 .f32 := Memref.whole cc0_scratch1
abbrev VS0_1 : View sig .tc .vmem S1024x256 .f32 := scM0_1.view
/-- Accumulator 2: a whole scoped buffer of the kernel's own, and its view. -/
abbrev scM0_2 : Memref sig .tc .vmem S1024x256 .f32 := Memref.whole cc0_scratch2
abbrev VS0_2 : View sig .tc .vmem S1024x256 .f32 := scM0_2.view
/-- Accumulator 3: a whole scoped buffer of the kernel's own, and its view. -/
abbrev scM0_3 : Memref sig .tc .vmem S1024x256 .f32 := Memref.whole cc0_scratch3
abbrev VS0_3 : View sig .tc .vmem S1024x256 .f32 := scM0_3.view

/-- The scoped buffers that are no staging buffer are the four accumulators, each owned at some contents. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) := by
  rw [scopedRest0_eq]; simp only [scM0_0, scM0_1, scM0_2, scM0_3, owns_whole]; try rfl

end Cert.Kernel.Hand

end
-- ==== Proof.BitsRunB.lean ====
/-
  The LSTM-cell kernel's body run once in control case B (the cases are explained where the runs' shared
  definitions are).
-/
import proofs.«168456_j39350490366667_2_alg».proof.Proof.BitsFrameDefs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in case B (the reduction coordinate is 1 or 2: this block's products are added to the accumulators). On whole memrefs — the inputs at their contents, the
    accumulators at what the point before left (`xs·`), the result buffers at contents `xi·` handed back untouched — it runs to
    the continuation with the inputs as they were and every buffer it stored into holding its pieces written; the pieces are
    found by the run itself. -/
noncomputable def kernelRun0_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x256 .f32) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole) (arg21 : Memref sig .tc .vmem S1024x256 .f32) (harg21 : arg21.IsWhole) (arg22 : Memref sig .tc .vmem S1024x256 .f32) (harg22 : arg22.IsWhole) (arg23 : Memref sig .tc .vmem S1024x256 .f32) (harg23 : arg23.IsWhole) (hc0 : ¬cond0_0 i) (hc1 : ¬cond0_1 i)
    (x0 : Vec F S1024x512 .bf16) (x1 : Vec F S1024x512 .bf16) (x2 : Vec F S1024x256 .f32) (x3 : Vec F S512x256 .bf16) (x4 : Vec F S512x256 .bf16) (x5 : Vec F S512x256 .bf16) (x6 : Vec F S512x256 .bf16) (x7 : Vec F S512x256 .bf16) (x8 : Vec F S512x256 .bf16) (x9 : Vec F S512x256 .bf16) (x10 : Vec F S512x256 .bf16) (x11 : Vec F S1x256 .f32) (x12 : Vec F S1x256 .f32) (x13 : Vec F S1x256 .f32) (x14 : Vec F S1x256 .f32) (xs0 : Vec F S1024x256 .f32) (xs1 : Vec F S1024x256 .f32) (xs2 : Vec F S1024x256 .f32) (xs3 : Vec F S1024x256 .f32) :
    Σ' (LS0 : List (View.Piece (Elt F) S1024x256 .f32)) (LS1 : List (View.Piece (Elt F) S1024x256 .f32)) (LS2 : List (View.Piece (Elt F) S1024x256 .f32)), { LS3 : List (View.Piece (Elt F) S1024x256 .f32) //
      ∀ (xi15 : Vec F S1024x256 .f32) (xi16 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0_lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, fun xi15 xi16 E K => ?run⟩
  case run =>
    simp only [cc0_lstm_kernel_eq_skeleton]; unfold cc0_lstm_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hfs0; obtain rfl := harg21.eq_unread hfs1; obtain rfl := harg22.eq_unread hfs2; obtain rfl := harg23.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [HS0]; · iexists _; iexact HS0
    isplitl [HS1]; · iexists _; iexact HS1
    isplitl [HS2]; · iexists _; iexact HS2
    iexists _; iexact HS3

end Cert.Kernel.Hand

end
-- ==== Proof.BitsRunA.lean ====
/-
  The LSTM-cell kernel's body run once in control case A (the cases are explained where the runs' shared
  definitions are).
-/
import proofs.«168456_j39350490366667_2_alg».proof.Proof.BitsRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in case A (the reduction coordinate is 0: the accumulators are zeroed, then this block's products added). On whole memrefs — the inputs at their contents, the
    accumulators at anything, the result buffers at contents `xi·` handed back untouched — it runs to
    the continuation with the inputs as they were and every buffer it stored into holding its pieces written; the pieces are
    found by the run itself. -/
noncomputable def kernelRun0_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x256 .f32) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole) (arg21 : Memref sig .tc .vmem S1024x256 .f32) (harg21 : arg21.IsWhole) (arg22 : Memref sig .tc .vmem S1024x256 .f32) (harg22 : arg22.IsWhole) (arg23 : Memref sig .tc .vmem S1024x256 .f32) (harg23 : arg23.IsWhole) (hc0 : cond0_0 i) (hc1 : ¬cond0_1 i)
    (x0 : Vec F S1024x512 .bf16) (x1 : Vec F S1024x512 .bf16) (x2 : Vec F S1024x256 .f32) (x3 : Vec F S512x256 .bf16) (x4 : Vec F S512x256 .bf16) (x5 : Vec F S512x256 .bf16) (x6 : Vec F S512x256 .bf16) (x7 : Vec F S512x256 .bf16) (x8 : Vec F S512x256 .bf16) (x9 : Vec F S512x256 .bf16) (x10 : Vec F S512x256 .bf16) (x11 : Vec F S1x256 .f32) (x12 : Vec F S1x256 .f32) (x13 : Vec F S1x256 .f32) (x14 : Vec F S1x256 .f32) :
    Σ' (LS0 : List (View.Piece (Elt F) S1024x256 .f32)) (LS1 : List (View.Piece (Elt F) S1024x256 .f32)) (LS2 : List (View.Piece (Elt F) S1024x256 .f32)), { LS3 : List (View.Piece (Elt F) S1024x256 .f32) //
      ∀ (xi15 : Vec F S1024x256 .f32) (xi16 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0_lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, fun xi15 xi16 E K => ?run⟩
  case run =>
    simp only [cc0_lstm_kernel_eq_skeleton]; unfold cc0_lstm_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [HS0]; · iexists _; iexact HS0
    isplitl [HS1]; · iexists _; iexact HS1
    isplitl [HS2]; · iexists _; iexact HS2
    iexists _; iexact HS3

end Cert.Kernel.Hand

end
-- ==== Proof.BitsRunC.lean ====
/-
  The LSTM-cell kernel's body run once in control case C (the cases are explained where the runs' shared
  definitions are).
-/
import proofs.«168456_j39350490366667_2_alg».proof.Proof.BitsRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in case C (the reduction coordinate is 3: this block's products are added, then the two result blocks are computed from the accumulators, the biases and the cell state and stored). On whole memrefs — the inputs at their contents, the
    accumulators at what the point before left (`xs·`), the result buffers at anything — it runs to
    the continuation with the inputs as they were and every buffer it stored into holding its pieces written; the pieces are
    found by the run itself. -/
noncomputable def kernelRun0_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x256 .f32) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole) (arg21 : Memref sig .tc .vmem S1024x256 .f32) (harg21 : arg21.IsWhole) (arg22 : Memref sig .tc .vmem S1024x256 .f32) (harg22 : arg22.IsWhole) (arg23 : Memref sig .tc .vmem S1024x256 .f32) (harg23 : arg23.IsWhole) (hc0 : ¬cond0_0 i) (hc1 : cond0_1 i)
    (x0 : Vec F S1024x512 .bf16) (x1 : Vec F S1024x512 .bf16) (x2 : Vec F S1024x256 .f32) (x3 : Vec F S512x256 .bf16) (x4 : Vec F S512x256 .bf16) (x5 : Vec F S512x256 .bf16) (x6 : Vec F S512x256 .bf16) (x7 : Vec F S512x256 .bf16) (x8 : Vec F S512x256 .bf16) (x9 : Vec F S512x256 .bf16) (x10 : Vec F S512x256 .bf16) (x11 : Vec F S1x256 .f32) (x12 : Vec F S1x256 .f32) (x13 : Vec F S1x256 .f32) (x14 : Vec F S1x256 .f32) (xs0 : Vec F S1024x256 .f32) (xs1 : Vec F S1024x256 .f32) (xs2 : Vec F S1024x256 .f32) (xs3 : Vec F S1024x256 .f32) :
    Σ' (L15 : List (View.Piece (Elt F) S1024x256 .f32)) (L16 : List (View.Piece (Elt F) S1024x256 .f32)) (LS0 : List (View.Piece (Elt F) S1024x256 .f32)) (LS1 : List (View.Piece (Elt F) S1024x256 .f32)) (LS2 : List (View.Piece (Elt F) S1024x256 .f32)), { LS3 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f L16) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0_lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, fun E K => ?run⟩
  case run =>
    simp only [cc0_lstm_kernel_eq_skeleton]; unfold cc0_lstm_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg20.eq_unread hfs0; obtain rfl := harg21.eq_unread hfs1; obtain rfl := harg22.eq_unread hfs2; obtain rfl := harg23.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]; · iexists _; iexact H15
    isplitl [H16]; · iexists _; iexact H16
    isplitl [HS0]; · iexists _; iexact HS0
    isplitl [HS1]; · iexists _; iexact HS1
    isplitl [HS2]; · iexists _; iexact HS2
    iexists _; iexact HS3

end Cert.Kernel.Hand

end
-- ==== Proof.LibSharedFrame.lean ====
/-
  A frame run for one pipeline whose INPUT windows may read one array through several windows.

  The library's frame runs ask that the windows' arrays be pairwise distinct, and then give every window its
  array at the full share. When one array is handed to the kernel several times (a packed weight matrix read
  through one window per gate, say) the arrays are not distinct: the full share of the buffer behind such an
  array is dealt among the windows on it, each window holding a positive part, and that dealing is a
  hypothesis here (`hsplit`). Everything else is as in the library's frame run with a tracking invariant:
  the body obligation at every point, nothing owed, the program's shape up to the region, an invariant that
  the scoped buffers which are no staging buffer yield before the first point and that yields them back
  after the last. The generator register is let go: a body that draws no random bits never needs it.

  Conclusion (`Pipeline.FramePost`): every window's array ends at what the library computes from the proof
  data after the last point, and every unscoped buffer that is no window's array ends as the region found it.
-/
import Idealize.ShloMosaic.Lib.Pipeline.Frame

noncomputable section

namespace Cert.Lib.SharedFrame

open Idealize.ShloMosaic Idealize.ShloMosaic.Pipeline
open Idealize.SL
open Idealize.SL.BI (sProp bigSep bigSep_map)
open scoped Idealize.SL.BI
open Idealize.SL.BI.BIBase Idealize.SL.BI.Laws Idealize.SL.Sem Idealize.SL.ProofMode
open Idealize.SL.RA
open Idealize.ShloMosaic.Rounds
open TcCoe

variable {nD : Nat} {τ : Topo} {sig : RefSig} {Val : EltTy → Type}
variable {Λ₀ : Idealize.SL.Sem.Labels} {P : Type} [Fintype P] [DecidableEq P] [∀ e, Nonempty (Val e)]

local notation "𝕄" => MT nD τ sig Unit Val ℕ (UR sig nD τ) ℕ

/-- The windows' arrays, each a whole buffer, as points-tos of the buffers behind them, each at its window's share. -/
theorem arrays_eq_shares (cfgs : P → Cfg sig Λ₀)
    (dats : (p : P) → (c : Dev nD) → Dat τ Val Unit ℕ (UR sig nD τ) ℕ (cfgs p) c) (p : P) (c : Dev nD)
    (harr : ∀ w, ((cfgs p).spec w).arr.IsWhole)
    (F : (w : Fin (cfgs p).W) → Buf Val (((cfgs p).spec w).arr.view.loc (c.tc : Thread nD τ))) :
    (dats p c).arrays F = bigSep Finset.univ fun w => (((c.tc : Thread nD τ).loc (arrRef (cfgs p).spec w)) ↦{(dats p c).share w} F w : sProp 𝕄) := by
  unfold Dat.arrays
  exact Idealize.SL.BI.bigSep_congr fun w _ => by rw [(harr w).set_eq_univ]

/-- A buffer held whole at the full share is held at its four quarters. -/
theorem pointsTo_quarters {ℓ : Loc nD τ sig} (f : Buf Val ℓ) :
    (ℓ ↦{fullShare} f : sProp 𝕄) ⊢ iprop((ℓ ↦{fullShare.left.left} f) ∗ (ℓ ↦{fullShare.left.right} f) ∗ (ℓ ↦{fullShare.right.left} f) ∗ (ℓ ↦{fullShare.right.right} f)) := by
  iintro H
  ihave H2 := (pointsTo_share (PosShare.mem_left_op_right fullShare)).1 $$ H
  icases H2 with ⟨HL, HR⟩
  ihave HL2 := (pointsTo_share (PosShare.mem_left_op_right fullShare.left)).1 $$ HL
  ihave HR2 := (pointsTo_share (PosShare.mem_left_op_right fullShare.right)).1 $$ HR
  icases HL2 with ⟨HA, HB⟩
  icases HR2 with ⟨HC, HD⟩
  isplitl [HA]; · iexact HA
  isplitl [HB]; · iexact HB
  isplitl [HC]; · iexact HC
  iexact HD

/-- The frame run of a pipeline whose windows may share arrays, with an invariant tracked from point to point. -/
theorem θ_run_frame_shared (cfgs : P → Cfg sig Λ₀)
    (dats : (p : P) → (c : Dev nD) → Dat τ Val Unit ℕ (UR sig nD τ) ℕ (cfgs p) c) (p : P)
    (hinj : Function.Injective (cellOf (nD := nD) (τ := τ) cfgs))
    (hw : WinFacts₀ (cfgs p).spec)
    (hne : ∀ w : Fin (cfgs p).W, 0 < ((cfgs p).spec w).block.numel)
    (harr : ∀ w, ((cfgs p).spec w).arr.IsWhole) (hstage : ∀ w s, (((cfgs p).spec w).stage s).IsWhole)
    (defs₀ : Defs nD τ sig Val Λ₀) (𝒱₀ : Variants)
    (m : (ℓ : Loc nD τ sig) → Buf Val ℓ) (g : Dev nD → PrngReg)
    (main : Dev nD → Prog (TpuEff nD τ sig Val (Sig Λ₀ P fun p => ((cfgs p).toPCfg (Val := Val)).Adm) .tc) PUnit)
    (hbody : ∀ c, BodyObligationLoose (dats p c) defs₀ 𝒱₀ () Set.univ)
    (howed : ∀ c t, (dats p c).owed t = 0)
    (V : (c : Dev nD) → (b : Ref sig .tc) → Buf Val ((c.tc : Thread nD τ).loc b))
    (hmain : HMain (Ix := Unit) (Name := ℕ) (U := UR sig nD τ) (Lvl := ℕ) cfgs p defs₀ 𝒱₀ m main V)
    (hsplit : ∀ c, (arrBufs (Ix := Unit) (Name := ℕ) (U := UR sig nD τ) (Lvl := ℕ) (cfgs p).spec c (V c) : sProp 𝕄)
      ⊢ (dats p c).arrays ((dats p c).arrAt · 0))
    (hin : ∀ c, (scopedRest (Ix := Unit) (Name := ℕ) (U := UR sig nD τ) (Lvl := ℕ) (Val := Val) (cfgs p).spec c : sProp 𝕄) ⊢ (dats p c).Φ 0)
    (hout : ∀ c, (dats p c).Φ (Fin.last (cfgs p).N) ⊢ (scopedRest (Ix := Unit) (Name := ℕ) (U := UR sig nD τ) (Lvl := ℕ) (Val := Val) (cfgs p).spec c : sProp 𝕄)) :
    θ_run (Pipeline.defs (fun q => Cfg.toPCfg (Val := Val) (cfgs q)) defs₀) (onTc main) (s₀ m g) (FramePost cfgs dats p V) := by
  classical
  exact θ_run_region_noSem_shared cfgs dats () hinj p hw emb₁ defs₀ 𝒱₀ m g main hbody hne harr hstage howed
    (initOf (cells cfgs hinj) (launchToks cfgs hinj)) .rfl V hmain hsplit
    (fun _ => iprop(emp)) (fun _ => iprop(emp))
    (fun c => unscopedRest (Ix := Unit) (Name := ℕ) (U := UR sig nD τ) (Lvl := ℕ) (cfgs p).spec c (V c))
    (fun c => by
      iintro H
      isplitr
      · iempintro
      · iexact H)
    (fun c => (show _ ⊢ (scopedRest (Ix := Unit) (Name := ℕ) (U := UR sig nD τ) (Lvl := ℕ) (Val := Val) (cfgs p).spec c : sProp 𝕄) from by
      iintro ⟨-, H⟩; iexact H).trans (hin c))
    (fun c => (hout c).trans (by
      iintro H
      isplitr
      · iempintro
      · iexact H))
    (fun c s => ∀ b ∈ restRefs sig (cfgs p).spec, s.mem ((c.tc : Thread nD τ).loc b) = V c b)
    (fun c s' => by
      iintro ⟨-, HU, HSI⟩
      unfold unscopedRest
      imodintro
      iapply (pointsTo_read_all (restRefs sig (cfgs p).spec) (fun b => (c.tc : Thread nD τ).loc b) (V c) s')
      isplitl [HU] <;> iassumption)
    (fun s h c => ⟨(h c).1, (h c).2⟩)

end Cert.Lib.SharedFrame

end
-- ==== Proof.BitsFrameCore.lean ====
/-
  The frame of the LSTM-cell kernel, and what its two result arrays hold at the end.

  The three runs of the body (one per control case) are put at a grid point; what each leaves in the four
  accumulators and, at a finish, in the two result blocks is read back from the pieces the run found. The
  accumulators after each point are then a recursion on the point (a reset point starts afresh, every other
  point continues from the point before), the invariant carried from point to point is the four accumulators
  at those contents, and the body obligation is the three runs, chosen by the point's number mod 4.

  Two of the kernel's arrays are read through four windows each (the packed weights, one window per gate),
  and so is the summed bias: each such array's full share is dealt in quarters among its windows.
-/
import proofs.«168456_j39350490366667_2_alg».proof.Proof.BitsRunC
import proofs.«168456_j39350490366667_2_alg».proof.Proof.LibSharedFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a grid point -/

/-- The reset run at point `t`, on the point's staging memrefs, the accumulators and the inputs' blocks. -/
def runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
/-- The plain run at point `t`, the accumulators found at `xs·`. -/
def runB (c : Dev nD) (t : Fin cfg0.N) (h0 : ¬t.val % 4 = 0) (h1 : ¬t.val % 4 = 3) (xs0 xs1 xs2 xs3 : Vec F S1024x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) xs0 xs1 xs2 xs3
/-- The finishing run at point `t`, the accumulators found at `xs·`. -/
def runC (c : Dev nD) (t : Fin cfg0.N) (h0 : ¬t.val % 4 = 0) (h1 : t.val % 4 = 3) (xs0 xs1 xs2 xs3 : Vec F S1024x256 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) xs0 xs1 xs2 xs3

/-- In case A the stores into accumulator 0 cover it, -/
theorem scoverA_0 (c : Dev nD) (t : Fin cfg0.N) (h0 : t.val % 4 = 0) (h1 : ¬t.val % 4 = 3) (y : S1024x256.Idx) :
    ∃ pc ∈ (runA m c t h0 h1).1, y ∈ pc.1.set :=
  View.cover_of_tiledL (runA m c t h0 h1).1 S1024x256.size (by sl_kernel_rfl) y
/-- and this is what they leave in it. -/
def soutA_0 (c : Dev nD) (t : Fin cfg0.N) (h0 : t.val % 4 = 0) (h1 : ¬t.val % 4 = 3) : Vec F S1024x256 .f32 :=
  VS0_0.read (Elt F) (VS0_0.writes (Elt F) VS0_0.junk (runA m c t h0 h1).1)

/-- In case A the stores into accumulator 1 cover it, -/
theorem scoverA_1 (c : Dev nD) (t : Fin cfg0.N) (h0 : t.val % 4 = 0) (h1 : ¬t.val % 4 = 3) (y : S1024x256.Idx) :
    ∃ pc ∈ (runA m c t h0 h1).2.1, y ∈ pc.1.set :=
  View.cover_of_tiledL (runA m c t h0 h1).2.1 S1024x256.size (by sl_kernel_rfl) y
/-- and this is what they leave in it. -/
def soutA_1 (c : Dev nD) (t : Fin cfg0.N) (h0 : t.val % 4 = 0) (h1 : ¬t.val % 4 = 3) : Vec F S1024x256 .f32 :=
  VS0_1.read (Elt F) (VS0_1.writes (Elt F) VS0_1.junk (runA m c t h0 h1).2.1)

/-- In case A the stores into accumulator 2 cover it, -/
theorem scoverA_2 (c : Dev nD) (t : Fin cfg0.N) (h0 : t.val % 4 = 0) (h1 : ¬t.val % 4 = 3) (y : S1024x256.Idx) :
    ∃ pc ∈ (runA m c t h0 h1).2.2.1, y ∈ pc.1.set :=
  View.cover_of_tiledL (runA m c t h0 h1).2.2.1 S1024x256.size (by sl_kernel_rfl) y
/-- and this is what they leave in it. -/
def soutA_2 (c : Dev nD) (t : Fin cfg0.N) (h0 : t.val % 4 = 0) (h1 : ¬t.val % 4 = 3) : Vec F S1024x256 .f32 :=
  VS0_2.read (Elt F) (VS0_2.writes (Elt F) VS0_2.junk (runA m c t h0 h1).2.2.1)

/-- In case A the stores into accumulator 3 cover it, -/
theorem scoverA_3 (c : Dev nD) (t : Fin cfg0.N) (h0 : t.val % 4 = 0) (h1 : ¬t.val % 4 = 3) (y : S1024x256.Idx) :
    ∃ pc ∈ (runA m c t h0 h1).2.2.2.1, y ∈ pc.1.set :=
  View.cover_of_tiledL (runA m c t h0 h1).2.2.2.1 S1024x256.size (by sl_kernel_rfl) y
/-- and this is what they leave in it. -/
def soutA_3 (c : Dev nD) (t : Fin cfg0.N) (h0 : t.val % 4 = 0) (h1 : ¬t.val % 4 = 3) : Vec F S1024x256 .f32 :=
  VS0_3.read (Elt F) (VS0_3.writes (Elt F) VS0_3.junk (runA m c t h0 h1).2.2.2.1)

/-- In case B the stores into accumulator 0 cover it, -/
theorem scoverB_0 (c : Dev nD) (t : Fin cfg0.N) (h0 : ¬t.val % 4 = 0) (h1 : ¬t.val % 4 = 3) (xs0 xs1 xs2 xs3 : Vec F S1024x256 .f32) (y : S1024x256.Idx) :
    ∃ pc ∈ (runB m c t h0 h1 xs0 xs1 xs2 xs3).1, y ∈ pc.1.set :=
  View.cover_of_tiledL (runB m c t h0 h1 xs0 xs1 xs2 xs3).1 S1024x256.size (by sl_kernel_rfl) y
/-- and this is what they leave in it. -/
def soutB_0 (c : Dev nD) (t : Fin cfg0.N) (h0 : ¬t.val % 4 = 0) (h1 : ¬t.val % 4 = 3) (xs0 xs1 xs2 xs3 : Vec F S1024x256 .f32) : Vec F S1024x256 .f32 :=
  VS0_0.read (Elt F) (VS0_0.writes (Elt F) VS0_0.junk (runB m c t h0 h1 xs0 xs1 xs2 xs3).1)

/-- In case B the stores into accumulator 1 cover it, -/
theorem scoverB_1 (c : Dev nD) (t : Fin cfg0.N) (h0 : ¬t.val % 4 = 0) (h1 : ¬t.val % 4 = 3) (xs0 xs1 xs2 xs3 : Vec F S1024x256 .f32) (y : S1024x256.Idx) :
    ∃ pc ∈ (runB m c t h0 h1 xs0 xs1 xs2 xs3).2.1, y ∈ pc.1.set :=
  View.cover_of_tiledL (runB m c t h0 h1 xs0 xs1 xs2 xs3).2.1 S1024x256.size (by sl_kernel_rfl) y
/-- and this is what they leave in it. -/
def soutB_1 (c : Dev nD) (t : Fin cfg0.N) (h0 : ¬t.val % 4 = 0) (h1 : ¬t.val % 4 = 3) (xs0 xs1 xs2 xs3 : Vec F S1024x256 .f32) : Vec F S1024x256 .f32 :=
  VS0_1.read (Elt F) (VS0_1.writes (Elt F) VS0_1.junk (runB m c t h0 h1 xs0 xs1 xs2 xs3).2.1)

/-- In case B the stores into accumulator 2 cover it, -/
theorem scoverB_2 (c : Dev nD) (t : Fin cfg0.N) (h0 : ¬t.val % 4 = 0) (h1 : ¬t.val % 4 = 3) (xs0 xs1 xs2 xs3 : Vec F S1024x256 .f32) (y : S1024x256.Idx) :
    ∃ pc ∈ (runB m c t h0 h1 xs0 xs1 xs2 xs3).2.2.1, y ∈ pc.1.set :=
  View.cover_of_tiledL (runB m c t h0 h1 xs0 xs1 xs2 xs3).2.2.1 S1024x256.size (by sl_kernel_rfl) y
/-- and this is what they leave in it. -/
def soutB_2 (c : Dev nD) (t : Fin cfg0.N) (h0 : ¬t.val % 4 = 0) (h1 : ¬t.val % 4 = 3) (xs0 xs1 xs2 xs3 : Vec F S1024x256 .f32) : Vec F S1024x256 .f32 :=
  VS0_2.read (Elt F) (VS0_2.writes (Elt F) VS0_2.junk (runB m c t h0 h1 xs0 xs1 xs2 xs3).2.2.1)

/-- In case B the stores into accumulator 3 cover it, -/
theorem scoverB_3 (c : Dev nD) (t : Fin cfg0.N) (h0 : ¬t.val % 4 = 0) (h1 : ¬t.val % 4 = 3) (xs0 xs1 xs2 xs3 : Vec F S1024x256 .f32) (y : S1024x256.Idx) :
    ∃ pc ∈ (runB m c t h0 h1 xs0 xs1 xs2 xs3).2.2.2.1, y ∈ pc.1.set :=
  View.cover_of_tiledL (runB m c t h0 h1 xs0 xs1 xs2 xs3).2.2.2.1 S1024x256.size (by sl_kernel_rfl) y
/-- and this is what they leave in it. -/
def soutB_3 (c : Dev nD) (t : Fin cfg0.N) (h0 : ¬t.val % 4 = 0) (h1 : ¬t.val % 4 = 3) (xs0 xs1 xs2 xs3 : Vec F S1024x256 .f32) : Vec F S1024x256 .f32 :=
  VS0_3.read (Elt F) (VS0_3.writes (Elt F) VS0_3.junk (runB m c t h0 h1 xs0 xs1 xs2 xs3).2.2.2.1)

/-- In case C the stores into accumulator 0 cover it, -/
theorem scoverC_0 (c : Dev nD) (t : Fin cfg0.N) (h0 : ¬t.val % 4 = 0) (h1 : t.val % 4 = 3) (xs0 xs1 xs2 xs3 : Vec F S1024x256 .f32) (y : S1024x256.Idx) :
    ∃ pc ∈ (runC m c t h0 h1 xs0 xs1 xs2 xs3).2.2.1, y ∈ pc.1.set :=
  View.cover_of_tiledL (runC m c t h0 h1 xs0 xs1 xs2 xs3).2.2.1 S1024x256.size (by sl_kernel_rfl) y
/-- and this is what they leave in it. -/
def soutC_0 (c : Dev nD) (t : Fin cfg0.N) (h0 : ¬t.val % 4 = 0) (h1 : t.val % 4 = 3) (xs0 xs1 xs2 xs3 : Vec F S1024x256 .f32) : Vec F S1024x256 .f32 :=
  VS0_0.read (Elt F) (VS0_0.writes (Elt F) VS0_0.junk (runC m c t h0 h1 xs0 xs1 xs2 xs3).2.2.1)

/-- In case C the stores into accumulator 1 cover it, -/
theorem scoverC_1 (c : Dev nD) (t : Fin cfg0.N) (h0 : ¬t.val % 4 = 0) (h1 : t.val % 4 = 3) (xs0 xs1 xs2 xs3 : Vec F S1024x256 .f32) (y : S1024x256.Idx) :
    ∃ pc ∈ (runC m c t h0 h1 xs0 xs1 xs2 xs3).2.2.2.1, y ∈ pc.1.set :=
  View.cover_of_tiledL (runC m c t h0 h1 xs0 xs1 xs2 xs3).2.2.2.1 S1024x256.size (by sl_kernel_rfl) y
/-- and this is what they leave in it. -/
def soutC_1 (c : Dev nD) (t : Fin cfg0.N) (h0 : ¬t.val % 4 = 0) (h1 : t.val % 4 = 3) (xs0 xs1 xs2 xs3 : Vec F S1024x256 .f32) : Vec F S1024x256 .f32 :=
  VS0_1.read (Elt F) (VS0_1.writes (Elt F) VS0_1.junk (runC m c t h0 h1 xs0 xs1 xs2 xs3).2.2.2.1)

/-- In case C the stores into accumulator 2 cover it, -/
theorem scoverC_2 (c : Dev nD) (t : Fin cfg0.N) (h0 : ¬t.val % 4 = 0) (h1 : t.val % 4 = 3) (xs0 xs1 xs2 xs3 : Vec F S1024x256 .f32) (y : S1024x256.Idx) :
    ∃ pc ∈ (runC m c t h0 h1 xs0 xs1 xs2 xs3).2.2.2.2.1, y ∈ pc.1.set :=
  View.cover_of_tiledL (runC m c t h0 h1 xs0 xs1 xs2 xs3).2.2.2.2.1 S1024x256.size (by sl_kernel_rfl) y
/-- and this is what they leave in it. -/
def soutC_2 (c : Dev nD) (t : Fin cfg0.N) (h0 : ¬t.val % 4 = 0) (h1 : t.val % 4 = 3) (xs0 xs1 xs2 xs3 : Vec F S1024x256 .f32) : Vec F S1024x256 .f32 :=
  VS0_2.read (Elt F) (VS0_2.writes (Elt F) VS0_2.junk (runC m c t h0 h1 xs0 xs1 xs2 xs3).2.2.2.2.1)

/-- In case C the stores into accumulator 3 cover it, -/
theorem scoverC_3 (c : Dev nD) (t : Fin cfg0.N) (h0 : ¬t.val % 4 = 0) (h1 : t.val % 4 = 3) (xs0 xs1 xs2 xs3 : Vec F S1024x256 .f32) (y : S1024x256.Idx) :
    ∃ pc ∈ (runC m c t h0 h1 xs0 xs1 xs2 xs3).2.2.2.2.2.1, y ∈ pc.1.set :=
  View.cover_of_tiledL (runC m c t h0 h1 xs0 xs1 xs2 xs3).2.2.2.2.2.1 S1024x256.size (by sl_kernel_rfl) y
/-- and this is what they leave in it. -/
def soutC_3 (c : Dev nD) (t : Fin cfg0.N) (h0 : ¬t.val % 4 = 0) (h1 : t.val % 4 = 3) (xs0 xs1 xs2 xs3 : Vec F S1024x256 .f32) : Vec F S1024x256 .f32 :=
  VS0_3.read (Elt F) (VS0_3.writes (Elt F) VS0_3.junk (runC m c t h0 h1 xs0 xs1 xs2 xs3).2.2.2.2.2.1)

/-- At a finish the stores into result block 15 cover it, -/
theorem coverC_15 (c : Dev nD) (t : Fin cfg0.N) (h0 : ¬t.val % 4 = 0) (h1 : t.val % 4 = 3) (xs0 xs1 xs2 xs3 : Vec F S1024x256 .f32) (y : S1024x256.Idx) :
    ∃ pc ∈ (runC m c t h0 h1 xs0 xs1 xs2 xs3).1, y ∈ pc.1.set :=
  View.cover_of_tiledL (runC m c t h0 h1 xs0 xs1 xs2 xs3).1 S1024x256.size (by sl_kernel_rfl) y
/-- and this is what they leave in it. -/
def outC_15 (c : Dev nD) (t : Fin cfg0.N) (h0 : ¬t.val % 4 = 0) (h1 : t.val % 4 = 3) (xs0 xs1 xs2 xs3 : Vec F S1024x256 .f32) : Vec F S1024x256 .f32 :=
  VO0_15.read (Elt F) (VO0_15.writes (Elt F) VO0_15.junk (runC m c t h0 h1 xs0 xs1 xs2 xs3).1)

/-- At a finish the stores into result block 16 cover it, -/
theorem coverC_16 (c : Dev nD) (t : Fin cfg0.N) (h0 : ¬t.val % 4 = 0) (h1 : t.val % 4 = 3) (xs0 xs1 xs2 xs3 : Vec F S1024x256 .f32) (y : S1024x256.Idx) :
    ∃ pc ∈ (runC m c t h0 h1 xs0 xs1 xs2 xs3).2.1, y ∈ pc.1.set :=
  View.cover_of_tiledL (runC m c t h0 h1 xs0 xs1 xs2 xs3).2.1 S1024x256.size (by sl_kernel_rfl) y
/-- and this is what they leave in it. -/
def outC_16 (c : Dev nD) (t : Fin cfg0.N) (h0 : ¬t.val % 4 = 0) (h1 : t.val % 4 = 3) (xs0 xs1 xs2 xs3 : Vec F S1024x256 .f32) : Vec F S1024x256 .f32 :=
  VO0_16.read (Elt F) (VO0_16.writes (Elt F) VO0_16.junk (runC m c t h0 h1 xs0 xs1 xs2 xs3).2.1)

/-! ## The accumulators after each point -/

/-- What the four accumulators hold after the body at position `n`: a reset point starts afresh, any other point
    continues from what the point before left. -/
def accAt (c : Dev nD) : (n : ℕ) → n < cfg0.N → Vec F S1024x256 .f32 × Vec F S1024x256 .f32 × Vec F S1024x256 .f32 × Vec F S1024x256 .f32
  | 0, hn => (soutA_0 m c ⟨0, hn⟩ (Nat.zero_mod _) (show ¬(0 % 4 = 3) from by decide), soutA_1 m c ⟨0, hn⟩ (Nat.zero_mod _) (show ¬(0 % 4 = 3) from by decide), soutA_2 m c ⟨0, hn⟩ (Nat.zero_mod _) (show ¬(0 % 4 = 3) from by decide), soutA_3 m c ⟨0, hn⟩ (Nat.zero_mod _) (show ¬(0 % 4 = 3) from by decide))
  | n + 1, hn =>
    if h0 : (n + 1) % 4 = 0 then
      (soutA_0 m c ⟨n + 1, hn⟩ h0 (show ¬((n + 1) % 4 = 3) from by omega), soutA_1 m c ⟨n + 1, hn⟩ h0 (show ¬((n + 1) % 4 = 3) from by omega), soutA_2 m c ⟨n + 1, hn⟩ h0 (show ¬((n + 1) % 4 = 3) from by omega), soutA_3 m c ⟨n + 1, hn⟩ h0 (show ¬((n + 1) % 4 = 3) from by omega))
    else
      if h1 : (n + 1) % 4 = 3 then
        (soutC_0 m c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2, soutC_1 m c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2, soutC_2 m c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2, soutC_3 m c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2)
      else
        (soutB_0 m c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2, soutB_1 m c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2, soutB_2 m c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2, soutB_3 m c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2)

theorem accAt_A (c : Dev nD) (t : Fin cfg0.N) (h0 : t.val % 4 = 0) (h1 : ¬t.val % 4 = 3) :
    accAt m c t.val t.isLt = (soutA_0 m c t h0 h1, soutA_1 m c t h0 h1, soutA_2 m c t h0 h1, soutA_3 m c t h0 h1) := by
  obtain ⟨n, hn⟩ := t
  cases n with
  | zero => exact rfl
  | succ n => exact (dif_pos h0).trans rfl

theorem accAt_B (c : Dev nD) (t : Fin cfg0.N) (h0 : ¬t.val % 4 = 0) (h1 : ¬t.val % 4 = 3) :
    accAt m c t.val t.isLt = (soutB_0 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2, soutB_1 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2, soutB_2 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2, soutB_3 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg0.N) (h0 : ¬t.val % 4 = 0) (h1 : t.val % 4 = 3) :
    accAt m c t.val t.isLt = (soutC_0 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2, soutC_1 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2, soutC_2 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2, soutC_3 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- What result block `w`'s staging buffer holds after point `t`: at a finish what the finishing run stored, computed
    from what the point before left in the accumulators; elsewhere the buffer is idle and this is never consulted. -/
def outAt15 (c : Dev nD) (t : Fin cfg0.N) : Vec F S1024x256 .f32 :=
  if h1 : t.val % 4 = 3 then outC_15 m c t (by omega) h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2
  else VO0_15.read (Elt F) VO0_15.junk
theorem outAt15_C (c : Dev nD) (t : Fin cfg0.N) (h0 : ¬t.val % 4 = 0) (h1 : t.val % 4 = 3) :
    outAt15 m c t = outC_15 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2 := dif_pos h1
def outAt16 (c : Dev nD) (t : Fin cfg0.N) : Vec F S1024x256 .f32 :=
  if h1 : t.val % 4 = 3 then outC_16 m c t (by omega) h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2
  else VO0_16.read (Elt F) VO0_16.junk
theorem outAt16_C (c : Dev nD) (t : Fin cfg0.N) (h0 : ¬t.val % 4 = 0) (h1 : t.val % 4 = 3) :
    outAt16 m c t = outC_16 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2 := dif_pos h1

/-! ## The invariant carried from point to point -/

/-- Before the first point the accumulators hold anything; after point `n` they hold `accAt n`. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((accAt m c n hn).1) ∗ owns (c : Thread nD τ) scM0_1 fullShare ((accAt m c n hn).2.1) ∗ owns (c : Thread nD τ) scM0_2 fullShare ((accAt m c n hn).2.2.1) ∗ owns (c : Thread nD τ) scM0_3 fullShare ((accAt m c n hn).2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scM0_0 fullShare ((accAt m c n hn).1) ∗ owns (c : Thread nD τ) scM0_1 fullShare ((accAt m c n hn).2.1) ∗ owns (c : Thread nD τ) scM0_2 fullShare ((accAt m c n hn).2.2.1) ∗ owns (c : Thread nD τ) scM0_3 fullShare ((accAt m c n hn).2.2.2)) := rfl
theorem PhiS_pos (c : Dev nD) (n : ℕ) (h : n ≤ cfg0.N) (hz : n ≠ 0) :
    PhiS m c n h = iprop(owns (c : Thread nD τ) scM0_0 fullShare ((accAt m c (n - 1) (by omega)).1) ∗ owns (c : Thread nD τ) scM0_1 fullShare ((accAt m c (n - 1) (by omega)).2.1) ∗ owns (c : Thread nD τ) scM0_2 fullShare ((accAt m c (n - 1) (by omega)).2.2.1) ∗ owns (c : Thread nD τ) scM0_3 fullShare ((accAt m c (n - 1) (by omega)).2.2.2)) := by
  cases n with
  | zero => exact absurd rfl hz
  | succ n => rfl

/-! ## The proof data -/

/-- The share each input window holds of its array: a quarter for the four windows on one array, else all of it. -/
def qshare : Fin 17 → PosShare TreeShare
  | 3 => fullShare.left.left | 4 => fullShare.left.right | 5 => fullShare.right.left | 6 => fullShare.right.right
  | 7 => fullShare.left.left | 8 => fullShare.left.right | 9 => fullShare.right.left | 10 => fullShare.right.right
  | 11 => fullShare.left.left | 12 => fullShare.left.right | 13 => fullShare.right.left | 14 => fullShare.right.right
  | _ => fullShare

/-- The arrays as the region finds them; after the body at point `t` each input's buffer at its block and each
    result's at `outAt·`; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt15 m c t
    | ⟨16, _⟩ => outAt16 m c t
    | ⟨n + 17, h⟩ => absurd h (Nat.not_lt.2 (Nat.le_add_left _ _))
  Φ t := PhiS m c t.val (Nat.le_of_lt_succ t.isLt)
  q := qshare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = outAt15 m c t := by dsimp only [dats]
theorem after0_16 (c : Dev nD) (t : Fin cfg0.N) : (dats m 0 c).after 16 t = outAt16 m c t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    (dats m 0 c).leavesExact 0 t = owns (c : Thread nD τ) (ms0_0 t) fullShare (iblk m c 0 t) := by
  unfold Dat.leavesExact; rw [show cfg0.idle 0 (cfg0.grid.coords t) = false from rfl, after0_0]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    (dats m 0 c).leavesExact 1 t = owns (c : Thread nD τ) (ms0_1 t) fullShare (iblk m c 1 t) := by
  unfold Dat.leavesExact; rw [show cfg0.idle 1 (cfg0.grid.coords t) = false from rfl, after0_1]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    (dats m 0 c).leavesExact 2 t = owns (c : Thread nD τ) (ms0_2 t) fullShare (iblk m c 2 t) := by
  unfold Dat.leavesExact; rw [show cfg0.idle 2 (cfg0.grid.coords t) = false from rfl, after0_2]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) :
    (dats m 0 c).leavesExact 3 t = owns (c : Thread nD τ) (ms0_3 t) fullShare (iblk m c 3 t) := by
  unfold Dat.leavesExact; rw [show cfg0.idle 3 (cfg0.grid.coords t) = false from rfl, after0_3]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) :
    (dats m 0 c).leavesExact 4 t = owns (c : Thread nD τ) (ms0_4 t) fullShare (iblk m c 4 t) := by
  unfold Dat.leavesExact; rw [show cfg0.idle 4 (cfg0.grid.coords t) = false from rfl, after0_4]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) :
    (dats m 0 c).leavesExact 5 t = owns (c : Thread nD τ) (ms0_5 t) fullShare (iblk m c 5 t) := by
  unfold Dat.leavesExact; rw [show cfg0.idle 5 (cfg0.grid.coords t) = false from rfl, after0_5]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) :
    (dats m 0 c).leavesExact 6 t = owns (c : Thread nD τ) (ms0_6 t) fullShare (iblk m c 6 t) := by
  unfold Dat.leavesExact; rw [show cfg0.idle 6 (cfg0.grid.coords t) = false from rfl, after0_6]
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) :
    (dats m 0 c).leavesExact 7 t = owns (c : Thread nD τ) (ms0_7 t) fullShare (iblk m c 7 t) := by
  unfold Dat.leavesExact; rw [show cfg0.idle 7 (cfg0.grid.coords t) = false from rfl, after0_7]
theorem before0_8 (c : Dev nD) (t : Fin cfg0.N) (d) : (dats m 0 c).before 8 t d = iblk m c 8 t :=
  before0_8_of m (dats m 0 c) (A_eq m c 8) (after0_8 m c) t d
theorem leaves0_8 (c : Dev nD) (t : Fin cfg0.N) :
    (dats m 0 c).leavesExact 8 t = owns (c : Thread nD τ) (ms0_8 t) fullShare (iblk m c 8 t) := by
  unfold Dat.leavesExact; rw [show cfg0.idle 8 (cfg0.grid.coords t) = false from rfl, after0_8]
theorem before0_9 (c : Dev nD) (t : Fin cfg0.N) (d) : (dats m 0 c).before 9 t d = iblk m c 9 t :=
  before0_9_of m (dats m 0 c) (A_eq m c 9) (after0_9 m c) t d
theorem leaves0_9 (c : Dev nD) (t : Fin cfg0.N) :
    (dats m 0 c).leavesExact 9 t = owns (c : Thread nD τ) (ms0_9 t) fullShare (iblk m c 9 t) := by
  unfold Dat.leavesExact; rw [show cfg0.idle 9 (cfg0.grid.coords t) = false from rfl, after0_9]
theorem before0_10 (c : Dev nD) (t : Fin cfg0.N) (d) : (dats m 0 c).before 10 t d = iblk m c 10 t :=
  before0_10_of m (dats m 0 c) (A_eq m c 10) (after0_10 m c) t d
theorem leaves0_10 (c : Dev nD) (t : Fin cfg0.N) :
    (dats m 0 c).leavesExact 10 t = owns (c : Thread nD τ) (ms0_10 t) fullShare (iblk m c 10 t) := by
  unfold Dat.leavesExact; rw [show cfg0.idle 10 (cfg0.grid.coords t) = false from rfl, after0_10]
theorem before0_11 (c : Dev nD) (t : Fin cfg0.N) (d) : (dats m 0 c).before 11 t d = iblk m c 11 t :=
  before0_11_of m (dats m 0 c) (A_eq m c 11) (after0_11 m c) t d
theorem leaves0_11 (c : Dev nD) (t : Fin cfg0.N) :
    (dats m 0 c).leavesExact 11 t = owns (c : Thread nD τ) (ms0_11 t) fullShare (iblk m c 11 t) := by
  unfold Dat.leavesExact; rw [show cfg0.idle 11 (cfg0.grid.coords t) = false from rfl, after0_11]
theorem before0_12 (c : Dev nD) (t : Fin cfg0.N) (d) : (dats m 0 c).before 12 t d = iblk m c 12 t :=
  before0_12_of m (dats m 0 c) (A_eq m c 12) (after0_12 m c) t d
theorem leaves0_12 (c : Dev nD) (t : Fin cfg0.N) :
    (dats m 0 c).leavesExact 12 t = owns (c : Thread nD τ) (ms0_12 t) fullShare (iblk m c 12 t) := by
  unfold Dat.leavesExact; rw [show cfg0.idle 12 (cfg0.grid.coords t) = false from rfl, after0_12]
theorem before0_13 (c : Dev nD) (t : Fin cfg0.N) (d) : (dats m 0 c).before 13 t d = iblk m c 13 t :=
  before0_13_of m (dats m 0 c) (A_eq m c 13) (after0_13 m c) t d
theorem leaves0_13 (c : Dev nD) (t : Fin cfg0.N) :
    (dats m 0 c).leavesExact 13 t = owns (c : Thread nD τ) (ms0_13 t) fullShare (iblk m c 13 t) := by
  unfold Dat.leavesExact; rw [show cfg0.idle 13 (cfg0.grid.coords t) = false from rfl, after0_13]
theorem before0_14 (c : Dev nD) (t : Fin cfg0.N) (d) : (dats m 0 c).before 14 t d = iblk m c 14 t :=
  before0_14_of m (dats m 0 c) (A_eq m c 14) (after0_14 m c) t d
theorem leaves0_14 (c : Dev nD) (t : Fin cfg0.N) :
    (dats m 0 c).leavesExact 14 t = owns (c : Thread nD τ) (ms0_14 t) fullShare (iblk m c 14 t) := by
  unfold Dat.leavesExact; rw [show cfg0.idle 14 (cfg0.grid.coords t) = false from rfl, after0_14]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 8000000 in
/-- The body at any point: the inputs' buffers hold their blocks; the point's number mod 4 says which run applies;
    the invariant hands the run the accumulators at what the point before left (at anything before the first point)
    and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  simp only [leaves0_0, leaves0_1, leaves0_2, leaves0_3, leaves0_4, leaves0_5, leaves0_6, leaves0_7, leaves0_8, leaves0_9, leaves0_10, leaves0_11, leaves0_12, leaves0_13, leaves0_14]
  have hN : t.val < 256 := lt_of_lt_of_eq t.isLt (show cfg0.N = 256 from N_0)
  by_cases h0 : t.val % 4 = 0
  · have h1 : ¬t.val % 4 = 3 := by omega
    rw [Dat.leavesExact_idle (dats m 0 c) 15 t (idleAt0_15 t (fun h => h1 ((hcond0_1 t).mp h))) (noFlush0_15 t (fun h => h1 ((hcond0_1 t).mp h)))]
    rw [Dat.leavesExact_idle (dats m 0 c) 16 t (idleAt0_16 t (fun h => h1 ((hcond0_1 t).mp h))) (noFlush0_16 t (fun h => h1 ((hcond0_1 t).mp h)))]
    rw [accAt_A m c t h0 h1]
    unfold soutA_0 soutA_1 soutA_2 soutA_3; (try dsimp only)
    by_cases hz : t.val = 0
    · rw [PhiS_castSucc m c t, PhiS_zero m c _ _ hz, scoped0_eq]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((runA m c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3]
      · isplitl [HS0]
        · unfold owns; iexists _; isplitr
          swap; · iexact HS0
          ipureintro; exact View.read_writes_of_cover _ _ _ _ _ (scoverA_0 m c t h0 h1)
        isplitl [HS1]
        · unfold owns; iexists _; isplitr
          swap; · iexact HS1
          ipureintro; exact View.read_writes_of_cover _ _ _ _ _ (scoverA_1 m c t h0 h1)
        isplitl [HS2]
        · unfold owns; iexists _; isplitr
          swap; · iexact HS2
          ipureintro; exact View.read_writes_of_cover _ _ _ _ _ (scoverA_2 m c t h0 h1)
        unfold owns; iexists _; isplitr
        swap; · iexact HS3
        ipureintro; exact View.read_writes_of_cover _ _ _ _ _ (scoverA_3 m c t h0 h1)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16
    · rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((runA m c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3]
      · isplitl [HS0]
        · unfold owns; iexists _; isplitr
          swap; · iexact HS0
          ipureintro; exact View.read_writes_of_cover _ _ _ _ _ (scoverA_0 m c t h0 h1)
        isplitl [HS1]
        · unfold owns; iexists _; isplitr
          swap; · iexact HS1
          ipureintro; exact View.read_writes_of_cover _ _ _ _ _ (scoverA_1 m c t h0 h1)
        isplitl [HS2]
        · unfold owns; iexists _; isplitr
          swap; · iexact HS2
          ipureintro; exact View.read_writes_of_cover _ _ _ _ _ (scoverA_2 m c t h0 h1)
        unfold owns; iexists _; isplitr
        swap; · iexact HS3
        ipureintro; exact View.read_writes_of_cover _ _ _ _ _ (scoverA_3 m c t h0 h1)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16
  · have hz : t.val ≠ 0 := fun e => h0 (by rw [e])
    by_cases h1 : t.val % 4 = 3
    · rw [show (dats m 0 c).leavesExact 15 t = owns (c : Thread nD τ) (ms0_15 t) fullShare ((dats m 0 c).after 15 t) from by
        unfold Dat.leavesExact; rw [liveAt0_15 t ((hcond0_1 t).mpr h1)], after0_15, outAt15_C m c t h0 h1]
      rw [show (dats m 0 c).leavesExact 16 t = owns (c : Thread nD τ) (ms0_16 t) fullShare ((dats m 0 c).after 16 t) from by
        unfold Dat.leavesExact; rw [liveAt0_16 t ((hcond0_1 t).mpr h1)], after0_16, outAt16_C m c t h0 h1]
      rw [accAt_C m c t h0 h1]
      unfold soutC_0 soutC_1 soutC_2 soutC_3 outC_15 outC_16; (try dsimp only)
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((runC m c t h0 h1 _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, ⟨%e15, H15⟩, ⟨%e16, H16⟩, ⟨%es0, HS0⟩, ⟨%es1, HS1⟩, ⟨%es2, HS2⟩, ⟨%es3, HS3⟩⟩
      isplitl [HS0 HS1 HS2 HS3]
      · isplitl [HS0]
        · unfold owns; iexists _; isplitr
          swap; · iexact HS0
          ipureintro; exact View.read_writes_of_cover _ _ _ _ _ (scoverC_0 m c t h0 h1 _ _ _ _)
        isplitl [HS1]
        · unfold owns; iexists _; isplitr
          swap; · iexact HS1
          ipureintro; exact View.read_writes_of_cover _ _ _ _ _ (scoverC_1 m c t h0 h1 _ _ _ _)
        isplitl [HS2]
        · unfold owns; iexists _; isplitr
          swap; · iexact HS2
          ipureintro; exact View.read_writes_of_cover _ _ _ _ _ (scoverC_2 m c t h0 h1 _ _ _ _)
        unfold owns; iexists _; isplitr
        swap; · iexact HS3
        ipureintro; exact View.read_writes_of_cover _ _ _ _ _ (scoverC_3 m c t h0 h1 _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (coverC_15 m c t h0 h1 _ _ _ _)
      unfold owns; iexists _; isplitr
      swap; · iexact H16
      ipureintro; exact View.read_writes_of_cover _ _ _ _ _ (coverC_16 m c t h0 h1 _ _ _ _)
    · rw [Dat.leavesExact_idle (dats m 0 c) 15 t (idleAt0_15 t (fun h => h1 ((hcond0_1 t).mp h))) (noFlush0_15 t (fun h => h1 ((hcond0_1 t).mp h)))]
      rw [Dat.leavesExact_idle (dats m 0 c) 16 t (idleAt0_16 t (fun h => h1 ((hcond0_1 t).mp h))) (noFlush0_16 t (fun h => h1 ((hcond0_1 t).mp h)))]
      rw [accAt_B m c t h0 h1]
      unfold soutB_0 soutB_1 soutB_2 soutB_3; (try dsimp only)
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((runB m c t h0 h1 _ _ _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3]
      · isplitl [HS0]
        · unfold owns; iexists _; isplitr
          swap; · iexact HS0
          ipureintro; exact View.read_writes_of_cover _ _ _ _ _ (scoverB_0 m c t h0 h1 _ _ _ _)
        isplitl [HS1]
        · unfold owns; iexists _; isplitr
          swap; · iexact HS1
          ipureintro; exact View.read_writes_of_cover _ _ _ _ _ (scoverB_1 m c t h0 h1 _ _ _ _)
        isplitl [HS2]
        · unfold owns; iexists _; isplitr
          swap; · iexact HS2
          ipureintro; exact View.read_writes_of_cover _ _ _ _ _ (scoverB_2 m c t h0 h1 _ _ _ _)
        unfold owns; iexists _; isplitr
        swap; · iexact HS3
        ipureintro; exact View.read_writes_of_cover _ _ _ _ _ (scoverB_3 m c t h0 h1 _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsFrame.lean ====
/-
  The LSTM-cell kernel's frame: the invariant before the first point and after the last, the arrays' shares dealt
  among the windows, the run, and the frame claim's post read off it.
-/
import proofs.«168456_j39350490366667_2_alg».proof.Proof.BitsFrameCore

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before the first point and after the last -/

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back, their contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), scoped0_eq]
  iintro ⟨HS0, HS1, HS2, HS3⟩
  isplitl [HS0]; · iexists _; iexact HS0
  isplitl [HS1]; · iexists _; iexact HS1
  isplitl [HS2]; · iexists _; iexact HS2
  iexists _; iexact HS3

/-! ## The arrays' shares dealt among the windows -/

/-- The distinct buffers behind the seventeen windows' arrays, one by one. -/
theorem arrBufs0_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v0) ↦{fullShare} W main_v0) ∗ (((c.tc : Thread nD τ).loc main_v1) ↦{fullShare} W main_v1)
        ∗ (((c.tc : Thread nD τ).loc main_arg2) ↦{fullShare} W main_arg2) ∗ (((c.tc : Thread nD τ).loc main_v2) ↦{fullShare} W main_v2)
        ∗ (((c.tc : Thread nD τ).loc main_v3) ↦{fullShare} W main_v3) ∗ (((c.tc : Thread nD τ).loc main_v5) ↦{fullShare} W main_v5)
        ∗ (((c.tc : Thread nD τ).loc main_v6_0) ↦{fullShare} W main_v6_0) ∗ (((c.tc : Thread nD τ).loc main_v6_1) ↦{fullShare} W main_v6_1)) := by
  unfold Pipeline.arrBufs
  exact Idealize.SL.BI.bigSep_eq_bigSepL_of_eq [main_v0, main_v1, main_arg2, main_v2, main_v3, main_v5, main_v6_0, main_v6_1] (by decide) (by decide) _

/-- The eight buffers, each whole at the full share, make the seventeen windows' arrays at the windows' shares: the
    packed weights and the summed bias are each held in quarters, one per gate's window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [Cert.Lib.SharedFrame.arrays_eq_shares cfgs (dats m) 0 c arr_whole0, bigSep_W0]
  rw [arrBufs0_eq]
  iintro ⟨Hv0, Hv1, Ha2, Hv2, Hv3, Hv5, Ho0, Ho1⟩
  ihave Hq2 := Cert.Lib.SharedFrame.pointsTo_quarters _ $$ Hv2
  icases Hq2 with ⟨Hw3, Hw4, Hw5, Hw6⟩
  ihave Hq3 := Cert.Lib.SharedFrame.pointsTo_quarters _ $$ Hv3
  icases Hq3 with ⟨Hw7, Hw8, Hw9, Hw10⟩
  ihave Hq5 := Cert.Lib.SharedFrame.pointsTo_quarters _ $$ Hv5
  icases Hq5 with ⟨Hw11, Hw12, Hw13, Hw14⟩
  isplitl [Hv0]; · iexact Hv0
  isplitl [Hv1]; · iexact Hv1
  isplitl [Ha2]; · iexact Ha2
  isplitl [Hw3]; · iexact Hw3
  isplitl [Hw4]; · iexact Hw4
  isplitl [Hw5]; · iexact Hw5
  isplitl [Hw6]; · iexact Hw6
  isplitl [Hw7]; · iexact Hw7
  isplitl [Hw8]; · iexact Hw8
  isplitl [Hw9]; · iexact Hw9
  isplitl [Hw10]; · iexact Hw10
  isplitl [Hw11]; · iexact Hw11
  isplitl [Hw12]; · iexact Hw12
  isplitl [Hw13]; · iexact Hw13
  isplitl [Hw14]; · iexact Hw14
  isplitl [Ho0]; · iexact Ho0
  iexact Ho1

/-! ## The run and the frame -/

set_option backward.isDefEq.respectTransparency.types false in
/-- Every weakly fair execution of @main terminates, and every final state has every window's array at what the
    library computes from the proof data and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (hin m) (hout m)

/-- The host operations before the region write none of the seven argument arrays. -/
theorem V_main_arg0 (c : Dev nD) : V m c main_arg0 = m ((c : Thread nD τ).loc main_arg0) := by
  first | rfl | (dsimp only [V, V0, hostOps0]; after_results)
theorem V_main_arg1 (c : Dev nD) : V m c main_arg1 = m ((c : Thread nD τ).loc main_arg1) := by
  first | rfl | (dsimp only [V, V0, hostOps0]; after_results)
theorem V_main_arg2 (c : Dev nD) : V m c main_arg2 = m ((c : Thread nD τ).loc main_arg2) := by
  first | rfl | (dsimp only [V, V0, hostOps0]; after_results)
theorem V_main_arg3 (c : Dev nD) : V m c main_arg3 = m ((c : Thread nD τ).loc main_arg3) := by
  first | rfl | (dsimp only [V, V0, hostOps0]; after_results)
theorem V_main_arg4 (c : Dev nD) : V m c main_arg4 = m ((c : Thread nD τ).loc main_arg4) := by
  first | rfl | (dsimp only [V, V0, hostOps0]; after_results)
theorem V_main_arg5 (c : Dev nD) : V m c main_arg5 = m ((c : Thread nD τ).loc main_arg5) := by
  first | rfl | (dsimp only [V, V0, hostOps0]; after_results)
theorem V_main_arg6 (c : Dev nD) : V m c main_arg6 = m ((c : Thread nD τ).loc main_arg6) := by
  first | rfl | (dsimp only [V, V0, hostOps0]; after_results)

theorem rest_main_arg0 : main_arg0 ∈ Pipeline.restRefs sig spec0 := Pipeline.mem_restRefs_of main_arg0 rfl (by decide)
theorem rest_main_arg1 : main_arg1 ∈ Pipeline.restRefs sig spec0 := Pipeline.mem_restRefs_of main_arg1 rfl (by decide)
theorem rest_main_arg3 : main_arg3 ∈ Pipeline.restRefs sig spec0 := Pipeline.mem_restRefs_of main_arg3 rfl (by decide)
theorem rest_main_arg4 : main_arg4 ∈ Pipeline.restRefs sig spec0 := Pipeline.mem_restRefs_of main_arg4 rfl (by decide)
theorem rest_main_arg5 : main_arg5 ∈ Pipeline.restRefs sig spec0 := Pipeline.mem_restRefs_of main_arg5 rfl (by decide)
theorem rest_main_arg6 : main_arg6 ∈ Pipeline.restRefs sig spec0 := Pipeline.mem_restRefs_of main_arg6 rfl (by decide)

/-- The frame: the program runs to the end, faults nowhere, and leaves its seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 rest_main_arg0).trans (V_main_arg0 m c),
     ((h c).2 main_arg1 rest_main_arg1).trans (V_main_arg1 m c),
     ((h c).1 2).trans (((dats m 0 c).arrAt_in 2 rfl _).trans ((A_eq m c 2).trans (V_main_arg2 m c))),
     ((h c).2 main_arg3 rest_main_arg3).trans (V_main_arg3 m c),
     ((h c).2 main_arg4 rest_main_arg4).trans (V_main_arg4 m c),
     ((h c).2 main_arg5 rest_main_arg5).trans (V_main_arg5 m c),
     ((h c).2 main_arg6 rest_main_arg6).trans (V_main_arg6 m c)⟩) (run_main m ρ)

end Cert.Kernel.Hand

end
-- ==== Proof.IdealFrameDefs.lean ====
/-
  What the three runs of the LSTM-cell kernel's body share.

  The grid is 8 x 8 x 4: a point is (row block mb, column block nb, reduction block kb), kb innermost, so the
  point numbered t has kb = t mod 4. The body keeps four accumulators (one per gate) in scratch buffers
  between points: at kb = 0 it zeroes them, at every point it adds the two products of that reduction block
  into each, and at kb = 3 it turns them into the two result blocks. Hence three control cases, by t mod 4:
  0 (reset, then add), 1 or 2 (add), 3 (add, then finish). The result windows' blocks do not depend on kb;
  they are stored, and written back, only at kb = 3.

  Here: the arrays as the region finds them (after the six host operations before it), each window's
  block at a point, that an input window's staging buffer holds its block at every point, the two branch
  conditions in closed form over the grid, where the result windows are idle, and the scratch invariant's
  spelling as owned memrefs.
-/
import proofs.«168456_j39350490366667_2_alg».proof.Proof.Gen.KernelIdeal.Launch
import proofs.«168456_j39350490366667_2_alg».proof.Proof.Gen.KernelIdeal.Skeleton
import proofs.«168456_j39350490366667_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The buffers' contents when the region is entered: after the host operations before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor

/-- @main is the host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not: where it is
    not fetched the block index has not moved. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not: where it is
    not fetched the block index has not moved. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not: where it is
    not fetched the block index has not moved. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every point, fetched there or not: where it is
    not fetched the block index has not moved. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every point, fetched there or not: where it is
    not fetched the block index has not moved. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every point, fetched there or not: where it is
    not fetched the block index has not moved. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

/-- Input window 6's current staging buffer holds its block at every point, fetched there or not: where it is
    not fetched the block index has not moved. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-- Input window 7's current staging buffer holds its block at every point, fetched there or not: where it is
    not fetched the block index has not moved. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)

/-- Input window 8's current staging buffer holds its block at every point, fetched there or not: where it is
    not fetched the block index has not moved. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)

/-- Input window 9's current staging buffer holds its block at every point, fetched there or not: where it is
    not fetched the block index has not moved. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-- Input window 10's current staging buffer holds its block at every point, fetched there or not: where it is
    not fetched the block index has not moved. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-- Input window 11's current staging buffer holds its block at every point, fetched there or not: where it is
    not fetched the block index has not moved. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-- Input window 12's current staging buffer holds its block at every point, fetched there or not: where it is
    not fetched the block index has not moved. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)

/-- Input window 13's current staging buffer holds its block at every point, fetched there or not: where it is
    not fetched the block index has not moved. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)

/-- Input window 14's current staging buffer holds its block at every point, fetched there or not: where it is
    not fetched the block index has not moved. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)

/-! ## The body's two branch conditions -/

/-- The reset's condition: the reduction coordinate is 0. -/
abbrev cond0_0 (i : grid0.Coords) : Prop := (Scalar.cmpi .ne (Scalar.extui (Scalar.cmpi .eq (BitVec.ofNat 32 (i 2).val) 0#32)) 0#32) = 1#1
/-- It holds at the points ≡ 0 (mod 4). -/
theorem hcond0_0 : ∀ t : Fin cfg0.N, cond0_0 (grid0.coords t) ↔ t.val % 4 = 0 :=
  (by decide +kernel : ∀ t : Fin grid0.N, cond0_0 (grid0.coords t) ↔ t.val % 4 = 0)

/-- The finish's condition: the reduction coordinate is 3, the last. -/
abbrev cond0_1 (i : grid0.Coords) : Prop := k0_cond2 i = 1#1
/-- It holds at the points ≡ 3 (mod 4). -/
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the result windows are idle -/

/-- Away from the finish the body stores nothing into result window 15: the window is idle there, -/
theorem idleAt0_15 : ∀ t : Fin cfg0.N, ¬cond0_1 (grid0.coords t) → cfg0.idle 15 (grid0.coords t) = true := by decide +kernel
/-- and its block is not written back there. -/
theorem noFlush0_15 : ∀ t : Fin cfg0.N, ¬cond0_1 (grid0.coords t) → (cfg0.win 15).flush t = false := by decide +kernel
/-- At the finish it is live. -/
theorem liveAt0_15 : ∀ t : Fin cfg0.N, cond0_1 (grid0.coords t) → cfg0.idle 15 (grid0.coords t) = false := by decide +kernel

/-- Away from the finish the body stores nothing into result window 16: the window is idle there, -/
theorem idleAt0_16 : ∀ t : Fin cfg0.N, ¬cond0_1 (grid0.coords t) → cfg0.idle 16 (grid0.coords t) = true := by decide +kernel
/-- and its block is not written back there. -/
theorem noFlush0_16 : ∀ t : Fin cfg0.N, ¬cond0_1 (grid0.coords t) → (cfg0.win 16).flush t = false := by decide +kernel
/-- At the finish it is live. -/
theorem liveAt0_16 : ∀ t : Fin cfg0.N, cond0_1 (grid0.coords t) → cfg0.idle 16 (grid0.coords t) = false := by decide +kernel

/-! ## The staging and scratch memrefs -/

abbrev ms0_0 (t : Fin cfg0.N) : Memref sig .tc .vmem S1024x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x256 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x256 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x256 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x256 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x256 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S512x256 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S512x256 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S512x256 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S1x256 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S1x256 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S1x256 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S1024x256 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1024x256 .f32 := win0_16.stage (cfg0.slots t 16)
abbrev hs0_16 (t : Fin cfg0.N) : (ms0_16 t).IsWhole := hstage0_16 ((cfg0.slots t 16).cast nbuf0_16)
/-- One staging buffer of result window 15, through which its contents are stated. -/
abbrev VO0_15 : View sig .tc .vmem S1024x256 .f32 := (Memref.whole cc0_stg15_0 : Memref sig .tc .vmem S1024x256 .f32).view
/-- One staging buffer of result window 16, through which its contents are stated. -/
abbrev VO0_16 : View sig .tc .vmem S1024x256 .f32 := (Memref.whole cc0_stg16_0 : Memref sig .tc .vmem S1024x256 .f32).view
/-- Accumulator 0: a whole scoped buffer of the kernel's own, and its view. -/
abbrev scM0_0 : Memref sig .tc .vmem S1024x256 .f32 := Memref.whole cc0_scratch0
abbrev VS0_0 : View sig .tc .vmem S1024x256 .f32 := scM0_0.view
/-- Accumulator 1: a whole scoped buffer of the kernel's own, and its view. -/
abbrev scM0_1 : Memref sig .tc .vmem S1024x256 .f32 := Memref.whole cc0_scratch1
abbrev VS0_1 : View sig .tc .vmem S1024x256 .f32 := scM0_1.view
/-- Accumulator 2: a whole scoped buffer of the kernel's own, and its view. -/
abbrev scM0_2 : Memref sig .tc .vmem S1024x256 .f32 := Memref.whole cc0_scratch2
abbrev VS0_2 : View sig .tc .vmem S1024x256 .f32 := scM0_2.view
/-- Accumulator 3: a whole scoped buffer of the kernel's own, and its view. -/
abbrev scM0_3 : Memref sig .tc .vmem S1024x256 .f32 := Memref.whole cc0_scratch3
abbrev VS0_3 : View sig .tc .vmem S1024x256 .f32 := scM0_3.view

/-- The scoped buffers that are no staging buffer are the four accumulators, each owned at some contents. -/
theorem scoped0_eq (c : Dev nD) :
    (Pipeline.scopedRest (Ix := Unit) (Name := ℕ) (U := UR sig nD τ) (Lvl := ℕ) (Val := Elt F) spec0 c : sProp 𝕄)
      = iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) := by
  rw [scopedRest0_eq]; simp only [scM0_0, scM0_1, scM0_2, scM0_3, owns_whole]; try rfl

end Cert.KernelIdeal.Hand

end
-- ==== Proof.IdealRunB.lean ====
/-
  The LSTM-cell kernel's body run once in control case B (the cases are explained where the runs' shared
  definitions are).
-/
import proofs.«168456_j39350490366667_2_alg».proof.Proof.IdealFrameDefs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in case B (the reduction coordinate is 1 or 2: this block's products are added to the accumulators). On whole memrefs — the inputs at their contents, the
    accumulators at what the point before left (`xs·`), the result buffers at contents `xi·` handed back untouched — it runs to
    the continuation with the inputs as they were and every buffer it stored into holding its pieces written; the pieces are
    found by the run itself. -/
noncomputable def kernelRun0_B (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x256 .f32) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole) (arg21 : Memref sig .tc .vmem S1024x256 .f32) (harg21 : arg21.IsWhole) (arg22 : Memref sig .tc .vmem S1024x256 .f32) (harg22 : arg22.IsWhole) (arg23 : Memref sig .tc .vmem S1024x256 .f32) (harg23 : arg23.IsWhole) (hc0 : ¬cond0_0 i) (hc1 : ¬cond0_1 i)
    (x0 : Vec F S1024x512 .bf16) (x1 : Vec F S1024x512 .bf16) (x2 : Vec F S1024x256 .f32) (x3 : Vec F S512x256 .bf16) (x4 : Vec F S512x256 .bf16) (x5 : Vec F S512x256 .bf16) (x6 : Vec F S512x256 .bf16) (x7 : Vec F S512x256 .bf16) (x8 : Vec F S512x256 .bf16) (x9 : Vec F S512x256 .bf16) (x10 : Vec F S512x256 .bf16) (x11 : Vec F S1x256 .f32) (x12 : Vec F S1x256 .f32) (x13 : Vec F S1x256 .f32) (x14 : Vec F S1x256 .f32) (xs0 : Vec F S1024x256 .f32) (xs1 : Vec F S1024x256 .f32) (xs2 : Vec F S1024x256 .f32) (xs3 : Vec F S1024x256 .f32) :
    Σ' (LS0 : List (View.Piece (Elt F) S1024x256 .f32)) (LS1 : List (View.Piece (Elt F) S1024x256 .f32)) (LS2 : List (View.Piece (Elt F) S1024x256 .f32)), { LS3 : List (View.Piece (Elt F) S1024x256 .f32) //
      ∀ (xi15 : Vec F S1024x256 .f32) (xi16 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0_lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, fun xi15 xi16 E K => ?run⟩
  case run =>
    simp only [cc0_lstm_kernel_eq_skeleton]; unfold cc0_lstm_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16; obtain rfl := harg20.eq_unread hfs0; obtain rfl := harg21.eq_unread hfs1; obtain rfl := harg22.eq_unread hfs2; obtain rfl := harg23.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [HS0]; · iexists _; iexact HS0
    isplitl [HS1]; · iexists _; iexact HS1
    isplitl [HS2]; · iexists _; iexact HS2
    iexists _; iexact HS3

end Cert.KernelIdeal.Hand

end
-- ==== Proof.IdealRunA.lean ====
/-
  The LSTM-cell kernel's body run once in control case A (the cases are explained where the runs' shared
  definitions are).
-/
import proofs.«168456_j39350490366667_2_alg».proof.Proof.IdealRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in case A (the reduction coordinate is 0: the accumulators are zeroed, then this block's products added). On whole memrefs — the inputs at their contents, the
    accumulators at anything, the result buffers at contents `xi·` handed back untouched — it runs to
    the continuation with the inputs as they were and every buffer it stored into holding its pieces written; the pieces are
    found by the run itself. -/
noncomputable def kernelRun0_A (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x256 .f32) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole) (arg21 : Memref sig .tc .vmem S1024x256 .f32) (harg21 : arg21.IsWhole) (arg22 : Memref sig .tc .vmem S1024x256 .f32) (harg22 : arg22.IsWhole) (arg23 : Memref sig .tc .vmem S1024x256 .f32) (harg23 : arg23.IsWhole) (hc0 : cond0_0 i) (hc1 : ¬cond0_1 i)
    (x0 : Vec F S1024x512 .bf16) (x1 : Vec F S1024x512 .bf16) (x2 : Vec F S1024x256 .f32) (x3 : Vec F S512x256 .bf16) (x4 : Vec F S512x256 .bf16) (x5 : Vec F S512x256 .bf16) (x6 : Vec F S512x256 .bf16) (x7 : Vec F S512x256 .bf16) (x8 : Vec F S512x256 .bf16) (x9 : Vec F S512x256 .bf16) (x10 : Vec F S512x256 .bf16) (x11 : Vec F S1x256 .f32) (x12 : Vec F S1x256 .f32) (x13 : Vec F S1x256 .f32) (x14 : Vec F S1x256 .f32) :
    Σ' (LS0 : List (View.Piece (Elt F) S1024x256 .f32)) (LS1 : List (View.Piece (Elt F) S1024x256 .f32)) (LS2 : List (View.Piece (Elt F) S1024x256 .f32)), { LS3 : List (View.Piece (Elt F) S1024x256 .f32) //
      ∀ (xi15 : Vec F S1024x256 .f32) (xi16 : Vec F S1024x256 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ owns (c : Thread nD τ) arg18 fullShare xi15 ∗ owns (c : Thread nD τ) arg19 fullShare xi16 ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0_lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, fun xi15 xi16 E K => ?run⟩
  case run =>
    simp only [cc0_lstm_kernel_eq_skeleton]; unfold cc0_lstm_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%ds0, %fs0, -, HS0⟩, ⟨%ds1, %fs1, -, HS1⟩, ⟨%ds2, %fs2, -, HS2⟩, ⟨%ds3, %fs3, -, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg18.eq_unread hf15; obtain rfl := harg19.eq_unread hf16
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]
    · iexists _; isplitr; · ipureintro; exact harg18.read_unread _
      iexact H15
    isplitl [H16]
    · iexists _; isplitr; · ipureintro; exact harg19.read_unread _
      iexact H16
    isplitl [HS0]; · iexists _; iexact HS0
    isplitl [HS1]; · iexists _; iexact HS1
    isplitl [HS2]; · iexists _; iexact HS2
    iexists _; iexact HS3

end Cert.KernelIdeal.Hand

end
-- ==== Proof.IdealRunC.lean ====
/-
  The LSTM-cell kernel's body run once in control case C (the cases are explained where the runs' shared
  definitions are).
-/
import proofs.«168456_j39350490366667_2_alg».proof.Proof.IdealRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body in case C (the reduction coordinate is 3: this block's products are added, then the two result blocks are computed from the accumulators, the biases and the cell state and stored). On whole memrefs — the inputs at their contents, the
    accumulators at what the point before left (`xs·`), the result buffers at anything — it runs to
    the continuation with the inputs as they were and every buffer it stored into holding its pieces written; the pieces are
    found by the run itself. -/
noncomputable def kernelRun0_C (c : Dev nD) (i : grid0.Coords) (arg3 : Memref sig .tc .vmem S1024x512 .bf16) (harg3 : arg3.IsWhole) (arg4 : Memref sig .tc .vmem S1024x512 .bf16) (harg4 : arg4.IsWhole) (arg5 : Memref sig .tc .vmem S1024x256 .f32) (harg5 : arg5.IsWhole) (arg6 : Memref sig .tc .vmem S512x256 .bf16) (harg6 : arg6.IsWhole) (arg7 : Memref sig .tc .vmem S512x256 .bf16) (harg7 : arg7.IsWhole) (arg8 : Memref sig .tc .vmem S512x256 .bf16) (harg8 : arg8.IsWhole) (arg9 : Memref sig .tc .vmem S512x256 .bf16) (harg9 : arg9.IsWhole) (arg10 : Memref sig .tc .vmem S512x256 .bf16) (harg10 : arg10.IsWhole) (arg11 : Memref sig .tc .vmem S512x256 .bf16) (harg11 : arg11.IsWhole) (arg12 : Memref sig .tc .vmem S512x256 .bf16) (harg12 : arg12.IsWhole) (arg13 : Memref sig .tc .vmem S512x256 .bf16) (harg13 : arg13.IsWhole) (arg14 : Memref sig .tc .vmem S1x256 .f32) (harg14 : arg14.IsWhole) (arg15 : Memref sig .tc .vmem S1x256 .f32) (harg15 : arg15.IsWhole) (arg16 : Memref sig .tc .vmem S1x256 .f32) (harg16 : arg16.IsWhole) (arg17 : Memref sig .tc .vmem S1x256 .f32) (harg17 : arg17.IsWhole) (arg18 : Memref sig .tc .vmem S1024x256 .f32) (harg18 : arg18.IsWhole) (arg19 : Memref sig .tc .vmem S1024x256 .f32) (harg19 : arg19.IsWhole) (arg20 : Memref sig .tc .vmem S1024x256 .f32) (harg20 : arg20.IsWhole) (arg21 : Memref sig .tc .vmem S1024x256 .f32) (harg21 : arg21.IsWhole) (arg22 : Memref sig .tc .vmem S1024x256 .f32) (harg22 : arg22.IsWhole) (arg23 : Memref sig .tc .vmem S1024x256 .f32) (harg23 : arg23.IsWhole) (hc0 : ¬cond0_0 i) (hc1 : cond0_1 i)
    (x0 : Vec F S1024x512 .bf16) (x1 : Vec F S1024x512 .bf16) (x2 : Vec F S1024x256 .f32) (x3 : Vec F S512x256 .bf16) (x4 : Vec F S512x256 .bf16) (x5 : Vec F S512x256 .bf16) (x6 : Vec F S512x256 .bf16) (x7 : Vec F S512x256 .bf16) (x8 : Vec F S512x256 .bf16) (x9 : Vec F S512x256 .bf16) (x10 : Vec F S512x256 .bf16) (x11 : Vec F S1x256 .f32) (x12 : Vec F S1x256 .f32) (x13 : Vec F S1x256 .f32) (x14 : Vec F S1x256 .f32) (xs0 : Vec F S1024x256 .f32) (xs1 : Vec F S1024x256 .f32) (xs2 : Vec F S1024x256 .f32) (xs3 : Vec F S1024x256 .f32) :
    Σ' (L15 : List (View.Piece (Elt F) S1024x256 .f32)) (L16 : List (View.Piece (Elt F) S1024x256 .f32)) (LS0 : List (View.Piece (Elt F) S1024x256 .f32)) (LS1 : List (View.Piece (Elt F) S1024x256 .f32)) (LS2 : List (View.Piece (Elt F) S1024x256 .f32)), { LS3 : List (View.Piece (Elt F) S1024x256 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ (∃ d, owns (c : Thread nD τ) arg18 fullShare d) ∗ (∃ d, owns (c : Thread nD τ) arg19 fullShare d) ∗ owns (c : Thread nD τ) arg20 fullShare xs0 ∗ owns (c : Thread nD τ) arg21 fullShare xs1 ∗ owns (c : Thread nD τ) arg22 fullShare xs2 ∗ owns (c : Thread nD τ) arg23 fullShare xs3
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ owns (c : Thread nD τ) arg10 fullShare x7 ∗ owns (c : Thread nD τ) arg11 fullShare x8 ∗ owns (c : Thread nD τ) arg12 fullShare x9 ∗ owns (c : Thread nD τ) arg13 fullShare x10 ∗ owns (c : Thread nD τ) arg14 fullShare x11 ∗ owns (c : Thread nD τ) arg15 fullShare x12 ∗ owns (c : Thread nD τ) arg16 fullShare x13 ∗ owns (c : Thread nD τ) arg17 fullShare x14 ∗ (∃ f, arg18.view.loc (c : Thread nD τ) ↦[arg18.view.set]{fullShare} arg18.view.writes (Elt F) f L15) ∗ (∃ f, arg19.view.loc (c : Thread nD τ) ↦[arg19.view.set]{fullShare} arg19.view.writes (Elt F) f L16) ∗ (∃ f, arg20.view.loc (c : Thread nD τ) ↦[arg20.view.set]{fullShare} arg20.view.writes (Elt F) f LS0) ∗ (∃ f, arg21.view.loc (c : Thread nD τ) ↦[arg21.view.set]{fullShare} arg21.view.writes (Elt F) f LS1) ∗ (∃ f, arg22.view.loc (c : Thread nD τ) ↦[arg22.view.set]{fullShare} arg22.view.writes (Elt F) f LS2) ∗ (∃ f, arg23.view.loc (c : Thread nD τ) ↦[arg23.view.set]{fullShare} arg23.view.writes (Elt F) f LS3)) -∗ K ⟨⟩))
          ⊢ wp frame (wpE (defs₀ (F := F)) Variants.none c none) E (cc0_lstm_kernel i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, fun E K => ?run⟩
  case run =>
    simp only [cc0_lstm_kernel_eq_skeleton]; unfold cc0_lstm_kernel_skel
    simp only [k0_part1_eq_skeleton, k0_part2_eq_skeleton]; unfold k0_part1_skel k0_part2_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%fs0, %hfs0, HS0⟩, ⟨%fs1, %hfs1, HS1⟩, ⟨%fs2, %hfs2, HS2⟩, ⟨%fs3, %hfs3, HS3⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8; obtain rfl := harg12.eq_unread hf9; obtain rfl := harg13.eq_unread hf10; obtain rfl := harg14.eq_unread hf11; obtain rfl := harg15.eq_unread hf12; obtain rfl := harg16.eq_unread hf13; obtain rfl := harg17.eq_unread hf14; obtain rfl := harg20.eq_unread hfs0; obtain rfl := harg21.eq_unread hfs1; obtain rfl := harg22.eq_unread hfs2; obtain rfl := harg23.eq_unread hfs3
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _; isplitr; · ipureintro; exact harg10.read_unread _
      iexact H7
    isplitl [H8]
    · iexists _; isplitr; · ipureintro; exact harg11.read_unread _
      iexact H8
    isplitl [H9]
    · iexists _; isplitr; · ipureintro; exact harg12.read_unread _
      iexact H9
    isplitl [H10]
    · iexists _; isplitr; · ipureintro; exact harg13.read_unread _
      iexact H10
    isplitl [H11]
    · iexists _; isplitr; · ipureintro; exact harg14.read_unread _
      iexact H11
    isplitl [H12]
    · iexists _; isplitr; · ipureintro; exact harg15.read_unread _
      iexact H12
    isplitl [H13]
    · iexists _; isplitr; · ipureintro; exact harg16.read_unread _
      iexact H13
    isplitl [H14]
    · iexists _; isplitr; · ipureintro; exact harg17.read_unread _
      iexact H14
    isplitl [H15]; · iexists _; iexact H15
    isplitl [H16]; · iexists _; iexact H16
    isplitl [HS0]; · iexists _; iexact HS0
    isplitl [HS1]; · iexists _; iexact HS1
    isplitl [HS2]; · iexists _; iexact HS2
    iexists _; iexact HS3

end Cert.KernelIdeal.Hand

end
-- ==== Proof.IdealFrameCore.lean ====
/-
  The frame of the LSTM-cell kernel, and what its two result arrays hold at the end.

  The three runs of the body (one per control case) are put at a grid point; what each leaves in the four
  accumulators and, at a finish, in the two result blocks is read back from the pieces the run found. The
  accumulators after each point are then a recursion on the point (a reset point starts afresh, every other
  point continues from the point before), the invariant carried from point to point is the four accumulators
  at those contents, and the body obligation is the three runs, chosen by the point's number mod 4.

  Two of the kernel's arrays are read through four windows each (the packed weights, one window per gate),
  and so is the summed bias: each such array's full share is dealt in quarters among its windows.
-/
import proofs.«168456_j39350490366667_2_alg».proof.Proof.IdealRunC
import proofs.«168456_j39350490366667_2_alg».proof.Proof.LibSharedFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The runs at a grid point -/

/-- The reset run at point `t`, on the point's staging memrefs, the accumulators and the inputs' blocks. -/
def runA (c : Dev nD) (t : Fin cfg0.N) (h0 : t.val % 4 = 0) (h1 : ¬t.val % 4 = 3) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
/-- The plain run at point `t`, the accumulators found at `xs·`. -/
def runB (c : Dev nD) (t : Fin cfg0.N) (h0 : ¬t.val % 4 = 0) (h1 : ¬t.val % 4 = 3) (xs0 xs1 xs2 xs3 : Vec F S1024x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) xs0 xs1 xs2 xs3
/-- The finishing run at point `t`, the accumulators found at `xs·`. -/
def runC (c : Dev nD) (t : Fin cfg0.N) (h0 : ¬t.val % 4 = 0) (h1 : t.val % 4 = 3) (xs0 xs1 xs2 xs3 : Vec F S1024x256 .f32) :=
  kernelRun0_C (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) xs0 xs1 xs2 xs3

/-- In case A the stores into accumulator 0 cover it, -/
theorem scoverA_0 (c : Dev nD) (t : Fin cfg0.N) (h0 : t.val % 4 = 0) (h1 : ¬t.val % 4 = 3) (y : S1024x256.Idx) :
    ∃ pc ∈ (runA m c t h0 h1).1, y ∈ pc.1.set :=
  View.cover_of_tiledL (runA m c t h0 h1).1 S1024x256.size (by sl_kernel_rfl) y
/-- and this is what they leave in it. -/
def soutA_0 (c : Dev nD) (t : Fin cfg0.N) (h0 : t.val % 4 = 0) (h1 : ¬t.val % 4 = 3) : Vec F S1024x256 .f32 :=
  VS0_0.read (Elt F) (VS0_0.writes (Elt F) VS0_0.junk (runA m c t h0 h1).1)

/-- In case A the stores into accumulator 1 cover it, -/
theorem scoverA_1 (c : Dev nD) (t : Fin cfg0.N) (h0 : t.val % 4 = 0) (h1 : ¬t.val % 4 = 3) (y : S1024x256.Idx) :
    ∃ pc ∈ (runA m c t h0 h1).2.1, y ∈ pc.1.set :=
  View.cover_of_tiledL (runA m c t h0 h1).2.1 S1024x256.size (by sl_kernel_rfl) y
/-- and this is what they leave in it. -/
def soutA_1 (c : Dev nD) (t : Fin cfg0.N) (h0 : t.val % 4 = 0) (h1 : ¬t.val % 4 = 3) : Vec F S1024x256 .f32 :=
  VS0_1.read (Elt F) (VS0_1.writes (Elt F) VS0_1.junk (runA m c t h0 h1).2.1)

/-- In case A the stores into accumulator 2 cover it, -/
theorem scoverA_2 (c : Dev nD) (t : Fin cfg0.N) (h0 : t.val % 4 = 0) (h1 : ¬t.val % 4 = 3) (y : S1024x256.Idx) :
    ∃ pc ∈ (runA m c t h0 h1).2.2.1, y ∈ pc.1.set :=
  View.cover_of_tiledL (runA m c t h0 h1).2.2.1 S1024x256.size (by sl_kernel_rfl) y
/-- and this is what they leave in it. -/
def soutA_2 (c : Dev nD) (t : Fin cfg0.N) (h0 : t.val % 4 = 0) (h1 : ¬t.val % 4 = 3) : Vec F S1024x256 .f32 :=
  VS0_2.read (Elt F) (VS0_2.writes (Elt F) VS0_2.junk (runA m c t h0 h1).2.2.1)

/-- In case A the stores into accumulator 3 cover it, -/
theorem scoverA_3 (c : Dev nD) (t : Fin cfg0.N) (h0 : t.val % 4 = 0) (h1 : ¬t.val % 4 = 3) (y : S1024x256.Idx) :
    ∃ pc ∈ (runA m c t h0 h1).2.2.2.1, y ∈ pc.1.set :=
  View.cover_of_tiledL (runA m c t h0 h1).2.2.2.1 S1024x256.size (by sl_kernel_rfl) y
/-- and this is what they leave in it. -/
def soutA_3 (c : Dev nD) (t : Fin cfg0.N) (h0 : t.val % 4 = 0) (h1 : ¬t.val % 4 = 3) : Vec F S1024x256 .f32 :=
  VS0_3.read (Elt F) (VS0_3.writes (Elt F) VS0_3.junk (runA m c t h0 h1).2.2.2.1)

/-- In case B the stores into accumulator 0 cover it, -/
theorem scoverB_0 (c : Dev nD) (t : Fin cfg0.N) (h0 : ¬t.val % 4 = 0) (h1 : ¬t.val % 4 = 3) (xs0 xs1 xs2 xs3 : Vec F S1024x256 .f32) (y : S1024x256.Idx) :
    ∃ pc ∈ (runB m c t h0 h1 xs0 xs1 xs2 xs3).1, y ∈ pc.1.set :=
  View.cover_of_tiledL (runB m c t h0 h1 xs0 xs1 xs2 xs3).1 S1024x256.size (by sl_kernel_rfl) y
/-- and this is what they leave in it. -/
def soutB_0 (c : Dev nD) (t : Fin cfg0.N) (h0 : ¬t.val % 4 = 0) (h1 : ¬t.val % 4 = 3) (xs0 xs1 xs2 xs3 : Vec F S1024x256 .f32) : Vec F S1024x256 .f32 :=
  VS0_0.read (Elt F) (VS0_0.writes (Elt F) VS0_0.junk (runB m c t h0 h1 xs0 xs1 xs2 xs3).1)

/-- In case B the stores into accumulator 1 cover it, -/
theorem scoverB_1 (c : Dev nD) (t : Fin cfg0.N) (h0 : ¬t.val % 4 = 0) (h1 : ¬t.val % 4 = 3) (xs0 xs1 xs2 xs3 : Vec F S1024x256 .f32) (y : S1024x256.Idx) :
    ∃ pc ∈ (runB m c t h0 h1 xs0 xs1 xs2 xs3).2.1, y ∈ pc.1.set :=
  View.cover_of_tiledL (runB m c t h0 h1 xs0 xs1 xs2 xs3).2.1 S1024x256.size (by sl_kernel_rfl) y
/-- and this is what they leave in it. -/
def soutB_1 (c : Dev nD) (t : Fin cfg0.N) (h0 : ¬t.val % 4 = 0) (h1 : ¬t.val % 4 = 3) (xs0 xs1 xs2 xs3 : Vec F S1024x256 .f32) : Vec F S1024x256 .f32 :=
  VS0_1.read (Elt F) (VS0_1.writes (Elt F) VS0_1.junk (runB m c t h0 h1 xs0 xs1 xs2 xs3).2.1)

/-- In case B the stores into accumulator 2 cover it, -/
theorem scoverB_2 (c : Dev nD) (t : Fin cfg0.N) (h0 : ¬t.val % 4 = 0) (h1 : ¬t.val % 4 = 3) (xs0 xs1 xs2 xs3 : Vec F S1024x256 .f32) (y : S1024x256.Idx) :
    ∃ pc ∈ (runB m c t h0 h1 xs0 xs1 xs2 xs3).2.2.1, y ∈ pc.1.set :=
  View.cover_of_tiledL (runB m c t h0 h1 xs0 xs1 xs2 xs3).2.2.1 S1024x256.size (by sl_kernel_rfl) y
/-- and this is what they leave in it. -/
def soutB_2 (c : Dev nD) (t : Fin cfg0.N) (h0 : ¬t.val % 4 = 0) (h1 : ¬t.val % 4 = 3) (xs0 xs1 xs2 xs3 : Vec F S1024x256 .f32) : Vec F S1024x256 .f32 :=
  VS0_2.read (Elt F) (VS0_2.writes (Elt F) VS0_2.junk (runB m c t h0 h1 xs0 xs1 xs2 xs3).2.2.1)

/-- In case B the stores into accumulator 3 cover it, -/
theorem scoverB_3 (c : Dev nD) (t : Fin cfg0.N) (h0 : ¬t.val % 4 = 0) (h1 : ¬t.val % 4 = 3) (xs0 xs1 xs2 xs3 : Vec F S1024x256 .f32) (y : S1024x256.Idx) :
    ∃ pc ∈ (runB m c t h0 h1 xs0 xs1 xs2 xs3).2.2.2.1, y ∈ pc.1.set :=
  View.cover_of_tiledL (runB m c t h0 h1 xs0 xs1 xs2 xs3).2.2.2.1 S1024x256.size (by sl_kernel_rfl) y
/-- and this is what they leave in it. -/
def soutB_3 (c : Dev nD) (t : Fin cfg0.N) (h0 : ¬t.val % 4 = 0) (h1 : ¬t.val % 4 = 3) (xs0 xs1 xs2 xs3 : Vec F S1024x256 .f32) : Vec F S1024x256 .f32 :=
  VS0_3.read (Elt F) (VS0_3.writes (Elt F) VS0_3.junk (runB m c t h0 h1 xs0 xs1 xs2 xs3).2.2.2.1)

/-- In case C the stores into accumulator 0 cover it, -/
theorem scoverC_0 (c : Dev nD) (t : Fin cfg0.N) (h0 : ¬t.val % 4 = 0) (h1 : t.val % 4 = 3) (xs0 xs1 xs2 xs3 : Vec F S1024x256 .f32) (y : S1024x256.Idx) :
    ∃ pc ∈ (runC m c t h0 h1 xs0 xs1 xs2 xs3).2.2.1, y ∈ pc.1.set :=
  View.cover_of_tiledL (runC m c t h0 h1 xs0 xs1 xs2 xs3).2.2.1 S1024x256.size (by sl_kernel_rfl) y
/-- and this is what they leave in it. -/
def soutC_0 (c : Dev nD) (t : Fin cfg0.N) (h0 : ¬t.val % 4 = 0) (h1 : t.val % 4 = 3) (xs0 xs1 xs2 xs3 : Vec F S1024x256 .f32) : Vec F S1024x256 .f32 :=
  VS0_0.read (Elt F) (VS0_0.writes (Elt F) VS0_0.junk (runC m c t h0 h1 xs0 xs1 xs2 xs3).2.2.1)

/-- In case C the stores into accumulator 1 cover it, -/
theorem scoverC_1 (c : Dev nD) (t : Fin cfg0.N) (h0 : ¬t.val % 4 = 0) (h1 : t.val % 4 = 3) (xs0 xs1 xs2 xs3 : Vec F S1024x256 .f32) (y : S1024x256.Idx) :
    ∃ pc ∈ (runC m c t h0 h1 xs0 xs1 xs2 xs3).2.2.2.1, y ∈ pc.1.set :=
  View.cover_of_tiledL (runC m c t h0 h1 xs0 xs1 xs2 xs3).2.2.2.1 S1024x256.size (by sl_kernel_rfl) y
/-- and this is what they leave in it. -/
def soutC_1 (c : Dev nD) (t : Fin cfg0.N) (h0 : ¬t.val % 4 = 0) (h1 : t.val % 4 = 3) (xs0 xs1 xs2 xs3 : Vec F S1024x256 .f32) : Vec F S1024x256 .f32 :=
  VS0_1.read (Elt F) (VS0_1.writes (Elt F) VS0_1.junk (runC m c t h0 h1 xs0 xs1 xs2 xs3).2.2.2.1)

/-- In case C the stores into accumulator 2 cover it, -/
theorem scoverC_2 (c : Dev nD) (t : Fin cfg0.N) (h0 : ¬t.val % 4 = 0) (h1 : t.val % 4 = 3) (xs0 xs1 xs2 xs3 : Vec F S1024x256 .f32) (y : S1024x256.Idx) :
    ∃ pc ∈ (runC m c t h0 h1 xs0 xs1 xs2 xs3).2.2.2.2.1, y ∈ pc.1.set :=
  View.cover_of_tiledL (runC m c t h0 h1 xs0 xs1 xs2 xs3).2.2.2.2.1 S1024x256.size (by sl_kernel_rfl) y
/-- and this is what they leave in it. -/
def soutC_2 (c : Dev nD) (t : Fin cfg0.N) (h0 : ¬t.val % 4 = 0) (h1 : t.val % 4 = 3) (xs0 xs1 xs2 xs3 : Vec F S1024x256 .f32) : Vec F S1024x256 .f32 :=
  VS0_2.read (Elt F) (VS0_2.writes (Elt F) VS0_2.junk (runC m c t h0 h1 xs0 xs1 xs2 xs3).2.2.2.2.1)

/-- In case C the stores into accumulator 3 cover it, -/
theorem scoverC_3 (c : Dev nD) (t : Fin cfg0.N) (h0 : ¬t.val % 4 = 0) (h1 : t.val % 4 = 3) (xs0 xs1 xs2 xs3 : Vec F S1024x256 .f32) (y : S1024x256.Idx) :
    ∃ pc ∈ (runC m c t h0 h1 xs0 xs1 xs2 xs3).2.2.2.2.2.1, y ∈ pc.1.set :=
  View.cover_of_tiledL (runC m c t h0 h1 xs0 xs1 xs2 xs3).2.2.2.2.2.1 S1024x256.size (by sl_kernel_rfl) y
/-- and this is what they leave in it. -/
def soutC_3 (c : Dev nD) (t : Fin cfg0.N) (h0 : ¬t.val % 4 = 0) (h1 : t.val % 4 = 3) (xs0 xs1 xs2 xs3 : Vec F S1024x256 .f32) : Vec F S1024x256 .f32 :=
  VS0_3.read (Elt F) (VS0_3.writes (Elt F) VS0_3.junk (runC m c t h0 h1 xs0 xs1 xs2 xs3).2.2.2.2.2.1)

/-- At a finish the stores into result block 15 cover it, -/
theorem coverC_15 (c : Dev nD) (t : Fin cfg0.N) (h0 : ¬t.val % 4 = 0) (h1 : t.val % 4 = 3) (xs0 xs1 xs2 xs3 : Vec F S1024x256 .f32) (y : S1024x256.Idx) :
    ∃ pc ∈ (runC m c t h0 h1 xs0 xs1 xs2 xs3).1, y ∈ pc.1.set :=
  View.cover_of_tiledL (runC m c t h0 h1 xs0 xs1 xs2 xs3).1 S1024x256.size (by sl_kernel_rfl) y
/-- and this is what they leave in it. -/
def outC_15 (c : Dev nD) (t : Fin cfg0.N) (h0 : ¬t.val % 4 = 0) (h1 : t.val % 4 = 3) (xs0 xs1 xs2 xs3 : Vec F S1024x256 .f32) : Vec F S1024x256 .f32 :=
  VO0_15.read (Elt F) (VO0_15.writes (Elt F) VO0_15.junk (runC m c t h0 h1 xs0 xs1 xs2 xs3).1)

/-- At a finish the stores into result block 16 cover it, -/
theorem coverC_16 (c : Dev nD) (t : Fin cfg0.N) (h0 : ¬t.val % 4 = 0) (h1 : t.val % 4 = 3) (xs0 xs1 xs2 xs3 : Vec F S1024x256 .f32) (y : S1024x256.Idx) :
    ∃ pc ∈ (runC m c t h0 h1 xs0 xs1 xs2 xs3).2.1, y ∈ pc.1.set :=
  View.cover_of_tiledL (runC m c t h0 h1 xs0 xs1 xs2 xs3).2.1 S1024x256.size (by sl_kernel_rfl) y
/-- and this is what they leave in it. -/
def outC_16 (c : Dev nD) (t : Fin cfg0.N) (h0 : ¬t.val % 4 = 0) (h1 : t.val % 4 = 3) (xs0 xs1 xs2 xs3 : Vec F S1024x256 .f32) : Vec F S1024x256 .f32 :=
  VO0_16.read (Elt F) (VO0_16.writes (Elt F) VO0_16.junk (runC m c t h0 h1 xs0 xs1 xs2 xs3).2.1)

/-! ## The accumulators after each point -/

/-- What the four accumulators hold after the body at position `n`: a reset point starts afresh, any other point
    continues from what the point before left. -/
def accAt (c : Dev nD) : (n : ℕ) → n < cfg0.N → Vec F S1024x256 .f32 × Vec F S1024x256 .f32 × Vec F S1024x256 .f32 × Vec F S1024x256 .f32
  | 0, hn => (soutA_0 m c ⟨0, hn⟩ (Nat.zero_mod _) (show ¬(0 % 4 = 3) from by decide), soutA_1 m c ⟨0, hn⟩ (Nat.zero_mod _) (show ¬(0 % 4 = 3) from by decide), soutA_2 m c ⟨0, hn⟩ (Nat.zero_mod _) (show ¬(0 % 4 = 3) from by decide), soutA_3 m c ⟨0, hn⟩ (Nat.zero_mod _) (show ¬(0 % 4 = 3) from by decide))
  | n + 1, hn =>
    if h0 : (n + 1) % 4 = 0 then
      (soutA_0 m c ⟨n + 1, hn⟩ h0 (show ¬((n + 1) % 4 = 3) from by omega), soutA_1 m c ⟨n + 1, hn⟩ h0 (show ¬((n + 1) % 4 = 3) from by omega), soutA_2 m c ⟨n + 1, hn⟩ h0 (show ¬((n + 1) % 4 = 3) from by omega), soutA_3 m c ⟨n + 1, hn⟩ h0 (show ¬((n + 1) % 4 = 3) from by omega))
    else
      if h1 : (n + 1) % 4 = 3 then
        (soutC_0 m c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2, soutC_1 m c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2, soutC_2 m c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2, soutC_3 m c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2)
      else
        (soutB_0 m c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2, soutB_1 m c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2, soutB_2 m c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2, soutB_3 m c ⟨n + 1, hn⟩ h0 h1 (accAt c n (Nat.lt_of_succ_lt hn)).1 (accAt c n (Nat.lt_of_succ_lt hn)).2.1 (accAt c n (Nat.lt_of_succ_lt hn)).2.2.1 (accAt c n (Nat.lt_of_succ_lt hn)).2.2.2)

theorem accAt_A (c : Dev nD) (t : Fin cfg0.N) (h0 : t.val % 4 = 0) (h1 : ¬t.val % 4 = 3) :
    accAt m c t.val t.isLt = (soutA_0 m c t h0 h1, soutA_1 m c t h0 h1, soutA_2 m c t h0 h1, soutA_3 m c t h0 h1) := by
  obtain ⟨n, hn⟩ := t
  cases n with
  | zero => exact rfl
  | succ n => exact (dif_pos h0).trans rfl

theorem accAt_B (c : Dev nD) (t : Fin cfg0.N) (h0 : ¬t.val % 4 = 0) (h1 : ¬t.val % 4 = 3) :
    accAt m c t.val t.isLt = (soutB_0 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2, soutB_1 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2, soutB_2 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2, soutB_3 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem accAt_C (c : Dev nD) (t : Fin cfg0.N) (h0 : ¬t.val % 4 = 0) (h1 : t.val % 4 = 3) :
    accAt m c t.val t.isLt = (soutC_0 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2, soutC_1 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2, soutC_2 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2, soutC_3 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- What result block `w`'s staging buffer holds after point `t`: at a finish what the finishing run stored, computed
    from what the point before left in the accumulators; elsewhere the buffer is idle and this is never consulted. -/
def outAt15 (c : Dev nD) (t : Fin cfg0.N) : Vec F S1024x256 .f32 :=
  if h1 : t.val % 4 = 3 then outC_15 m c t (by omega) h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2
  else VO0_15.read (Elt F) VO0_15.junk
theorem outAt15_C (c : Dev nD) (t : Fin cfg0.N) (h0 : ¬t.val % 4 = 0) (h1 : t.val % 4 = 3) :
    outAt15 m c t = outC_15 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2 := dif_pos h1
def outAt16 (c : Dev nD) (t : Fin cfg0.N) : Vec F S1024x256 .f32 :=
  if h1 : t.val % 4 = 3 then outC_16 m c t (by omega) h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2
  else VO0_16.read (Elt F) VO0_16.junk
theorem outAt16_C (c : Dev nD) (t : Fin cfg0.N) (h0 : ¬t.val % 4 = 0) (h1 : t.val % 4 = 3) :
    outAt16 m c t = outC_16 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2 := dif_pos h1

/-! ## The invariant carried from point to point -/

/-- Before the first point the accumulators hold anything; after point `n` they hold `accAt n`. -/
def PhiS (c : Dev nD) : (n : ℕ) → n ≤ cfg0.N → sProp 𝕄
  | 0, _ => Pipeline.scopedRest (Ix := Unit) (Name := ℕ) (U := UR sig nD τ) (Lvl := ℕ) (Val := Elt F) spec0 c
  | n + 1, hn => iprop(owns (c : Thread nD τ) scM0_0 fullShare ((accAt m c n hn).1) ∗ owns (c : Thread nD τ) scM0_1 fullShare ((accAt m c n hn).2.1) ∗ owns (c : Thread nD τ) scM0_2 fullShare ((accAt m c n hn).2.2.1) ∗ owns (c : Thread nD τ) scM0_3 fullShare ((accAt m c n hn).2.2.2))

theorem PhiS_zero (c : Dev nD) (n : ℕ) (h : n ≤ cfg0.N) (hz : n = 0) :
    PhiS m c n h = Pipeline.scopedRest (Ix := Unit) (Name := ℕ) (U := UR sig nD τ) (Lvl := ℕ) (Val := Elt F) spec0 c := by
  subst hz; rfl
theorem PhiS_succ (c : Dev nD) (n : ℕ) (hn : n < cfg0.N) :
    PhiS m c (n + 1) hn = iprop(owns (c : Thread nD τ) scM0_0 fullShare ((accAt m c n hn).1) ∗ owns (c : Thread nD τ) scM0_1 fullShare ((accAt m c n hn).2.1) ∗ owns (c : Thread nD τ) scM0_2 fullShare ((accAt m c n hn).2.2.1) ∗ owns (c : Thread nD τ) scM0_3 fullShare ((accAt m c n hn).2.2.2)) := rfl
theorem PhiS_pos (c : Dev nD) (n : ℕ) (h : n ≤ cfg0.N) (hz : n ≠ 0) :
    PhiS m c n h = iprop(owns (c : Thread nD τ) scM0_0 fullShare ((accAt m c (n - 1) (by omega)).1) ∗ owns (c : Thread nD τ) scM0_1 fullShare ((accAt m c (n - 1) (by omega)).2.1) ∗ owns (c : Thread nD τ) scM0_2 fullShare ((accAt m c (n - 1) (by omega)).2.2.1) ∗ owns (c : Thread nD τ) scM0_3 fullShare ((accAt m c (n - 1) (by omega)).2.2.2)) := by
  cases n with
  | zero => exact absurd rfl hz
  | succ n => rfl

/-! ## The proof data -/

/-- The share each input window holds of its array: a quarter for the four windows on one array, else all of it. -/
def qshare : Fin 17 → PosShare TreeShare
  | 3 => fullShare.left.left | 4 => fullShare.left.right | 5 => fullShare.right.left | 6 => fullShare.right.right
  | 7 => fullShare.left.left | 8 => fullShare.left.right | 9 => fullShare.right.left | 10 => fullShare.right.right
  | 11 => fullShare.left.left | 12 => fullShare.left.right | 13 => fullShare.right.left | 14 => fullShare.right.right
  | _ => fullShare

/-- The arrays as the region finds them; after the body at point `t` each input's buffer at its block and each
    result's at `outAt·`; the invariant `PhiS`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => outAt15 m c t
    | ⟨16, _⟩ => outAt16 m c t
    | ⟨n + 17, h⟩ => absurd h (Nat.not_lt.2 (Nat.le_add_left _ _))
  Φ t := PhiS m c t.val (Nat.le_of_lt_succ t.isLt)
  q := qshare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = outAt15 m c t := by dsimp only [dats]
theorem after0_16 (c : Dev nD) (t : Fin cfg0.N) : (dats m 0 c).after 16 t = outAt16 m c t := by dsimp only [dats]
theorem before0_0 (c : Dev nD) (t : Fin cfg0.N) (d) : (dats m 0 c).before 0 t d = iblk m c 0 t :=
  before0_0_of m (dats m 0 c) (A_eq m c 0) (after0_0 m c) t d
theorem leaves0_0 (c : Dev nD) (t : Fin cfg0.N) :
    (dats m 0 c).leavesExact 0 t = owns (c : Thread nD τ) (ms0_0 t) fullShare (iblk m c 0 t) := by
  unfold Dat.leavesExact; rw [show cfg0.idle 0 (cfg0.grid.coords t) = false from rfl, after0_0]
theorem before0_1 (c : Dev nD) (t : Fin cfg0.N) (d) : (dats m 0 c).before 1 t d = iblk m c 1 t :=
  before0_1_of m (dats m 0 c) (A_eq m c 1) (after0_1 m c) t d
theorem leaves0_1 (c : Dev nD) (t : Fin cfg0.N) :
    (dats m 0 c).leavesExact 1 t = owns (c : Thread nD τ) (ms0_1 t) fullShare (iblk m c 1 t) := by
  unfold Dat.leavesExact; rw [show cfg0.idle 1 (cfg0.grid.coords t) = false from rfl, after0_1]
theorem before0_2 (c : Dev nD) (t : Fin cfg0.N) (d) : (dats m 0 c).before 2 t d = iblk m c 2 t :=
  before0_2_of m (dats m 0 c) (A_eq m c 2) (after0_2 m c) t d
theorem leaves0_2 (c : Dev nD) (t : Fin cfg0.N) :
    (dats m 0 c).leavesExact 2 t = owns (c : Thread nD τ) (ms0_2 t) fullShare (iblk m c 2 t) := by
  unfold Dat.leavesExact; rw [show cfg0.idle 2 (cfg0.grid.coords t) = false from rfl, after0_2]
theorem before0_3 (c : Dev nD) (t : Fin cfg0.N) (d) : (dats m 0 c).before 3 t d = iblk m c 3 t :=
  before0_3_of m (dats m 0 c) (A_eq m c 3) (after0_3 m c) t d
theorem leaves0_3 (c : Dev nD) (t : Fin cfg0.N) :
    (dats m 0 c).leavesExact 3 t = owns (c : Thread nD τ) (ms0_3 t) fullShare (iblk m c 3 t) := by
  unfold Dat.leavesExact; rw [show cfg0.idle 3 (cfg0.grid.coords t) = false from rfl, after0_3]
theorem before0_4 (c : Dev nD) (t : Fin cfg0.N) (d) : (dats m 0 c).before 4 t d = iblk m c 4 t :=
  before0_4_of m (dats m 0 c) (A_eq m c 4) (after0_4 m c) t d
theorem leaves0_4 (c : Dev nD) (t : Fin cfg0.N) :
    (dats m 0 c).leavesExact 4 t = owns (c : Thread nD τ) (ms0_4 t) fullShare (iblk m c 4 t) := by
  unfold Dat.leavesExact; rw [show cfg0.idle 4 (cfg0.grid.coords t) = false from rfl, after0_4]
theorem before0_5 (c : Dev nD) (t : Fin cfg0.N) (d) : (dats m 0 c).before 5 t d = iblk m c 5 t :=
  before0_5_of m (dats m 0 c) (A_eq m c 5) (after0_5 m c) t d
theorem leaves0_5 (c : Dev nD) (t : Fin cfg0.N) :
    (dats m 0 c).leavesExact 5 t = owns (c : Thread nD τ) (ms0_5 t) fullShare (iblk m c 5 t) := by
  unfold Dat.leavesExact; rw [show cfg0.idle 5 (cfg0.grid.coords t) = false from rfl, after0_5]
theorem before0_6 (c : Dev nD) (t : Fin cfg0.N) (d) : (dats m 0 c).before 6 t d = iblk m c 6 t :=
  before0_6_of m (dats m 0 c) (A_eq m c 6) (after0_6 m c) t d
theorem leaves0_6 (c : Dev nD) (t : Fin cfg0.N) :
    (dats m 0 c).leavesExact 6 t = owns (c : Thread nD τ) (ms0_6 t) fullShare (iblk m c 6 t) := by
  unfold Dat.leavesExact; rw [show cfg0.idle 6 (cfg0.grid.coords t) = false from rfl, after0_6]
theorem before0_7 (c : Dev nD) (t : Fin cfg0.N) (d) : (dats m 0 c).before 7 t d = iblk m c 7 t :=
  before0_7_of m (dats m 0 c) (A_eq m c 7) (after0_7 m c) t d
theorem leaves0_7 (c : Dev nD) (t : Fin cfg0.N) :
    (dats m 0 c).leavesExact 7 t = owns (c : Thread nD τ) (ms0_7 t) fullShare (iblk m c 7 t) := by
  unfold Dat.leavesExact; rw [show cfg0.idle 7 (cfg0.grid.coords t) = false from rfl, after0_7]
theorem before0_8 (c : Dev nD) (t : Fin cfg0.N) (d) : (dats m 0 c).before 8 t d = iblk m c 8 t :=
  before0_8_of m (dats m 0 c) (A_eq m c 8) (after0_8 m c) t d
theorem leaves0_8 (c : Dev nD) (t : Fin cfg0.N) :
    (dats m 0 c).leavesExact 8 t = owns (c : Thread nD τ) (ms0_8 t) fullShare (iblk m c 8 t) := by
  unfold Dat.leavesExact; rw [show cfg0.idle 8 (cfg0.grid.coords t) = false from rfl, after0_8]
theorem before0_9 (c : Dev nD) (t : Fin cfg0.N) (d) : (dats m 0 c).before 9 t d = iblk m c 9 t :=
  before0_9_of m (dats m 0 c) (A_eq m c 9) (after0_9 m c) t d
theorem leaves0_9 (c : Dev nD) (t : Fin cfg0.N) :
    (dats m 0 c).leavesExact 9 t = owns (c : Thread nD τ) (ms0_9 t) fullShare (iblk m c 9 t) := by
  unfold Dat.leavesExact; rw [show cfg0.idle 9 (cfg0.grid.coords t) = false from rfl, after0_9]
theorem before0_10 (c : Dev nD) (t : Fin cfg0.N) (d) : (dats m 0 c).before 10 t d = iblk m c 10 t :=
  before0_10_of m (dats m 0 c) (A_eq m c 10) (after0_10 m c) t d
theorem leaves0_10 (c : Dev nD) (t : Fin cfg0.N) :
    (dats m 0 c).leavesExact 10 t = owns (c : Thread nD τ) (ms0_10 t) fullShare (iblk m c 10 t) := by
  unfold Dat.leavesExact; rw [show cfg0.idle 10 (cfg0.grid.coords t) = false from rfl, after0_10]
theorem before0_11 (c : Dev nD) (t : Fin cfg0.N) (d) : (dats m 0 c).before 11 t d = iblk m c 11 t :=
  before0_11_of m (dats m 0 c) (A_eq m c 11) (after0_11 m c) t d
theorem leaves0_11 (c : Dev nD) (t : Fin cfg0.N) :
    (dats m 0 c).leavesExact 11 t = owns (c : Thread nD τ) (ms0_11 t) fullShare (iblk m c 11 t) := by
  unfold Dat.leavesExact; rw [show cfg0.idle 11 (cfg0.grid.coords t) = false from rfl, after0_11]
theorem before0_12 (c : Dev nD) (t : Fin cfg0.N) (d) : (dats m 0 c).before 12 t d = iblk m c 12 t :=
  before0_12_of m (dats m 0 c) (A_eq m c 12) (after0_12 m c) t d
theorem leaves0_12 (c : Dev nD) (t : Fin cfg0.N) :
    (dats m 0 c).leavesExact 12 t = owns (c : Thread nD τ) (ms0_12 t) fullShare (iblk m c 12 t) := by
  unfold Dat.leavesExact; rw [show cfg0.idle 12 (cfg0.grid.coords t) = false from rfl, after0_12]
theorem before0_13 (c : Dev nD) (t : Fin cfg0.N) (d) : (dats m 0 c).before 13 t d = iblk m c 13 t :=
  before0_13_of m (dats m 0 c) (A_eq m c 13) (after0_13 m c) t d
theorem leaves0_13 (c : Dev nD) (t : Fin cfg0.N) :
    (dats m 0 c).leavesExact 13 t = owns (c : Thread nD τ) (ms0_13 t) fullShare (iblk m c 13 t) := by
  unfold Dat.leavesExact; rw [show cfg0.idle 13 (cfg0.grid.coords t) = false from rfl, after0_13]
theorem before0_14 (c : Dev nD) (t : Fin cfg0.N) (d) : (dats m 0 c).before 14 t d = iblk m c 14 t :=
  before0_14_of m (dats m 0 c) (A_eq m c 14) (after0_14 m c) t d
theorem leaves0_14 (c : Dev nD) (t : Fin cfg0.N) :
    (dats m 0 c).leavesExact 14 t = owns (c : Thread nD τ) (ms0_14 t) fullShare (iblk m c 14 t) := by
  unfold Dat.leavesExact; rw [show cfg0.idle 14 (cfg0.grid.coords t) = false from rfl, after0_14]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t)

set_option maxHeartbeats 8000000 in
/-- The body at any point: the inputs' buffers hold their blocks; the point's number mod 4 says which run applies;
    the invariant hands the run the accumulators at what the point before left (at anything before the first point)
    and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ]
  simp only [leaves0_0, leaves0_1, leaves0_2, leaves0_3, leaves0_4, leaves0_5, leaves0_6, leaves0_7, leaves0_8, leaves0_9, leaves0_10, leaves0_11, leaves0_12, leaves0_13, leaves0_14]
  have hN : t.val < 256 := lt_of_lt_of_eq t.isLt (show cfg0.N = 256 from N_0)
  by_cases h0 : t.val % 4 = 0
  · have h1 : ¬t.val % 4 = 3 := by omega
    rw [Dat.leavesExact_idle (dats m 0 c) 15 t (idleAt0_15 t (fun h => h1 ((hcond0_1 t).mp h))) (noFlush0_15 t (fun h => h1 ((hcond0_1 t).mp h)))]
    rw [Dat.leavesExact_idle (dats m 0 c) 16 t (idleAt0_16 t (fun h => h1 ((hcond0_1 t).mp h))) (noFlush0_16 t (fun h => h1 ((hcond0_1 t).mp h)))]
    rw [accAt_A m c t h0 h1]
    unfold soutA_0 soutA_1 soutA_2 soutA_3; (try dsimp only)
    by_cases hz : t.val = 0
    · rw [PhiS_castSucc m c t, PhiS_zero m c _ _ hz, scoped0_eq]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((runA m c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3]
      · isplitl [HS0]
        · unfold owns; iexists _; isplitr
          swap; · iexact HS0
          ipureintro; exact View.read_writes_of_cover _ _ _ _ _ (scoverA_0 m c t h0 h1)
        isplitl [HS1]
        · unfold owns; iexists _; isplitr
          swap; · iexact HS1
          ipureintro; exact View.read_writes_of_cover _ _ _ _ _ (scoverA_1 m c t h0 h1)
        isplitl [HS2]
        · unfold owns; iexists _; isplitr
          swap; · iexact HS2
          ipureintro; exact View.read_writes_of_cover _ _ _ _ _ (scoverA_2 m c t h0 h1)
        unfold owns; iexists _; isplitr
        swap; · iexact HS3
        ipureintro; exact View.read_writes_of_cover _ _ _ _ _ (scoverA_3 m c t h0 h1)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16
    · rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((runA m c t h0 h1).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexists _; iexact HS0
      isplitl [HS1]; · iexists _; iexact HS1
      isplitl [HS2]; · iexists _; iexact HS2
      isplitl [HS3]; · iexists _; iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3]
      · isplitl [HS0]
        · unfold owns; iexists _; isplitr
          swap; · iexact HS0
          ipureintro; exact View.read_writes_of_cover _ _ _ _ _ (scoverA_0 m c t h0 h1)
        isplitl [HS1]
        · unfold owns; iexists _; isplitr
          swap; · iexact HS1
          ipureintro; exact View.read_writes_of_cover _ _ _ _ _ (scoverA_1 m c t h0 h1)
        isplitl [HS2]
        · unfold owns; iexists _; isplitr
          swap; · iexact HS2
          ipureintro; exact View.read_writes_of_cover _ _ _ _ _ (scoverA_2 m c t h0 h1)
        unfold owns; iexists _; isplitr
        swap; · iexact HS3
        ipureintro; exact View.read_writes_of_cover _ _ _ _ _ (scoverA_3 m c t h0 h1)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16
  · have hz : t.val ≠ 0 := fun e => h0 (by rw [e])
    by_cases h1 : t.val % 4 = 3
    · rw [show (dats m 0 c).leavesExact 15 t = owns (c : Thread nD τ) (ms0_15 t) fullShare ((dats m 0 c).after 15 t) from by
        unfold Dat.leavesExact; rw [liveAt0_15 t ((hcond0_1 t).mpr h1)], after0_15, outAt15_C m c t h0 h1]
      rw [show (dats m 0 c).leavesExact 16 t = owns (c : Thread nD τ) (ms0_16 t) fullShare ((dats m 0 c).after 16 t) from by
        unfold Dat.leavesExact; rw [liveAt0_16 t ((hcond0_1 t).mpr h1)], after0_16, outAt16_C m c t h0 h1]
      rw [accAt_C m c t h0 h1]
      unfold soutC_0 soutC_1 soutC_2 soutC_3 outC_15 outC_16; (try dsimp only)
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((runC m c t h0 h1 _ _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      isplitl [H16]; · iexists _; iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, ⟨%e15, H15⟩, ⟨%e16, H16⟩, ⟨%es0, HS0⟩, ⟨%es1, HS1⟩, ⟨%es2, HS2⟩, ⟨%es3, HS3⟩⟩
      isplitl [HS0 HS1 HS2 HS3]
      · isplitl [HS0]
        · unfold owns; iexists _; isplitr
          swap; · iexact HS0
          ipureintro; exact View.read_writes_of_cover _ _ _ _ _ (scoverC_0 m c t h0 h1 _ _ _ _)
        isplitl [HS1]
        · unfold owns; iexists _; isplitr
          swap; · iexact HS1
          ipureintro; exact View.read_writes_of_cover _ _ _ _ _ (scoverC_1 m c t h0 h1 _ _ _ _)
        isplitl [HS2]
        · unfold owns; iexists _; isplitr
          swap; · iexact HS2
          ipureintro; exact View.read_writes_of_cover _ _ _ _ _ (scoverC_2 m c t h0 h1 _ _ _ _)
        unfold owns; iexists _; isplitr
        swap; · iexact HS3
        ipureintro; exact View.read_writes_of_cover _ _ _ _ _ (scoverC_3 m c t h0 h1 _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]
      · unfold owns; iexists _; isplitr
        swap; · iexact H15
        ipureintro; exact View.read_writes_of_cover _ _ _ _ _ (coverC_15 m c t h0 h1 _ _ _ _)
      unfold owns; iexists _; isplitr
      swap; · iexact H16
      ipureintro; exact View.read_writes_of_cover _ _ _ _ _ (coverC_16 m c t h0 h1 _ _ _ _)
    · rw [Dat.leavesExact_idle (dats m 0 c) 15 t (idleAt0_15 t (fun h => h1 ((hcond0_1 t).mp h))) (noFlush0_15 t (fun h => h1 ((hcond0_1 t).mp h)))]
      rw [Dat.leavesExact_idle (dats m 0 c) 16 t (idleAt0_16 t (fun h => h1 ((hcond0_1 t).mp h))) (noFlush0_16 t (fun h => h1 ((hcond0_1 t).mp h)))]
      rw [accAt_B m c t h0 h1]
      unfold soutB_0 soutB_1 soutB_2 soutB_3; (try dsimp only)
      rw [PhiS_castSucc m c t, PhiS_pos m c _ _ hz]
      iintro ⟨⟨HS0, HS1, HS2, HS3⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
      iapply ((runB m c t h0 h1 _ _ _ _).2.2.2.2 _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [H16]; · iexact H16
      isplitl [HS0]; · iexact HS0
      isplitl [HS1]; · iexact HS1
      isplitl [HS2]; · iexact HS2
      isplitl [HS3]; · iexact HS3
      iintro ⟨H0, H1, H2, H3, H4, H5, H6, H7, H8, H9, H10, H11, H12, H13, H14, H15, H16, ⟨%es0, HS0⟩, ⟨%es1, HS1⟩, ⟨%es2, HS2⟩, ⟨%es3, HS3⟩⟩
      isplitl [HS0 HS1 HS2 HS3]
      · isplitl [HS0]
        · unfold owns; iexists _; isplitr
          swap; · iexact HS0
          ipureintro; exact View.read_writes_of_cover _ _ _ _ _ (scoverB_0 m c t h0 h1 _ _ _ _)
        isplitl [HS1]
        · unfold owns; iexists _; isplitr
          swap; · iexact HS1
          ipureintro; exact View.read_writes_of_cover _ _ _ _ _ (scoverB_1 m c t h0 h1 _ _ _ _)
        isplitl [HS2]
        · unfold owns; iexists _; isplitr
          swap; · iexact HS2
          ipureintro; exact View.read_writes_of_cover _ _ _ _ _ (scoverB_2 m c t h0 h1 _ _ _ _)
        unfold owns; iexists _; isplitr
        swap; · iexact HS3
        ipureintro; exact View.read_writes_of_cover _ _ _ _ _ (scoverB_3 m c t h0 h1 _ _ _ _)
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexact H14
      isplitl [H15]; · iexists _; iexact H15
      iexists _; iexact H16

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealReadBack.lean ====
/-
  What the body's three runs leave, as the kernel's own arithmetic.

  Each run's stores were found as pieces; every store in this kernel writes a whole buffer through the zero offset, so
  a buffer reads back as the payload of its last store, a load after a store as that store's payload, and a load of a
  buffer nothing stored into as what the buffer held. So an accumulator after a point is one step over the point's two
  activation blocks and that gate's two weight blocks, from zero at a reset point and from the previous contents
  elsewhere; the two result blocks at a finish are the finish payloads of the four new accumulators, the four bias
  rows and the cell-state block.
-/
import proofs.«168456_j39350490366667_2_alg».proof.Proof.IdealFrameCore
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz2 : (![0, 0] : Fin 2 → Nat) = fun _ => 0 := by funext a; match a with | ⟨0, _⟩ => rfl | ⟨1, _⟩ => rfl

theorem read_scr0 (h : (Memref.whole cc0_scratch0 : Memref sig .tc .vmem S1024x256 .f32).IsWhole) (X : Vec F S1024x256 .f32) :
    View.read (Elt F) (View.whole cc0_scratch0) (h.unread X) = X := h.read_unread X
theorem read_scr1 (h : (Memref.whole cc0_scratch1 : Memref sig .tc .vmem S1024x256 .f32).IsWhole) (X : Vec F S1024x256 .f32) :
    View.read (Elt F) (View.whole cc0_scratch1) (h.unread X) = X := h.read_unread X
theorem read_scr2 (h : (Memref.whole cc0_scratch2 : Memref sig .tc .vmem S1024x256 .f32).IsWhole) (X : Vec F S1024x256 .f32) :
    View.read (Elt F) (View.whole cc0_scratch2) (h.unread X) = X := h.read_unread X
theorem read_scr3 (h : (Memref.whole cc0_scratch3 : Memref sig .tc .vmem S1024x256 .f32).IsWhole) (X : Vec F S1024x256 .f32) :
    View.read (Elt F) (View.whole cc0_scratch3) (h.unread X) = X := h.read_unread X

/-- The finish payloads respect equality of the four accumulators they read. -/
theorem pay5_congr {a a' b b' d d' e e' : Vec F S1024x256 .f32} (x11 x12 x13 x14 : Vec F S1x256 .f32) (x2 : Vec F S1024x256 .f32)
    (ha : a = a') (hb : b = b') (hd : d = d') (he : e = e') :
    k0_pay5 a x11 b x12 d x13 e x14 x2 = k0_pay5 a' x11 b' x12 d' x13 e' x14 x2 := by subst ha hb hd he; rfl
theorem pay4_congr {a a' b b' e e' : Vec F S1024x256 .f32} (x11 x12 x14 : Vec F S1x256 .f32) (x2 : Vec F S1024x256 .f32)
    (ha : a = a') (hb : b = b') (he : e = e') :
    k0_pay4 a x11 b x12 e x14 x2 = k0_pay4 a' x11 b' x12 e' x14 x2 := by subst ha hb he; rfl

set_option maxHeartbeats 1000000 in
theorem soutA_0_eq (c : Dev nD) (t : Fin cfg0.N) (h0 : t.val % 4 = 0) (h1 : ¬t.val % 4 = 3) :
    soutA_0 m c t h0 h1 = k0_pay12 (iblk m c 0 t) (iblk m c 1 t) (k0_pay6 (F := F)) (iblk m c 3 t) (iblk m c 7 t) := by
  unfold soutA_0
  rw [View.read_writes_eq_canon _ _ _ (scoverA_0 m c t h0 h1)]
  unfold runA kernelRun0_A
  dsimp only
  sl_unfold_words
  try dsimp only
  first | rw [View.canon_unit_zero hz2] | rw [View.canon_cons_unit_zero hz2]
  simp only [View.readAt_eq_ld, Memref.IsWhole.read_unread, read_scr0, read_scr1, read_scr2, read_scr3,
    View.ld_unit_zero (S := S1024x512) hz2, View.ld_unit_zero (S := S1024x256) hz2, View.ld_unit_zero (S := S512x256) hz2, View.ld_unit_zero (S := S1x256) hz2]
  exact congrArg (fun a => k0_pay12 (iblk m c 0 t) (iblk m c 1 t) a (iblk m c 3 t) (iblk m c 7 t)) (View.readCov_unit_zero _ hz2 _ _)

set_option maxHeartbeats 1000000 in
theorem soutB_0_eq (c : Dev nD) (t : Fin cfg0.N) (h0 : ¬t.val % 4 = 0) (h1 : ¬t.val % 4 = 3) (xs0 xs1 xs2 xs3 : Vec F S1024x256 .f32) :
    soutB_0 m c t h0 h1 xs0 xs1 xs2 xs3 = k0_pay12 (iblk m c 0 t) (iblk m c 1 t) xs0 (iblk m c 3 t) (iblk m c 7 t) := by
  unfold soutB_0
  rw [View.read_writes_eq_canon _ _ _ (scoverB_0 m c t h0 h1 xs0 xs1 xs2 xs3)]
  unfold runB kernelRun0_B
  dsimp only
  sl_unfold_words
  try dsimp only
  first | rw [View.canon_unit_zero hz2] | rw [View.canon_cons_unit_zero hz2]
  simp only [View.readAt_eq_ld, Memref.IsWhole.read_unread, read_scr0, read_scr1, read_scr2, read_scr3,
    View.ld_unit_zero (S := S1024x512) hz2, View.ld_unit_zero (S := S1024x256) hz2, View.ld_unit_zero (S := S512x256) hz2, View.ld_unit_zero (S := S1x256) hz2]
  try rfl

set_option maxHeartbeats 1000000 in
theorem soutC_0_eq (c : Dev nD) (t : Fin cfg0.N) (h0 : ¬t.val % 4 = 0) (h1 : t.val % 4 = 3) (xs0 xs1 xs2 xs3 : Vec F S1024x256 .f32) :
    soutC_0 m c t h0 h1 xs0 xs1 xs2 xs3 = k0_pay12 (iblk m c 0 t) (iblk m c 1 t) xs0 (iblk m c 3 t) (iblk m c 7 t) := by
  unfold soutC_0
  rw [View.read_writes_eq_canon _ _ _ (scoverC_0 m c t h0 h1 xs0 xs1 xs2 xs3)]
  unfold runC kernelRun0_C
  dsimp only
  sl_unfold_words
  try dsimp only
  first | rw [View.canon_unit_zero hz2] | rw [View.canon_cons_unit_zero hz2]
  simp only [View.readAt_eq_ld, Memref.IsWhole.read_unread, read_scr0, read_scr1, read_scr2, read_scr3,
    View.ld_unit_zero (S := S1024x512) hz2, View.ld_unit_zero (S := S1024x256) hz2, View.ld_unit_zero (S := S512x256) hz2, View.ld_unit_zero (S := S1x256) hz2]
  try rfl

set_option maxHeartbeats 1000000 in
theorem soutA_1_eq (c : Dev nD) (t : Fin cfg0.N) (h0 : t.val % 4 = 0) (h1 : ¬t.val % 4 = 3) :
    soutA_1 m c t h0 h1 = k0_pay1 (k0_pay13 (iblk m c 0 t) (iblk m c 1 t) (k0_pay7 (F := F)) (iblk m c 4 t) (iblk m c 8 t)) := by
  unfold soutA_1
  rw [View.read_writes_eq_canon _ _ _ (scoverA_1 m c t h0 h1)]
  unfold runA kernelRun0_A
  dsimp only
  sl_unfold_words
  try dsimp only
  first | rw [View.canon_unit_zero hz2] | rw [View.canon_cons_unit_zero hz2]
  simp only [View.readAt_eq_ld, Memref.IsWhole.read_unread, read_scr0, read_scr1, read_scr2, read_scr3,
    View.ld_unit_zero (S := S1024x512) hz2, View.ld_unit_zero (S := S1024x256) hz2, View.ld_unit_zero (S := S512x256) hz2, View.ld_unit_zero (S := S1x256) hz2]
  exact congrArg (fun a => k0_pay1 (k0_pay13 (iblk m c 0 t) (iblk m c 1 t) a (iblk m c 4 t) (iblk m c 8 t))) (View.readCov_unit_zero _ hz2 _ _)

set_option maxHeartbeats 1000000 in
theorem soutB_1_eq (c : Dev nD) (t : Fin cfg0.N) (h0 : ¬t.val % 4 = 0) (h1 : ¬t.val % 4 = 3) (xs0 xs1 xs2 xs3 : Vec F S1024x256 .f32) :
    soutB_1 m c t h0 h1 xs0 xs1 xs2 xs3 = k0_pay1 (k0_pay13 (iblk m c 0 t) (iblk m c 1 t) xs1 (iblk m c 4 t) (iblk m c 8 t)) := by
  unfold soutB_1
  rw [View.read_writes_eq_canon _ _ _ (scoverB_1 m c t h0 h1 xs0 xs1 xs2 xs3)]
  unfold runB kernelRun0_B
  dsimp only
  sl_unfold_words
  try dsimp only
  first | rw [View.canon_unit_zero hz2] | rw [View.canon_cons_unit_zero hz2]
  simp only [View.readAt_eq_ld, Memref.IsWhole.read_unread, read_scr0, read_scr1, read_scr2, read_scr3,
    View.ld_unit_zero (S := S1024x512) hz2, View.ld_unit_zero (S := S1024x256) hz2, View.ld_unit_zero (S := S512x256) hz2, View.ld_unit_zero (S := S1x256) hz2]
  try rfl

set_option maxHeartbeats 1000000 in
theorem soutC_1_eq (c : Dev nD) (t : Fin cfg0.N) (h0 : ¬t.val % 4 = 0) (h1 : t.val % 4 = 3) (xs0 xs1 xs2 xs3 : Vec F S1024x256 .f32) :
    soutC_1 m c t h0 h1 xs0 xs1 xs2 xs3 = k0_pay1 (k0_pay13 (iblk m c 0 t) (iblk m c 1 t) xs1 (iblk m c 4 t) (iblk m c 8 t)) := by
  unfold soutC_1
  rw [View.read_writes_eq_canon _ _ _ (scoverC_1 m c t h0 h1 xs0 xs1 xs2 xs3)]
  unfold runC kernelRun0_C
  dsimp only
  sl_unfold_words
  try dsimp only
  first | rw [View.canon_unit_zero hz2] | rw [View.canon_cons_unit_zero hz2]
  simp only [View.readAt_eq_ld, Memref.IsWhole.read_unread, read_scr0, read_scr1, read_scr2, read_scr3,
    View.ld_unit_zero (S := S1024x512) hz2, View.ld_unit_zero (S := S1024x256) hz2, View.ld_unit_zero (S := S512x256) hz2, View.ld_unit_zero (S := S1x256) hz2]
  try rfl

set_option maxHeartbeats 1000000 in
theorem soutA_2_eq (c : Dev nD) (t : Fin cfg0.N) (h0 : t.val % 4 = 0) (h1 : ¬t.val % 4 = 3) :
    soutA_2 m c t h0 h1 = k0_pay2 (k0_pay10 (iblk m c 0 t)) (k0_pay11 (iblk m c 1 t)) (k0_pay8 (F := F)) (iblk m c 5 t) (iblk m c 9 t) := by
  unfold soutA_2
  rw [View.read_writes_eq_canon _ _ _ (scoverA_2 m c t h0 h1)]
  unfold runA kernelRun0_A
  dsimp only
  sl_unfold_words
  try dsimp only
  first | rw [View.canon_unit_zero hz2] | rw [View.canon_cons_unit_zero hz2]
  simp only [View.readAt_eq_ld, Memref.IsWhole.read_unread, read_scr0, read_scr1, read_scr2, read_scr3,
    View.ld_unit_zero (S := S1024x512) hz2, View.ld_unit_zero (S := S1024x256) hz2, View.ld_unit_zero (S := S512x256) hz2, View.ld_unit_zero (S := S1x256) hz2]
  exact congrArg (fun a => k0_pay2 (k0_pay10 (iblk m c 0 t)) (k0_pay11 (iblk m c 1 t)) a (iblk m c 5 t) (iblk m c 9 t)) (View.readCov_unit_zero _ hz2 _ _)

set_option maxHeartbeats 1000000 in
theorem soutB_2_eq (c : Dev nD) (t : Fin cfg0.N) (h0 : ¬t.val % 4 = 0) (h1 : ¬t.val % 4 = 3) (xs0 xs1 xs2 xs3 : Vec F S1024x256 .f32) :
    soutB_2 m c t h0 h1 xs0 xs1 xs2 xs3 = k0_pay2 (k0_pay10 (iblk m c 0 t)) (k0_pay11 (iblk m c 1 t)) xs2 (iblk m c 5 t) (iblk m c 9 t) := by
  unfold soutB_2
  rw [View.read_writes_eq_canon _ _ _ (scoverB_2 m c t h0 h1 xs0 xs1 xs2 xs3)]
  unfold runB kernelRun0_B
  dsimp only
  sl_unfold_words
  try dsimp only
  first | rw [View.canon_unit_zero hz2] | rw [View.canon_cons_unit_zero hz2]
  simp only [View.readAt_eq_ld, Memref.IsWhole.read_unread, read_scr0, read_scr1, read_scr2, read_scr3,
    View.ld_unit_zero (S := S1024x512) hz2, View.ld_unit_zero (S := S1024x256) hz2, View.ld_unit_zero (S := S512x256) hz2, View.ld_unit_zero (S := S1x256) hz2]
  try rfl

set_option maxHeartbeats 1000000 in
theorem soutC_2_eq (c : Dev nD) (t : Fin cfg0.N) (h0 : ¬t.val % 4 = 0) (h1 : t.val % 4 = 3) (xs0 xs1 xs2 xs3 : Vec F S1024x256 .f32) :
    soutC_2 m c t h0 h1 xs0 xs1 xs2 xs3 = k0_pay2 (k0_pay10 (iblk m c 0 t)) (k0_pay11 (iblk m c 1 t)) xs2 (iblk m c 5 t) (iblk m c 9 t) := by
  unfold soutC_2
  rw [View.read_writes_eq_canon _ _ _ (scoverC_2 m c t h0 h1 xs0 xs1 xs2 xs3)]
  unfold runC kernelRun0_C
  dsimp only
  sl_unfold_words
  try dsimp only
  first | rw [View.canon_unit_zero hz2] | rw [View.canon_cons_unit_zero hz2]
  simp only [View.readAt_eq_ld, Memref.IsWhole.read_unread, read_scr0, read_scr1, read_scr2, read_scr3,
    View.ld_unit_zero (S := S1024x512) hz2, View.ld_unit_zero (S := S1024x256) hz2, View.ld_unit_zero (S := S512x256) hz2, View.ld_unit_zero (S := S1x256) hz2]
  try rfl

set_option maxHeartbeats 1000000 in
theorem soutA_3_eq (c : Dev nD) (t : Fin cfg0.N) (h0 : t.val % 4 = 0) (h1 : ¬t.val % 4 = 3) :
    soutA_3 m c t h0 h1 = k0_pay3 (k0_pay10 (iblk m c 0 t)) (k0_pay11 (iblk m c 1 t)) (k0_pay9 (F := F)) (iblk m c 6 t) (iblk m c 10 t) := by
  unfold soutA_3
  rw [View.read_writes_eq_canon _ _ _ (scoverA_3 m c t h0 h1)]
  unfold runA kernelRun0_A
  dsimp only
  sl_unfold_words
  try dsimp only
  first | rw [View.canon_unit_zero hz2] | rw [View.canon_cons_unit_zero hz2]
  simp only [View.readAt_eq_ld, Memref.IsWhole.read_unread, read_scr0, read_scr1, read_scr2, read_scr3,
    View.ld_unit_zero (S := S1024x512) hz2, View.ld_unit_zero (S := S1024x256) hz2, View.ld_unit_zero (S := S512x256) hz2, View.ld_unit_zero (S := S1x256) hz2]
  exact congrArg (fun a => k0_pay3 (k0_pay10 (iblk m c 0 t)) (k0_pay11 (iblk m c 1 t)) a (iblk m c 6 t) (iblk m c 10 t)) (View.readCov_unit_zero _ hz2 _ _)

set_option maxHeartbeats 1000000 in
theorem soutB_3_eq (c : Dev nD) (t : Fin cfg0.N) (h0 : ¬t.val % 4 = 0) (h1 : ¬t.val % 4 = 3) (xs0 xs1 xs2 xs3 : Vec F S1024x256 .f32) :
    soutB_3 m c t h0 h1 xs0 xs1 xs2 xs3 = k0_pay3 (k0_pay10 (iblk m c 0 t)) (k0_pay11 (iblk m c 1 t)) xs3 (iblk m c 6 t) (iblk m c 10 t) := by
  unfold soutB_3
  rw [View.read_writes_eq_canon _ _ _ (scoverB_3 m c t h0 h1 xs0 xs1 xs2 xs3)]
  unfold runB kernelRun0_B
  dsimp only
  sl_unfold_words
  try dsimp only
  first | rw [View.canon_unit_zero hz2] | rw [View.canon_cons_unit_zero hz2]
  simp only [View.readAt_eq_ld, Memref.IsWhole.read_unread, read_scr0, read_scr1, read_scr2, read_scr3,
    View.ld_unit_zero (S := S1024x512) hz2, View.ld_unit_zero (S := S1024x256) hz2, View.ld_unit_zero (S := S512x256) hz2, View.ld_unit_zero (S := S1x256) hz2]
  try rfl

set_option maxHeartbeats 1000000 in
theorem soutC_3_eq (c : Dev nD) (t : Fin cfg0.N) (h0 : ¬t.val % 4 = 0) (h1 : t.val % 4 = 3) (xs0 xs1 xs2 xs3 : Vec F S1024x256 .f32) :
    soutC_3 m c t h0 h1 xs0 xs1 xs2 xs3 = k0_pay3 (k0_pay10 (iblk m c 0 t)) (k0_pay11 (iblk m c 1 t)) xs3 (iblk m c 6 t) (iblk m c 10 t) := by
  unfold soutC_3
  rw [View.read_writes_eq_canon _ _ _ (scoverC_3 m c t h0 h1 xs0 xs1 xs2 xs3)]
  unfold runC kernelRun0_C
  dsimp only
  sl_unfold_words
  try dsimp only
  first | rw [View.canon_unit_zero hz2] | rw [View.canon_cons_unit_zero hz2]
  simp only [View.readAt_eq_ld, Memref.IsWhole.read_unread, read_scr0, read_scr1, read_scr2, read_scr3,
    View.ld_unit_zero (S := S1024x512) hz2, View.ld_unit_zero (S := S1024x256) hz2, View.ld_unit_zero (S := S512x256) hz2, View.ld_unit_zero (S := S1x256) hz2]
  try rfl

set_option maxHeartbeats 8000000 in
/-- The hidden-state block at a finish. -/
theorem outC_15_eq (c : Dev nD) (t : Fin cfg0.N) (h0 : ¬t.val % 4 = 0) (h1 : t.val % 4 = 3) (xs0 xs1 xs2 xs3 : Vec F S1024x256 .f32) :
    outC_15 m c t h0 h1 xs0 xs1 xs2 xs3
      = k0_pay5 (k0_pay12 (iblk m c 0 t) (iblk m c 1 t) xs0 (iblk m c 3 t) (iblk m c 7 t)) (iblk m c 11 t) (k0_pay1 (k0_pay13 (iblk m c 0 t) (iblk m c 1 t) xs1 (iblk m c 4 t) (iblk m c 8 t))) (iblk m c 12 t) (k0_pay2 (k0_pay10 (iblk m c 0 t)) (k0_pay11 (iblk m c 1 t)) xs2 (iblk m c 5 t) (iblk m c 9 t)) (iblk m c 13 t) (k0_pay3 (k0_pay10 (iblk m c 0 t)) (k0_pay11 (iblk m c 1 t)) xs3 (iblk m c 6 t) (iblk m c 10 t)) (iblk m c 14 t) (iblk m c 2 t) := by
  unfold outC_15
  rw [View.read_writes_eq_canon _ _ _ (coverC_15 m c t h0 h1 xs0 xs1 xs2 xs3)]
  unfold runC kernelRun0_C
  dsimp only
  sl_unfold_words
  try dsimp only
  first | rw [View.canon_unit_zero hz2] | rw [View.canon_cons_unit_zero hz2]
  simp only [View.readAt_eq_ld, Memref.IsWhole.read_unread, read_scr0, read_scr1, read_scr2, read_scr3,
    View.ld_unit_zero (S := S1024x512) hz2, View.ld_unit_zero (S := S1024x256) hz2, View.ld_unit_zero (S := S512x256) hz2, View.ld_unit_zero (S := S1x256) hz2]
  exact pay5_congr _ _ _ _ _ (View.readCov_unit_zero _ hz2 _ _) (View.readCov_unit_zero _ hz2 _ _) (View.readCov_unit_zero _ hz2 _ _) (View.readCov_unit_zero _ hz2 _ _)

set_option maxHeartbeats 8000000 in
/-- The cell-state block at a finish. -/
theorem outC_16_eq (c : Dev nD) (t : Fin cfg0.N) (h0 : ¬t.val % 4 = 0) (h1 : t.val % 4 = 3) (xs0 xs1 xs2 xs3 : Vec F S1024x256 .f32) :
    outC_16 m c t h0 h1 xs0 xs1 xs2 xs3
      = k0_pay4 (k0_pay12 (iblk m c 0 t) (iblk m c 1 t) xs0 (iblk m c 3 t) (iblk m c 7 t)) (iblk m c 11 t) (k0_pay1 (k0_pay13 (iblk m c 0 t) (iblk m c 1 t) xs1 (iblk m c 4 t) (iblk m c 8 t))) (iblk m c 12 t) (k0_pay3 (k0_pay10 (iblk m c 0 t)) (k0_pay11 (iblk m c 1 t)) xs3 (iblk m c 6 t) (iblk m c 10 t)) (iblk m c 14 t) (iblk m c 2 t) := by
  unfold outC_16
  rw [View.read_writes_eq_canon _ _ _ (coverC_16 m c t h0 h1 xs0 xs1 xs2 xs3)]
  unfold runC kernelRun0_C
  dsimp only
  sl_unfold_words
  try dsimp only
  first | rw [View.canon_unit_zero hz2] | rw [View.canon_cons_unit_zero hz2]
  simp only [View.readAt_eq_ld, Memref.IsWhole.read_unread, read_scr0, read_scr1, read_scr2, read_scr3,
    View.ld_unit_zero (S := S1024x512) hz2, View.ld_unit_zero (S := S1024x256) hz2, View.ld_unit_zero (S := S512x256) hz2, View.ld_unit_zero (S := S1x256) hz2]
  exact pay4_congr _ _ _ _ (View.readCov_unit_zero _ hz2 _ _) (View.readCov_unit_zero _ hz2 _ _) (View.readCov_unit_zero _ hz2 _ _)

end Cert.KernelIdeal.Hand

end
-- ==== Proof.IdealBlocks.lean ====
/-
  The LSTM-cell kernel's input blocks as entries of the seven argument arrays, on the extended reals.

  The arrays the windows stage are the host operations' results: the four bf16 converts are the identity on the
  extended reals, and the bias array is the two bias vectors added and laid out as one row. With (mb, nb, kb) the
  point's coordinates (mb = t / 32, nb = t / 4 mod 8, kb = t mod 4), the activation blocks are rows mb·1024.. and
  contraction positions kb·512.., gate g's weight blocks are contraction positions kb·512.. and columns
  (g·8 + nb)·256.., gate g's bias block is those columns of the one row, and the cell-state block is rows
  mb·1024.. and columns nb·256...
-/
import proofs.«168456_j39350490366667_2_alg».proof.Proof.IdealFrameCore
import Idealize.ShloMosaic.Lib.ValueIdx
import Idealize.ShloMosaic.Lib.Pipeline.Value
import Idealize.ShloMosaic.Lib.StableHlo.Run

set_option maxRecDepth 16384

noncomputable section

namespace Cert.KernelIdeal.ValueIdeal

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

variable (m : (ℓ : Loc nD τ sig) → Buf (Elt Ideal) ℓ) (ρ : Dev nD → PrngReg)

/-! ## The argument arrays and the staged arrays -/

abbrev A0 (c : Dev nD) : S8192x2048.Idx → EReal := m ((c : Thread nD τ).loc main_arg0)
abbrev A1 (c : Dev nD) : S8192x2048.Idx → EReal := m ((c : Thread nD τ).loc main_arg1)
abbrev A2 (c : Dev nD) : S8192x2048.Idx → EReal := m ((c : Thread nD τ).loc main_arg2)
abbrev A3 (c : Dev nD) : S2048x8192.Idx → EReal := m ((c : Thread nD τ).loc main_arg3)
abbrev A4 (c : Dev nD) : S8192.Idx → EReal := m ((c : Thread nD τ).loc main_arg4)
abbrev A5 (c : Dev nD) : S2048x8192.Idx → EReal := m ((c : Thread nD τ).loc main_arg5)
abbrev A6 (c : Dev nD) : S8192.Idx → EReal := m ((c : Thread nD τ).loc main_arg6)

theorem V_v0 (c : Dev nD) : (V m c main_v0 : S8192x2048.Idx → EReal) = A0 m c := by
  dsimp only [V, V0, hostOps0]; after_results; rfl
theorem V_v1 (c : Dev nD) : (V m c main_v1 : S8192x2048.Idx → EReal) = A1 m c := by
  dsimp only [V, V0, hostOps0]; after_results; rfl
theorem V_a2 (c : Dev nD) : (V m c main_arg2 : S8192x2048.Idx → EReal) = A2 m c := by
  dsimp only [V, V0, hostOps0]; after_results; try rfl
theorem V_v2 (c : Dev nD) : (V m c main_v2 : S2048x8192.Idx → EReal) = A3 m c := by
  dsimp only [V, V0, hostOps0]; after_results; rfl
theorem V_v3 (c : Dev nD) : (V m c main_v3 : S2048x8192.Idx → EReal) = A5 m c := by
  dsimp only [V, V0, hostOps0]; after_results; rfl
theorem V_v5 (c : Dev nD) : (V m c main_v5 : S1x8192.Idx → EReal)
    = shapeCast S1x8192 (fun i => A4 m c i + A6 m c i) shapeCasts_S8192_S1x8192 := by
  dsimp only [V, V0, hostOps0]; after_results; rfl

/-- The bias row at column J: the two biases' sum there. -/
theorem V_v5_apply (c : Dev nD) (J : Fin 8192) :
    (V m c main_v5 : S1x8192.Idx → EReal) (ix2 0 J) = A4 m c (ix1 J) + A6 m c (ix1 J) := by
  rw [V_v5, shapeCast_apply _ _ (ix2 (0 : Fin 1) J) (ix1 J) (by rw [Shape.rowMajor_val_one, Shape.rowMajor_val_two]; simp)]

/-! ## The point's coordinates and the global indices -/

theorem tlt (t : Fin cfg0.N) : t.val < 256 := lt_of_lt_of_eq t.isLt (show cfg0.N = 256 from N_0)

/-- Row r of the point's row block. -/
def rowI (t : Fin cfg0.N) (r : Fin 1024) : Fin 8192 := ⟨t.val / 32 * 1024 + r.val, by have := tlt t; omega⟩
/-- Position k of the point's contraction block. -/
def kI (t : Fin cfg0.N) (k : Fin 512) : Fin (4 * 512) := ⟨t.val % 4 * 512 + k.val, by omega⟩
/-- Column q of the point's column block. -/
def colI (t : Fin cfg0.N) (q : Fin 256) : Fin 2048 := ⟨t.val / 4 % 8 * 256 + q.val, by omega⟩
/-- Column q of gate g's column block in the packed arrays. -/
def gcolI (g : Fin 4) (t : Fin cfg0.N) (q : Fin 256) : Fin 8192 := ⟨(g.val * 8 + t.val / 4 % 8) * 256 + q.val, by have := g.isLt; omega⟩

/-! ## The index maps, decided over the grid -/

theorem idx_act : ∀ t : Fin cfg0.N, win0_0.index t (0 : Fin 2) = t.val / 32 ∧ win0_0.index t (1 : Fin 2) = t.val % 4
    ∧ win0_1.index t (0 : Fin 2) = t.val / 32 ∧ win0_1.index t (1 : Fin 2) = t.val % 4
    ∧ win0_2.index t (0 : Fin 2) = t.val / 32 ∧ win0_2.index t (1 : Fin 2) = t.val / 4 % 8
    ∧ win0_15.index t (0 : Fin 2) = t.val / 32 ∧ win0_15.index t (1 : Fin 2) = t.val / 4 % 8
    ∧ win0_16.index t (0 : Fin 2) = t.val / 32 ∧ win0_16.index t (1 : Fin 2) = t.val / 4 % 8 :=
  (by decide +kernel : ∀ t : Fin grid0.N, _)
theorem idx_w : ∀ t : Fin cfg0.N, win0_3.index t (0 : Fin 2) = t.val % 4 ∧ win0_3.index t (1 : Fin 2) = 0 * 8 + t.val / 4 % 8
    ∧ win0_4.index t (0 : Fin 2) = t.val % 4 ∧ win0_4.index t (1 : Fin 2) = 1 * 8 + t.val / 4 % 8
    ∧ win0_5.index t (0 : Fin 2) = t.val % 4 ∧ win0_5.index t (1 : Fin 2) = 2 * 8 + t.val / 4 % 8
    ∧ win0_6.index t (0 : Fin 2) = t.val % 4 ∧ win0_6.index t (1 : Fin 2) = 3 * 8 + t.val / 4 % 8 :=
  (by decide +kernel : ∀ t : Fin grid0.N, _)
theorem idx_u : ∀ t : Fin cfg0.N, win0_7.index t (0 : Fin 2) = t.val % 4 ∧ win0_7.index t (1 : Fin 2) = 0 * 8 + t.val / 4 % 8
    ∧ win0_8.index t (0 : Fin 2) = t.val % 4 ∧ win0_8.index t (1 : Fin 2) = 1 * 8 + t.val / 4 % 8
    ∧ win0_9.index t (0 : Fin 2) = t.val % 4 ∧ win0_9.index t (1 : Fin 2) = 2 * 8 + t.val / 4 % 8
    ∧ win0_10.index t (0 : Fin 2) = t.val % 4 ∧ win0_10.index t (1 : Fin 2) = 3 * 8 + t.val / 4 % 8 :=
  (by decide +kernel : ∀ t : Fin grid0.N, _)
theorem idx_b : ∀ t : Fin cfg0.N, win0_11.index t (0 : Fin 2) = 0 ∧ win0_11.index t (1 : Fin 2) = 0 * 8 + t.val / 4 % 8
    ∧ win0_12.index t (0 : Fin 2) = 0 ∧ win0_12.index t (1 : Fin 2) = 1 * 8 + t.val / 4 % 8
    ∧ win0_13.index t (0 : Fin 2) = 0 ∧ win0_13.index t (1 : Fin 2) = 2 * 8 + t.val / 4 % 8
    ∧ win0_14.index t (0 : Fin 2) = 0 ∧ win0_14.index t (1 : Fin 2) = 3 * 8 + t.val / 4 % 8 :=
  (by decide +kernel : ∀ t : Fin grid0.N, _)

/-! ## The blocks at an entry -/

theorem blk0 (c : Dev nD) (t : Fin cfg0.N) (r : Fin 1024) (k : Fin 512) :
    iblk m c 0 t (ix2 r k) = A0 m c (ix2 (rowI t r) (kI t k)) := by
  obtain ⟨e0, e1, -⟩ := idx_act t
  show (V m c main_v0 : S8192x2048.Idx → EReal) (((cfg0.win 0).blk t).view.emb (ix2 r k)) = _
  rw [V_v0]
  refine congrArg (A0 m c) (funext fun a => Fin.ext ?_)
  match a with
  | ⟨0, _⟩ => show win0_0.index t (0 : Fin 2) * 1024 + 1 * r.val = t.val / 32 * 1024 + r.val; rw [e0]; omega
  | ⟨1, _⟩ => show win0_0.index t (1 : Fin 2) * 512 + 1 * k.val = t.val % 4 * 512 + k.val; rw [e1]; omega

theorem blk1 (c : Dev nD) (t : Fin cfg0.N) (r : Fin 1024) (k : Fin 512) :
    iblk m c 1 t (ix2 r k) = A1 m c (ix2 (rowI t r) (kI t k)) := by
  obtain ⟨-, -, e0, e1, -⟩ := idx_act t
  show (V m c main_v1 : S8192x2048.Idx → EReal) (((cfg0.win 1).blk t).view.emb (ix2 r k)) = _
  rw [V_v1]
  refine congrArg (A1 m c) (funext fun a => Fin.ext ?_)
  match a with
  | ⟨0, _⟩ => show win0_1.index t (0 : Fin 2) * 1024 + 1 * r.val = t.val / 32 * 1024 + r.val; rw [e0]; omega
  | ⟨1, _⟩ => show win0_1.index t (1 : Fin 2) * 512 + 1 * k.val = t.val % 4 * 512 + k.val; rw [e1]; omega

theorem blk2 (c : Dev nD) (t : Fin cfg0.N) (r : Fin 1024) (q : Fin 256) :
    iblk m c 2 t (ix2 r q) = A2 m c (ix2 (rowI t r) (colI t q)) := by
  obtain ⟨-, -, -, -, e0, e1, -⟩ := idx_act t
  show (V m c main_arg2 : S8192x2048.Idx → EReal) (((cfg0.win 2).blk t).view.emb (ix2 r q)) = _
  rw [V_a2]
  refine congrArg (A2 m c) (funext fun a => Fin.ext ?_)
  match a with
  | ⟨0, _⟩ => show win0_2.index t (0 : Fin 2) * 1024 + 1 * r.val = t.val / 32 * 1024 + r.val; rw [e0]; omega
  | ⟨1, _⟩ => show win0_2.index t (1 : Fin 2) * 256 + 1 * q.val = t.val / 4 % 8 * 256 + q.val; rw [e1]; omega

theorem blk3 (c : Dev nD) (t : Fin cfg0.N) (k : Fin 512) (q : Fin 256) :
    iblk m c 3 t (ix2 k q) = A3 m c (ix2 (kI t k) (gcolI 0 t q)) := by
  obtain ⟨e0, e1, -⟩ := idx_w t
  show (V m c main_v2 : S2048x8192.Idx → EReal) (((cfg0.win 3).blk t).view.emb (ix2 k q)) = _
  rw [V_v2]
  refine congrArg (A3 m c) (funext fun a => Fin.ext ?_)
  match a with
  | ⟨0, _⟩ => show win0_3.index t (0 : Fin 2) * 512 + 1 * k.val = t.val % 4 * 512 + k.val; rw [e0]; omega
  | ⟨1, _⟩ => show win0_3.index t (1 : Fin 2) * 256 + 1 * q.val = ((0 : Fin 4).val * 8 + t.val / 4 % 8) * 256 + q.val; rw [e1]; simp

theorem blk4 (c : Dev nD) (t : Fin cfg0.N) (k : Fin 512) (q : Fin 256) :
    iblk m c 4 t (ix2 k q) = A3 m c (ix2 (kI t k) (gcolI 1 t q)) := by
  obtain ⟨-, -, e0, e1, -⟩ := idx_w t
  show (V m c main_v2 : S2048x8192.Idx → EReal) (((cfg0.win 4).blk t).view.emb (ix2 k q)) = _
  rw [V_v2]
  refine congrArg (A3 m c) (funext fun a => Fin.ext ?_)
  match a with
  | ⟨0, _⟩ => show win0_4.index t (0 : Fin 2) * 512 + 1 * k.val = t.val % 4 * 512 + k.val; rw [e0]; omega
  | ⟨1, _⟩ => show win0_4.index t (1 : Fin 2) * 256 + 1 * q.val = ((1 : Fin 4).val * 8 + t.val / 4 % 8) * 256 + q.val; rw [e1]; simp

theorem blk5 (c : Dev nD) (t : Fin cfg0.N) (k : Fin 512) (q : Fin 256) :
    iblk m c 5 t (ix2 k q) = A3 m c (ix2 (kI t k) (gcolI 2 t q)) := by
  obtain ⟨-, -, -, -, e0, e1, -⟩ := idx_w t
  show (V m c main_v2 : S2048x8192.Idx → EReal) (((cfg0.win 5).blk t).view.emb (ix2 k q)) = _
  rw [V_v2]
  refine congrArg (A3 m c) (funext fun a => Fin.ext ?_)
  match a with
  | ⟨0, _⟩ => show win0_5.index t (0 : Fin 2) * 512 + 1 * k.val = t.val % 4 * 512 + k.val; rw [e0]; omega
  | ⟨1, _⟩ => show win0_5.index t (1 : Fin 2) * 256 + 1 * q.val = ((2 : Fin 4).val * 8 + t.val / 4 % 8) * 256 + q.val; rw [e1]; simp

theorem blk6 (c : Dev nD) (t : Fin cfg0.N) (k : Fin 512) (q : Fin 256) :
    iblk m c 6 t (ix2 k q) = A3 m c (ix2 (kI t k) (gcolI 3 t q)) := by
  obtain ⟨-, -, -, -, -, -, e0, e1⟩ := idx_w t
  show (V m c main_v2 : S2048x8192.Idx → EReal) (((cfg0.win 6).blk t).view.emb (ix2 k q)) = _
  rw [V_v2]
  refine congrArg (A3 m c) (funext fun a => Fin.ext ?_)
  match a with
  | ⟨0, _⟩ => show win0_6.index t (0 : Fin 2) * 512 + 1 * k.val = t.val % 4 * 512 + k.val; rw [e0]; omega
  | ⟨1, _⟩ => show win0_6.index t (1 : Fin 2) * 256 + 1 * q.val = ((3 : Fin 4).val * 8 + t.val / 4 % 8) * 256 + q.val; rw [e1]; simp

theorem blk7 (c : Dev nD) (t : Fin cfg0.N) (k : Fin 512) (q : Fin 256) :
    iblk m c 7 t (ix2 k q) = A5 m c (ix2 (kI t k) (gcolI 0 t q)) := by
  obtain ⟨e0, e1, -⟩ := idx_u t
  show (V m c main_v3 : S2048x8192.Idx → EReal) (((cfg0.win 7).blk t).view.emb (ix2 k q)) = _
  rw [V_v3]
  refine congrArg (A5 m c) (funext fun a => Fin.ext ?_)
  match a with
  | ⟨0, _⟩ => show win0_7.index t (0 : Fin 2) * 512 + 1 * k.val = t.val % 4 * 512 + k.val; rw [e0]; omega
  | ⟨1, _⟩ => show win0_7.index t (1 : Fin 2) * 256 + 1 * q.val = ((0 : Fin 4).val * 8 + t.val / 4 % 8) * 256 + q.val; rw [e1]; simp

theorem blk8 (c : Dev nD) (t : Fin cfg0.N) (k : Fin 512) (q : Fin 256) :
    iblk m c 8 t (ix2 k q) = A5 m c (ix2 (kI t k) (gcolI 1 t q)) := by
  obtain ⟨-, -, e0, e1, -⟩ := idx_u t
  show (V m c main_v3 : S2048x8192.Idx → EReal) (((cfg0.win 8).blk t).view.emb (ix2 k q)) = _
  rw [V_v3]
  refine congrArg (A5 m c) (funext fun a => Fin.ext ?_)
  match a with
  | ⟨0, _⟩ => show win0_8.index t (0 : Fin 2) * 512 + 1 * k.val = t.val % 4 * 512 + k.val; rw [e0]; omega
  | ⟨1, _⟩ => show win0_8.index t (1 : Fin 2) * 256 + 1 * q.val = ((1 : Fin 4).val * 8 + t.val / 4 % 8) * 256 + q.val; rw [e1]; simp

theorem blk9 (c : Dev nD) (t : Fin cfg0.N) (k : Fin 512) (q : Fin 256) :
    iblk m c 9 t (ix2 k q) = A5 m c (ix2 (kI t k) (gcolI 2 t q)) := by
  obtain ⟨-, -, -, -, e0, e1, -⟩ := idx_u t
  show (V m c main_v3 : S2048x8192.Idx → EReal) (((cfg0.win 9).blk t).view.emb (ix2 k q)) = _
  rw [V_v3]
  refine congrArg (A5 m c) (funext fun a => Fin.ext ?_)
  match a with
  | ⟨0, _⟩ => show win0_9.index t (0 : Fin 2) * 512 + 1 * k.val = t.val % 4 * 512 + k.val; rw [e0]; omega
  | ⟨1, _⟩ => show win0_9.index t (1 : Fin 2) * 256 + 1 * q.val = ((2 : Fin 4).val * 8 + t.val / 4 % 8) * 256 + q.val; rw [e1]; simp

theorem blk10 (c : Dev nD) (t : Fin cfg0.N) (k : Fin 512) (q : Fin 256) :
    iblk m c 10 t (ix2 k q) = A5 m c (ix2 (kI t k) (gcolI 3 t q)) := by
  obtain ⟨-, -, -, -, -, -, e0, e1⟩ := idx_u t
  show (V m c main_v3 : S2048x8192.Idx → EReal) (((cfg0.win 10).blk t).view.emb (ix2 k q)) = _
  rw [V_v3]
  refine congrArg (A5 m c) (funext fun a => Fin.ext ?_)
  match a with
  | ⟨0, _⟩ => show win0_10.index t (0 : Fin 2) * 512 + 1 * k.val = t.val % 4 * 512 + k.val; rw [e0]; omega
  | ⟨1, _⟩ => show win0_10.index t (1 : Fin 2) * 256 + 1 * q.val = ((3 : Fin 4).val * 8 + t.val / 4 % 8) * 256 + q.val; rw [e1]; simp

theorem blk11 (c : Dev nD) (t : Fin cfg0.N) (q : Fin 256) :
    iblk m c 11 t (ix2 0 q) = A4 m c (ix1 (gcolI 0 t q)) + A6 m c (ix1 (gcolI 0 t q)) := by
  obtain ⟨e0, e1, -⟩ := idx_b t
  show (V m c main_v5 : S1x8192.Idx → EReal) (((cfg0.win 11).blk t).view.emb (ix2 0 q)) = _
  rw [← V_v5_apply m c (gcolI 0 t q)]
  refine congrArg (V m c main_v5 : S1x8192.Idx → EReal) (funext fun a => Fin.ext ?_)
  match a with
  | ⟨0, _⟩ => show win0_11.index t (0 : Fin 2) * 1 + 1 * (0 : Fin 1).val = 0; rw [e0]; simp
  | ⟨1, _⟩ => show win0_11.index t (1 : Fin 2) * 256 + 1 * q.val = ((0 : Fin 4).val * 8 + t.val / 4 % 8) * 256 + q.val; rw [e1]; simp

theorem blk12 (c : Dev nD) (t : Fin cfg0.N) (q : Fin 256) :
    iblk m c 12 t (ix2 0 q) = A4 m c (ix1 (gcolI 1 t q)) + A6 m c (ix1 (gcolI 1 t q)) := by
  obtain ⟨-, -, e0, e1, -⟩ := idx_b t
  show (V m c main_v5 : S1x8192.Idx → EReal) (((cfg0.win 12).blk t).view.emb (ix2 0 q)) = _
  rw [← V_v5_apply m c (gcolI 1 t q)]
  refine congrArg (V m c main_v5 : S1x8192.Idx → EReal) (funext fun a => Fin.ext ?_)
  match a with
  | ⟨0, _⟩ => show win0_12.index t (0 : Fin 2) * 1 + 1 * (0 : Fin 1).val = 0; rw [e0]; simp
  | ⟨1, _⟩ => show win0_12.index t (1 : Fin 2) * 256 + 1 * q.val = ((1 : Fin 4).val * 8 + t.val / 4 % 8) * 256 + q.val; rw [e1]; simp

theorem blk13 (c : Dev nD) (t : Fin cfg0.N) (q : Fin 256) :
    iblk m c 13 t (ix2 0 q) = A4 m c (ix1 (gcolI 2 t q)) + A6 m c (ix1 (gcolI 2 t q)) := by
  obtain ⟨-, -, -, -, e0, e1, -⟩ := idx_b t
  show (V m c main_v5 : S1x8192.Idx → EReal) (((cfg0.win 13).blk t).view.emb (ix2 0 q)) = _
  rw [← V_v5_apply m c (gcolI 2 t q)]
  refine congrArg (V m c main_v5 : S1x8192.Idx → EReal) (funext fun a => Fin.ext ?_)
  match a with
  | ⟨0, _⟩ => show win0_13.index t (0 : Fin 2) * 1 + 1 * (0 : Fin 1).val = 0; rw [e0]; simp
  | ⟨1, _⟩ => show win0_13.index t (1 : Fin 2) * 256 + 1 * q.val = ((2 : Fin 4).val * 8 + t.val / 4 % 8) * 256 + q.val; rw [e1]; simp

theorem blk14 (c : Dev nD) (t : Fin cfg0.N) (q : Fin 256) :
    iblk m c 14 t (ix2 0 q) = A4 m c (ix1 (gcolI 3 t q)) + A6 m c (ix1 (gcolI 3 t q)) := by
  obtain ⟨-, -, -, -, -, -, e0, e1⟩ := idx_b t
  show (V m c main_v5 : S1x8192.Idx → EReal) (((cfg0.win 14).blk t).view.emb (ix2 0 q)) = _
  rw [← V_v5_apply m c (gcolI 3 t q)]
  refine congrArg (V m c main_v5 : S1x8192.Idx → EReal) (funext fun a => Fin.ext ?_)
  match a with
  | ⟨0, _⟩ => show win0_14.index t (0 : Fin 2) * 1 + 1 * (0 : Fin 1).val = 0; rw [e0]; simp
  | ⟨1, _⟩ => show win0_14.index t (1 : Fin 2) * 256 + 1 * q.val = ((3 : Fin 4).val * 8 + t.val / 4 % 8) * 256 + q.val; rw [e1]; simp

end Cert.KernelIdeal.ValueIdeal

end
-- ==== Proof.IdealPayload.lean ====
/-
  The LSTM-cell kernel's arithmetic read at one entry, on the extended reals.

  One step of an accumulator: the old entry plus the two block products' entries, each a sum over the 512 positions
  of the block's contraction axis. The four zero fills read 0. The finish: with i, f, o, g the four accumulators'
  entries plus their biases (a [1,256] row broadcast down the block's rows), the new cell state is
  logistic(f)·c0 + logistic(i)·tanh(g) and the new hidden state logistic(o)·tanh(new cell state).
-/
import proofs.«168456_j39350490366667_2_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.PayloadIdeal

open Cert.KernelIdeal Cert.KernelIdeal.Gen Idealize.ShloMosaic Idealize.ShloMosaic.TcCoe Idealize.SL.Sem
open Idealize.ShloMosaic.ValueIdx
open scoped BigOperators

/-- The kernel's one matrix product shape: [1024,512] by [512,256], contracted along 512. -/
abbrev D := dot_S1024x512_S512x256_S1024x256_1_0_0_1_n_n

theorem lhsD_0 (i : S1024x256.Idx) (q : D.contr.Idx) : (D.lhsIdx i q 0).val = (i 0).val := by
  unfold DotDims.lhsIdx
  rw [dif_neg (show ¬(0 : Fin S1024x512.rank) ∈ D.lhsBatch by decide), dif_pos (show (0 : Fin S1024x512.rank) ∈ D.lhsNonContracting by decide)]
  rfl
theorem lhsD_1 (i : S1024x256.Idx) (q : D.contr.Idx) : (D.lhsIdx i q 1).val = (q ⟨0, by decide⟩).val :=
  D.lhsIdx_val_of_single rfl i q
theorem rhsD_0 (i : S1024x256.Idx) (q : D.contr.Idx) : (D.rhsIdx i q 0).val = (q ⟨0, by decide⟩).val :=
  D.rhsIdx_val_of_single rfl i q
theorem rhsD_1 (i : S1024x256.Idx) (q : D.contr.Idx) : (D.rhsIdx i q 1).val = (i 1).val := by
  unfold DotDims.rhsIdx
  rw [dif_neg (show ¬(1 : Fin S512x256.rank) ∈ D.rhsBatch by decide), dif_pos (show (1 : Fin S512x256.rank) ∈ D.rhsNonContracting by decide)]
  rfl

/-- A block product into the zero accumulator, at entry (r, q): the sum over the 512 contracted positions. -/
theorem matmul0_apply (a : FVec Ideal S1024x512 .bf16) (b : FVec Ideal S512x256 .bf16) (r : Fin 1024) (q : Fin 256) :
    matmul D none a b (constant (F := Ideal) S1024x256 .f32 0x00000000#32) (ix2 r q) = ∑ k : Fin 512, a (ix2 r k) * b (ix2 k q) := by
  simp only [matmul]
  rw [Ideal.matmul_constant_zero_apply, ← Equiv.sum_comp (ValueIdx.contrEquiv1 D 512 rfl rfl).symm]
  refine Finset.sum_congr rfl fun k _ => ?_
  have hk := ValueIdx.contrEquiv1_symm_val D 512 rfl rfl k
  have el : D.lhsIdx (ix2 r q) ((ValueIdx.contrEquiv1 D 512 rfl rfl).symm k) = ix2 r k := funext fun a => Fin.ext (by
    match a with
    | ⟨0, _⟩ => exact lhsD_0 _ _
    | ⟨1, _⟩ => exact (lhsD_1 _ _).trans hk)
  have er : D.rhsIdx (ix2 r q) ((ValueIdx.contrEquiv1 D 512 rfl rfl).symm k) = ix2 k q := funext fun a => Fin.ext (by
    match a with
    | ⟨0, _⟩ => exact (rhsD_0 _ _).trans hk
    | ⟨1, _⟩ => exact rhsD_1 _ _)
  rw [el, er]

/-- One step of an accumulator at an entry. -/
def stepAt (x0 x1 : S1024x512.Idx → EReal) (acc : S1024x256.Idx → EReal) (xw xu : S512x256.Idx → EReal) (r : Fin 1024) (q : Fin 256) : EReal :=
  acc (ix2 r q) + ((∑ k : Fin 512, x0 (ix2 r k) * xw (ix2 k q)) + ∑ k : Fin 512, x1 (ix2 r k) * xu (ix2 k q))

theorem pay12_apply (x0 x1 : Vec Ideal S1024x512 .bf16) (acc : Vec Ideal S1024x256 .f32) (xw xu : Vec Ideal S512x256 .bf16) (r : Fin 1024) (q : Fin 256) :
    k0_pay12 (F := Ideal) x0 x1 acc xw xu (ix2 r q) = stepAt x0 x1 acc xw xu r q := by
  unfold k0_pay12 k0_pay10 k0_pay11 stepAt
  simp only [shapeCast_self]
  rw [addf_apply, addf_apply, matmul0_apply, matmul0_apply]

theorem pay13_apply (x0 x1 : Vec Ideal S1024x512 .bf16) (acc : Vec Ideal S1024x256 .f32) (xw xu : Vec Ideal S512x256 .bf16) (r : Fin 1024) (q : Fin 256) :
    k0_pay1 (F := Ideal) (k0_pay13 (F := Ideal) x0 x1 acc xw xu) (ix2 r q) = stepAt x0 x1 acc xw xu r q := by
  unfold k0_pay1 k0_pay13 k0_pay10 k0_pay11 stepAt
  simp only [shapeCast_self]
  rw [addf_apply, addf_apply, matmul0_apply, matmul0_apply]

theorem pay2_apply (x0 x1 : Vec Ideal S1024x512 .bf16) (acc : Vec Ideal S1024x256 .f32) (xw xu : Vec Ideal S512x256 .bf16) (r : Fin 1024) (q : Fin 256) :
    k0_pay2 (F := Ideal) (k0_pay10 (F := Ideal) x0) (k0_pay11 (F := Ideal) x1) acc xw xu (ix2 r q) = stepAt x0 x1 acc xw xu r q := by
  unfold k0_pay2 k0_pay10 k0_pay11 stepAt
  simp only [shapeCast_self]
  rw [addf_apply, addf_apply, matmul0_apply, matmul0_apply]

theorem pay3_apply (x0 x1 : Vec Ideal S1024x512 .bf16) (acc : Vec Ideal S1024x256 .f32) (xw xu : Vec Ideal S512x256 .bf16) (r : Fin 1024) (q : Fin 256) :
    k0_pay3 (F := Ideal) (k0_pay10 (F := Ideal) x0) (k0_pay11 (F := Ideal) x1) acc xw xu (ix2 r q) = stepAt x0 x1 acc xw xu r q := by
  unfold k0_pay3 k0_pay10 k0_pay11 stepAt
  simp only [shapeCast_self]
  rw [addf_apply, addf_apply, matmul0_apply, matmul0_apply]

/-- The zero fills. -/
theorem pay6_apply (j : S1024x256.Idx) : k0_pay6 (F := Ideal) j = 0 := by
  unfold k0_pay6; simp only [shapeCast_self]; exact Ideal.ofBits_zero_f32
theorem pay7_apply (j : S1024x256.Idx) : k0_pay7 (F := Ideal) j = 0 := by
  unfold k0_pay7; simp only [shapeCast_self]; exact Ideal.ofBits_zero_f32
theorem pay8_apply (j : S1024x256.Idx) : k0_pay8 (F := Ideal) j = 0 := by
  unfold k0_pay8; simp only [shapeCast_self]; exact Ideal.ofBits_zero_f32
theorem pay9_apply (j : S1024x256.Idx) : k0_pay9 (F := Ideal) j = 0 := by
  unfold k0_pay9; simp only [shapeCast_self]; exact Ideal.ofBits_zero_f32

/-- A [1,256] row broadcast down a [1024,256] block reads the row's entry. -/
theorem row_bcast_apply (v : FVec Ideal S1x256 .f32) (r : Fin 1024) (q : Fin 256) :
    broadcastTo S1024x256 v broadcasts_S1x256_S1024x256 (ix2 r q) = v (ix2 0 q) :=
  broadcastTo_apply v broadcasts_S1x256_S1024x256 (ix2 r q) (ix2 0 q) (fun a => by
    match a with
    | ⟨0, _⟩ => rfl
    | ⟨1, _⟩ => rfl)

/-- The new cell state at an entry. -/
def cellAt (ai af ag : EReal) (bi bf bg : EReal) (c0 : EReal) : EReal :=
  Ideal.logistic (af + bf) * c0 + Ideal.logistic (ai + bi) * Ideal.tanh (ag + bg)

theorem pay4_apply (v58 : Vec Ideal S1024x256 .f32) (v59 : Vec Ideal S1x256 .f32) (v64 : Vec Ideal S1024x256 .f32) (v65 : Vec Ideal S1x256 .f32)
    (v76 : Vec Ideal S1024x256 .f32) (v77 : Vec Ideal S1x256 .f32) (v86 : Vec Ideal S1024x256 .f32) (r : Fin 1024) (q : Fin 256) :
    k0_pay4 (F := Ideal) v58 v59 v64 v65 v76 v77 v86 (ix2 r q)
      = cellAt (v58 (ix2 r q)) (v64 (ix2 r q)) (v76 (ix2 r q)) (v59 (ix2 0 q)) (v65 (ix2 0 q)) (v77 (ix2 0 q)) (v86 (ix2 r q)) := by
  unfold k0_pay4 cellAt
  simp only [shapeCast_self]
  show (Ideal.logistic (v64 (ix2 r q) + broadcastTo S1024x256 v65 broadcasts_S1x256_S1024x256 (ix2 r q)) * v86 (ix2 r q)
      + Ideal.logistic (v58 (ix2 r q) + broadcastTo S1024x256 v59 broadcasts_S1x256_S1024x256 (ix2 r q))
        * Ideal.tanh (v76 (ix2 r q) + broadcastTo S1024x256 v77 broadcasts_S1x256_S1024x256 (ix2 r q)) : EReal) = _
  rw [row_bcast_apply, row_bcast_apply, row_bcast_apply]

theorem pay5_apply (v58 : Vec Ideal S1024x256 .f32) (v59 : Vec Ideal S1x256 .f32) (v64 : Vec Ideal S1024x256 .f32) (v65 : Vec Ideal S1x256 .f32)
    (v70 : Vec Ideal S1024x256 .f32) (v71 : Vec Ideal S1x256 .f32)
    (v76 : Vec Ideal S1024x256 .f32) (v77 : Vec Ideal S1x256 .f32) (v86 : Vec Ideal S1024x256 .f32) (r : Fin 1024) (q : Fin 256) :
    k0_pay5 (F := Ideal) v58 v59 v64 v65 v70 v71 v76 v77 v86 (ix2 r q)
      = Ideal.logistic (v70 (ix2 r q) + v71 (ix2 0 q))
        * Ideal.tanh (cellAt (v58 (ix2 r q)) (v64 (ix2 r q)) (v76 (ix2 r q)) (v59 (ix2 0 q)) (v65 (ix2 0 q)) (v77 (ix2 0 q)) (v86 (ix2 r q))) := by
  unfold k0_pay5
  simp only [shapeCast_self]
  show (Ideal.logistic (v70 (ix2 r q) + broadcastTo S1024x256 v71 broadcasts_S1x256_S1024x256 (ix2 r q))
      * Ideal.tanh (k0_pay4 (F := Ideal) v58 v59 v64 v65 v76 v77 v86 (ix2 r q)) : EReal) = _
  rw [row_bcast_apply, pay4_apply]

end Cert.KernelIdeal.PayloadIdeal

end
-- ==== Proof.LibSumBlocks.lean ====
/-
  A sum over all rows as a sum over row blocks.

  An array of `A·B` rows walked in `A` consecutive blocks of `B` rows: the sum over all rows of any quantity in a
  commutative monoid is the sum over the blocks of the sums inside each block, row `k·B + p` being row `p` of block
  `k`. A second form has the block index run over a range of naturals with a guard, the shape an induction over
  grid points produces. Generic in `A`, `B` and the monoid.
-/
import Mathlib.Algebra.BigOperators.Fin
import Mathlib.Logic.Equiv.Fin.Basic

namespace Cert.LibSumBlocks

open scoped BigOperators

variable {M : Type*} [AddCommMonoid M]

theorem row_lt {A B : ℕ} (k : Fin A) (p : Fin B) : k.val * B + p.val < A * B := by
  have hk := k.isLt
  have hp := p.isLt
  have h1 : k.val * B + p.val < k.val * B + B := by omega
  have h2 : k.val * B + B = (k.val + 1) * B := (Nat.succ_mul k.val B).symm
  have h3 : (k.val + 1) * B ≤ A * B := Nat.mul_le_mul_right B hk
  omega

/-- The sum over all `A·B` rows is the sum over blocks of the sums inside the blocks. -/
theorem sum_blocks (A B : ℕ) (f : Fin (A * B) → M) :
    ∑ r : Fin (A * B), f r = ∑ k : Fin A, ∑ p : Fin B, f ⟨k.val * B + p.val, row_lt k p⟩ := by
  rw [← Equiv.sum_comp finProdFinEquiv f, Fintype.sum_prod_type]
  refine Finset.sum_congr rfl fun k _ => Finset.sum_congr rfl fun p _ => congrArg f (Fin.ext ?_)
  show p.val + B * k.val = k.val * B + p.val
  rw [Nat.mul_comm, Nat.add_comm]

/-- The same with the block index running over a range of naturals under a guard. -/
theorem sum_blocks_range (A B : ℕ) (f : Fin (A * B) → M) :
    ∑ r : Fin (A * B), f r
      = ∑ k ∈ Finset.range A, if h : k < A then ∑ p : Fin B, f ⟨k * B + p.val, row_lt ⟨k, h⟩ p⟩ else 0 := by
  rw [sum_blocks, Finset.sum_range]
  refine Finset.sum_congr rfl fun k _ => ?_
  rw [dif_pos k.isLt]

end Cert.LibSumBlocks
-- ==== Proof.LstmAlgebra.lean ====
/-
  The arithmetic that joins the blocked accumulation of an LSTM gate to the two whole matrix products.

  One gate entry is a sum over a contraction axis of length 2048 = 4·512. The kernel walks the axis in four blocks of
  512, adding at each block the block's part of both products to an accumulator that starts at zero, and adds the
  two biases, already summed, at the end. The reference forms the first whole product, adds the first bias, adds the
  second whole product, adds the second bias. On the extended reals addition is commutative and associative with
  zero neutral (no cancellation is needed, so no finiteness), and a sum over all 2048 positions is the sum over the
  four blocks of the sums inside them: the two sides are equal.

  Also here: the two float literals the programs use, read at the extended reals.
-/
import Idealize.ShloMosaic.PureOps.Ideal
import proofs.«168456_j39350490366667_2_alg».proof.Proof.LibSumBlocks

noncomputable section

namespace Cert.Lstm

open scoped BigOperators
open Idealize.ShloMosaic

/-- Block `kb`'s part of the product of a row `x` and a column `w` of length 4·512. -/
def blockDot (x w : Fin (4 * 512) → EReal) (kb : Fin 4) : EReal :=
  ∑ k : Fin 512, x ⟨kb.val * 512 + k.val, Cert.LibSumBlocks.row_lt kb k⟩ * w ⟨kb.val * 512 + k.val, Cert.LibSumBlocks.row_lt kb k⟩

/-- Four blocks accumulated from zero, both products per block, then the summed bias: the two whole products with
    the biases added in turn. -/
theorem gate_eq (x w h u : Fin (4 * 512) → EReal) (bw bu : EReal) :
    ((((0 + (blockDot x w 0 + blockDot h u 0)) + (blockDot x w 1 + blockDot h u 1)) + (blockDot x w 2 + blockDot h u 2))
        + (blockDot x w 3 + blockDot h u 3)) + (bw + bu)
      = (((∑ K, x K * w K) + bw) + ∑ K, h K * u K) + bu := by
  rw [Cert.LibSumBlocks.sum_blocks 4 512 (fun K => x K * w K), Cert.LibSumBlocks.sum_blocks 4 512 (fun K => h K * u K)]
  simp only [Fin.sum_univ_four]
  unfold blockDot
  rw [zero_add]
  abel

/-- The word `0x3F800000` is the number one. -/
theorem ofBits_one : Ideal.ofBits .f32 0x3F800000#32 = (1 : EReal) := by
  simp [Ideal.ofBits, Ideal.ieee, -EReal.coe_mul]; norm_num

end Cert.Lstm

end
-- ==== Proof.IdealAccumBase.lean ====
/-
  The LSTM-cell kernel's accumulators as blocked sums over the argument arrays, on the extended reals.

  Fix a row R of the activations and a column J of the packed weights. The accumulator entry for them after a point
  whose reduction coordinate is kb is the entry after the point before (zero if kb = 0) plus block kb's part of
  the two products row(inp, R)·col(W, J) and row(h0, R)·col(U, J). At a finish point (kb = 3) the entry is therefore the four
  blocks accumulated from zero, and with the summed bias added it is the gate's pre-activation as the reference forms it:
  the first whole product, the first bias, the second whole product, the second bias.
-/
import proofs.«168456_j39350490366667_2_alg».proof.Proof.IdealReadBack
import proofs.«168456_j39350490366667_2_alg».proof.Proof.IdealBlocks
import proofs.«168456_j39350490366667_2_alg».proof.Proof.IdealPayload
import proofs.«168456_j39350490366667_2_alg».proof.Proof.LstmAlgebra

set_option maxRecDepth 16384

noncomputable section

namespace Cert.KernelIdeal.ValueIdeal

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

variable (m : (ℓ : Loc nD τ sig) → Buf (Elt Ideal) ℓ) (ρ : Dev nD → PrngReg)

open Cert.KernelIdeal.PayloadIdeal Cert.Lstm

/-! ## Rows and columns of the argument arrays over the contraction axis -/

def xrow (c : Dev nD) (R : Fin 8192) : Fin (4 * 512) → EReal := fun K => A0 m c (ix2 R K)
def hrow (c : Dev nD) (R : Fin 8192) : Fin (4 * 512) → EReal := fun K => A1 m c (ix2 R K)
def wcol (c : Dev nD) (J : Fin 8192) : Fin (4 * 512) → EReal := fun K => A3 m c (ix2 K J)
def ucol (c : Dev nD) (J : Fin 8192) : Fin (4 * 512) → EReal := fun K => A5 m c (ix2 K J)

/-- Block kb's part of both products for row R and column J. -/
def PQ (c : Dev nD) (R : Fin 8192) (J : Fin 8192) (kb : Fin 4) : EReal :=
  blockDot (xrow m c R) (wcol m c J) kb + blockDot (hrow m c R) (ucol m c J) kb

theorem kbl (t : Fin cfg0.N) : t.val % 4 < 4 := Nat.mod_lt _ (by decide)

/-- A point's two block products, over its blocks' entries, are block (t mod 4)'s part for the entry's row and column. -/
theorem PQ_of_blocks (c : Dev nD) (t : Fin cfg0.N) (g : Fin 4) (r : Fin 1024) (q : Fin 256)
    (f0 f1 : S1024x512.Idx → EReal) (fw fu : S512x256.Idx → EReal)
    (h0 : ∀ k : Fin 512, f0 (ix2 r k) = A0 m c (ix2 (rowI t r) (kI t k)))
    (h1 : ∀ k : Fin 512, f1 (ix2 r k) = A1 m c (ix2 (rowI t r) (kI t k)))
    (hw : ∀ k : Fin 512, fw (ix2 k q) = A3 m c (ix2 (kI t k) (gcolI g t q)))
    (hu : ∀ k : Fin 512, fu (ix2 k q) = A5 m c (ix2 (kI t k) (gcolI g t q))) :
    ((∑ k : Fin 512, f0 (ix2 r k) * fw (ix2 k q)) + ∑ k : Fin 512, f1 (ix2 r k) * fu (ix2 k q))
      = PQ m c (rowI t r) (gcolI g t q) ⟨t.val % 4, kbl t⟩ := by
  unfold PQ blockDot xrow hrow wcol ucol
  refine congr (congrArg _ (Finset.sum_congr rfl fun k _ => ?_)) (Finset.sum_congr rfl fun k _ => ?_)
  · rw [h0, hw]; rfl
  · rw [h1, hu]; rfl

end Cert.KernelIdeal.ValueIdeal

end
-- ==== Proof.IdealAccumG0.lean ====
/-
  Gate 0 of the LSTM-cell kernel (input gate): its accumulator's entries as blocked sums, and its
  pre-activation at a finish point in the reference's form. (The shared definitions say what the blocks are.)
-/
import proofs.«168456_j39350490366667_2_alg».proof.Proof.IdealAccumBase

set_option maxRecDepth 16384

noncomputable section

namespace Cert.KernelIdeal.ValueIdeal

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

variable (m : (ℓ : Loc nD τ sig) → Buf (Elt Ideal) ℓ) (ρ : Dev nD → PrngReg)

open Cert.KernelIdeal.PayloadIdeal Cert.Lstm

set_option maxHeartbeats 4000000 in
/-- The accumulator entry after a reset point: zero plus the point's block products. -/
theorem acc0_reset (c : Dev nD) (t : Fin cfg0.N) (h0 : t.val % 4 = 0) (r : Fin 1024) (q : Fin 256) :
    (accAt m c t.val t.isLt).1 (ix2 r q) = 0 + PQ m c (rowI t r) (gcolI 0 t q) ⟨t.val % 4, kbl t⟩ := by
  have h1 : ¬t.val % 4 = 3 := by omega
  rw [accAt_A m c t h0 h1]
  show soutA_0 m c t h0 h1 (ix2 r q) = _
  rw [soutA_0_eq]
  refine (pay12_apply (iblk m c 0 t) (iblk m c 1 t) (k0_pay6 (F := Ideal)) (iblk m c 3 t) (iblk m c 7 t) r q).trans ?_
  unfold stepAt
  rw [PQ_of_blocks m c t 0 r q (iblk m c 0 t) (iblk m c 1 t) (iblk m c 3 t) (iblk m c 7 t) (fun k => blk0 m c t r k) (fun k => blk1 m c t r k) (fun k => blk3 m c t k q) (fun k => blk7 m c t k q)]
  rw [pay6_apply]

set_option maxHeartbeats 8000000 in
/-- After any other point: the entry after the point before plus the point's block products. -/
theorem acc0_step (c : Dev nD) (t : Fin cfg0.N) (h0 : ¬t.val % 4 = 0) (r : Fin 1024) (q : Fin 256) :
    (accAt m c t.val t.isLt).1 (ix2 r q)
      = (accAt m c (t.val - 1) (Nat.lt_of_le_of_lt (Nat.sub_le _ _) t.isLt)).1 (ix2 r q) + PQ m c (rowI t r) (gcolI 0 t q) ⟨t.val % 4, kbl t⟩ := by
  by_cases h1 : t.val % 4 = 3
  · rw [accAt_C m c t h0 h1]
    show soutC_0 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2 (ix2 r q) = _
    rw [soutC_0_eq]
    refine (pay12_apply (iblk m c 0 t) (iblk m c 1 t) ((accAt m c (t.val - 1) (Nat.lt_of_le_of_lt (Nat.sub_le _ _) t.isLt)).1) (iblk m c 3 t) (iblk m c 7 t) r q).trans ?_
    unfold stepAt
    rw [PQ_of_blocks m c t 0 r q (iblk m c 0 t) (iblk m c 1 t) (iblk m c 3 t) (iblk m c 7 t) (fun k => blk0 m c t r k) (fun k => blk1 m c t r k) (fun k => blk3 m c t k q) (fun k => blk7 m c t k q)]
  · rw [accAt_B m c t h0 h1]
    show soutB_0 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2 (ix2 r q) = _
    rw [soutB_0_eq]
    refine (pay12_apply (iblk m c 0 t) (iblk m c 1 t) ((accAt m c (t.val - 1) (Nat.lt_of_le_of_lt (Nat.sub_le _ _) t.isLt)).1) (iblk m c 3 t) (iblk m c 7 t) r q).trans ?_
    unfold stepAt
    rw [PQ_of_blocks m c t 0 r q (iblk m c 0 t) (iblk m c 1 t) (iblk m c 3 t) (iblk m c 7 t) (fun k => blk0 m c t r k) (fun k => blk1 m c t r k) (fun k => blk3 m c t k q) (fun k => blk7 m c t k q)]

/-- At a finish point: the four blocks accumulated from zero. -/
theorem acc0_finish (c : Dev nD) (t : Fin cfg0.N) (h1 : t.val % 4 = 3) (r : Fin 1024) (q : Fin 256) :
    (accAt m c t.val t.isLt).1 (ix2 r q)
      = (((0 + PQ m c (rowI t r) (gcolI 0 t q) 0) + PQ m c (rowI t r) (gcolI 0 t q) 1) + PQ m c (rowI t r) (gcolI 0 t q) 2)
        + PQ m c (rowI t r) (gcolI 0 t q) 3 := by
  have hN := tlt t
  have hl : ∀ d, t.val - d < cfg0.N := fun d => Nat.lt_of_le_of_lt (Nat.sub_le _ _) t.isLt
  have s3 := acc0_step m c t (by omega) r q
  have s2 := acc0_step m c ⟨t.val - 1, hl 1⟩ (by show ¬(t.val - 1) % 4 = 0; omega) r q
  have s1 := acc0_step m c ⟨t.val - 1 - 1, Nat.lt_of_le_of_lt (Nat.sub_le _ _) (hl 1)⟩ (by show ¬(t.val - 1 - 1) % 4 = 0; omega) r q
  have s0 := acc0_reset m c ⟨t.val - 1 - 1 - 1, Nat.lt_of_le_of_lt (Nat.sub_le _ _) (Nat.lt_of_le_of_lt (Nat.sub_le _ _) (hl 1))⟩ (by show (t.val - 1 - 1 - 1) % 4 = 0; omega) r q
  have er : ∀ (n : ℕ) (hn : n < cfg0.N), n / 32 = t.val / 32 → rowI ⟨n, hn⟩ r = rowI t r := fun n hn e => Fin.ext (by show n / 32 * 1024 + r.val = t.val / 32 * 1024 + r.val; rw [e])
  have ec : ∀ (n : ℕ) (hn : n < cfg0.N), n / 4 % 8 = t.val / 4 % 8 → gcolI 0 ⟨n, hn⟩ q = gcolI 0 t q := fun n hn e => Fin.ext (by show ((0 : Fin 4).val * 8 + n / 4 % 8) * 256 + q.val = ((0 : Fin 4).val * 8 + t.val / 4 % 8) * 256 + q.val; rw [e])
  have ek : ∀ (n : ℕ) (hn : n % 4 < 4) (d : Fin 4), n % 4 = d.val → (⟨n % 4, hn⟩ : Fin 4) = d := fun n hn d e => Fin.ext e
  rw [er _ _ (by show (t.val - 1) / 32 = t.val / 32; omega), ec _ _ (by show (t.val - 1) / 4 % 8 = t.val / 4 % 8; omega),
    ek (t.val - 1) _ 2 (by show (t.val - 1) % 4 = 2; omega)] at s2
  rw [er _ _ (by show (t.val - 1 - 1) / 32 = t.val / 32; omega), ec _ _ (by show (t.val - 1 - 1) / 4 % 8 = t.val / 4 % 8; omega),
    ek (t.val - 1 - 1) _ 1 (by show (t.val - 1 - 1) % 4 = 1; omega)] at s1
  rw [er _ _ (by show (t.val - 1 - 1 - 1) / 32 = t.val / 32; omega), ec _ _ (by show (t.val - 1 - 1 - 1) / 4 % 8 = t.val / 4 % 8; omega),
    ek (t.val - 1 - 1 - 1) _ 0 (by show (t.val - 1 - 1 - 1) % 4 = 0; omega)] at s0
  rw [ek t.val (kbl t) 3 (by show t.val % 4 = 3; exact h1)] at s3
  exact s3.trans (by rw [s2, s1, s0])

/-- The pre-activation at a finish point: the accumulator entry plus the summed bias is the reference's form. -/
theorem gate0_finish (c : Dev nD) (t : Fin cfg0.N) (h1 : t.val % 4 = 3) (r : Fin 1024) (q : Fin 256) :
    (accAt m c t.val t.isLt).1 (ix2 r q) + (A4 m c (ix1 (gcolI 0 t q)) + A6 m c (ix1 (gcolI 0 t q)))
      = (((∑ K, xrow m c (rowI t r) K * wcol m c (gcolI 0 t q) K) + A4 m c (ix1 (gcolI 0 t q)))
          + ∑ K, hrow m c (rowI t r) K * ucol m c (gcolI 0 t q) K) + A6 m c (ix1 (gcolI 0 t q)) := by
  rw [acc0_finish m c t h1 r q]
  unfold PQ
  exact gate_eq _ _ _ _ _ _

end Cert.KernelIdeal.ValueIdeal

end
-- ==== Proof.IdealAccumG1.lean ====
/-
  Gate 1 of the LSTM-cell kernel (forget gate): its accumulator's entries as blocked sums, and its
  pre-activation at a finish point in the reference's form. (The shared definitions say what the blocks are.)
-/
import proofs.«168456_j39350490366667_2_alg».proof.Proof.IdealAccumBase

set_option maxRecDepth 16384

noncomputable section

namespace Cert.KernelIdeal.ValueIdeal

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

variable (m : (ℓ : Loc nD τ sig) → Buf (Elt Ideal) ℓ) (ρ : Dev nD → PrngReg)

open Cert.KernelIdeal.PayloadIdeal Cert.Lstm

set_option maxHeartbeats 4000000 in
/-- The accumulator entry after a reset point: zero plus the point's block products. -/
theorem acc1_reset (c : Dev nD) (t : Fin cfg0.N) (h0 : t.val % 4 = 0) (r : Fin 1024) (q : Fin 256) :
    (accAt m c t.val t.isLt).2.1 (ix2 r q) = 0 + PQ m c (rowI t r) (gcolI 1 t q) ⟨t.val % 4, kbl t⟩ := by
  have h1 : ¬t.val % 4 = 3 := by omega
  rw [accAt_A m c t h0 h1]
  show soutA_1 m c t h0 h1 (ix2 r q) = _
  rw [soutA_1_eq]
  refine (pay13_apply (iblk m c 0 t) (iblk m c 1 t) (k0_pay7 (F := Ideal)) (iblk m c 4 t) (iblk m c 8 t) r q).trans ?_
  unfold stepAt
  rw [PQ_of_blocks m c t 1 r q (iblk m c 0 t) (iblk m c 1 t) (iblk m c 4 t) (iblk m c 8 t) (fun k => blk0 m c t r k) (fun k => blk1 m c t r k) (fun k => blk4 m c t k q) (fun k => blk8 m c t k q)]
  rw [pay7_apply]

set_option maxHeartbeats 8000000 in
/-- After any other point: the entry after the point before plus the point's block products. -/
theorem acc1_step (c : Dev nD) (t : Fin cfg0.N) (h0 : ¬t.val % 4 = 0) (r : Fin 1024) (q : Fin 256) :
    (accAt m c t.val t.isLt).2.1 (ix2 r q)
      = (accAt m c (t.val - 1) (Nat.lt_of_le_of_lt (Nat.sub_le _ _) t.isLt)).2.1 (ix2 r q) + PQ m c (rowI t r) (gcolI 1 t q) ⟨t.val % 4, kbl t⟩ := by
  by_cases h1 : t.val % 4 = 3
  · rw [accAt_C m c t h0 h1]
    show soutC_1 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2 (ix2 r q) = _
    rw [soutC_1_eq]
    refine (pay13_apply (iblk m c 0 t) (iblk m c 1 t) ((accAt m c (t.val - 1) (Nat.lt_of_le_of_lt (Nat.sub_le _ _) t.isLt)).2.1) (iblk m c 4 t) (iblk m c 8 t) r q).trans ?_
    unfold stepAt
    rw [PQ_of_blocks m c t 1 r q (iblk m c 0 t) (iblk m c 1 t) (iblk m c 4 t) (iblk m c 8 t) (fun k => blk0 m c t r k) (fun k => blk1 m c t r k) (fun k => blk4 m c t k q) (fun k => blk8 m c t k q)]
  · rw [accAt_B m c t h0 h1]
    show soutB_1 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2 (ix2 r q) = _
    rw [soutB_1_eq]
    refine (pay13_apply (iblk m c 0 t) (iblk m c 1 t) ((accAt m c (t.val - 1) (Nat.lt_of_le_of_lt (Nat.sub_le _ _) t.isLt)).2.1) (iblk m c 4 t) (iblk m c 8 t) r q).trans ?_
    unfold stepAt
    rw [PQ_of_blocks m c t 1 r q (iblk m c 0 t) (iblk m c 1 t) (iblk m c 4 t) (iblk m c 8 t) (fun k => blk0 m c t r k) (fun k => blk1 m c t r k) (fun k => blk4 m c t k q) (fun k => blk8 m c t k q)]

/-- At a finish point: the four blocks accumulated from zero. -/
theorem acc1_finish (c : Dev nD) (t : Fin cfg0.N) (h1 : t.val % 4 = 3) (r : Fin 1024) (q : Fin 256) :
    (accAt m c t.val t.isLt).2.1 (ix2 r q)
      = (((0 + PQ m c (rowI t r) (gcolI 1 t q) 0) + PQ m c (rowI t r) (gcolI 1 t q) 1) + PQ m c (rowI t r) (gcolI 1 t q) 2)
        + PQ m c (rowI t r) (gcolI 1 t q) 3 := by
  have hN := tlt t
  have hl : ∀ d, t.val - d < cfg0.N := fun d => Nat.lt_of_le_of_lt (Nat.sub_le _ _) t.isLt
  have s3 := acc1_step m c t (by omega) r q
  have s2 := acc1_step m c ⟨t.val - 1, hl 1⟩ (by show ¬(t.val - 1) % 4 = 0; omega) r q
  have s1 := acc1_step m c ⟨t.val - 1 - 1, Nat.lt_of_le_of_lt (Nat.sub_le _ _) (hl 1)⟩ (by show ¬(t.val - 1 - 1) % 4 = 0; omega) r q
  have s0 := acc1_reset m c ⟨t.val - 1 - 1 - 1, Nat.lt_of_le_of_lt (Nat.sub_le _ _) (Nat.lt_of_le_of_lt (Nat.sub_le _ _) (hl 1))⟩ (by show (t.val - 1 - 1 - 1) % 4 = 0; omega) r q
  have er : ∀ (n : ℕ) (hn : n < cfg0.N), n / 32 = t.val / 32 → rowI ⟨n, hn⟩ r = rowI t r := fun n hn e => Fin.ext (by show n / 32 * 1024 + r.val = t.val / 32 * 1024 + r.val; rw [e])
  have ec : ∀ (n : ℕ) (hn : n < cfg0.N), n / 4 % 8 = t.val / 4 % 8 → gcolI 1 ⟨n, hn⟩ q = gcolI 1 t q := fun n hn e => Fin.ext (by show ((1 : Fin 4).val * 8 + n / 4 % 8) * 256 + q.val = ((1 : Fin 4).val * 8 + t.val / 4 % 8) * 256 + q.val; rw [e])
  have ek : ∀ (n : ℕ) (hn : n % 4 < 4) (d : Fin 4), n % 4 = d.val → (⟨n % 4, hn⟩ : Fin 4) = d := fun n hn d e => Fin.ext e
  rw [er _ _ (by show (t.val - 1) / 32 = t.val / 32; omega), ec _ _ (by show (t.val - 1) / 4 % 8 = t.val / 4 % 8; omega),
    ek (t.val - 1) _ 2 (by show (t.val - 1) % 4 = 2; omega)] at s2
  rw [er _ _ (by show (t.val - 1 - 1) / 32 = t.val / 32; omega), ec _ _ (by show (t.val - 1 - 1) / 4 % 8 = t.val / 4 % 8; omega),
    ek (t.val - 1 - 1) _ 1 (by show (t.val - 1 - 1) % 4 = 1; omega)] at s1
  rw [er _ _ (by show (t.val - 1 - 1 - 1) / 32 = t.val / 32; omega), ec _ _ (by show (t.val - 1 - 1 - 1) / 4 % 8 = t.val / 4 % 8; omega),
    ek (t.val - 1 - 1 - 1) _ 0 (by show (t.val - 1 - 1 - 1) % 4 = 0; omega)] at s0
  rw [ek t.val (kbl t) 3 (by show t.val % 4 = 3; exact h1)] at s3
  exact s3.trans (by rw [s2, s1, s0])

/-- The pre-activation at a finish point: the accumulator entry plus the summed bias is the reference's form. -/
theorem gate1_finish (c : Dev nD) (t : Fin cfg0.N) (h1 : t.val % 4 = 3) (r : Fin 1024) (q : Fin 256) :
    (accAt m c t.val t.isLt).2.1 (ix2 r q) + (A4 m c (ix1 (gcolI 1 t q)) + A6 m c (ix1 (gcolI 1 t q)))
      = (((∑ K, xrow m c (rowI t r) K * wcol m c (gcolI 1 t q) K) + A4 m c (ix1 (gcolI 1 t q)))
          + ∑ K, hrow m c (rowI t r) K * ucol m c (gcolI 1 t q) K) + A6 m c (ix1 (gcolI 1 t q)) := by
  rw [acc1_finish m c t h1 r q]
  unfold PQ
  exact gate_eq _ _ _ _ _ _

end Cert.KernelIdeal.ValueIdeal

end
-- ==== Proof.IdealAccumG2.lean ====
/-
  Gate 2 of the LSTM-cell kernel (output gate): its accumulator's entries as blocked sums, and its
  pre-activation at a finish point in the reference's form. (The shared definitions say what the blocks are.)
-/
import proofs.«168456_j39350490366667_2_alg».proof.Proof.IdealAccumBase

set_option maxRecDepth 16384

noncomputable section

namespace Cert.KernelIdeal.ValueIdeal

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

variable (m : (ℓ : Loc nD τ sig) → Buf (Elt Ideal) ℓ) (ρ : Dev nD → PrngReg)

open Cert.KernelIdeal.PayloadIdeal Cert.Lstm

set_option maxHeartbeats 4000000 in
/-- The accumulator entry after a reset point: zero plus the point's block products. -/
theorem acc2_reset (c : Dev nD) (t : Fin cfg0.N) (h0 : t.val % 4 = 0) (r : Fin 1024) (q : Fin 256) :
    (accAt m c t.val t.isLt).2.2.1 (ix2 r q) = 0 + PQ m c (rowI t r) (gcolI 2 t q) ⟨t.val % 4, kbl t⟩ := by
  have h1 : ¬t.val % 4 = 3 := by omega
  rw [accAt_A m c t h0 h1]
  show soutA_2 m c t h0 h1 (ix2 r q) = _
  rw [soutA_2_eq]
  refine (pay2_apply (iblk m c 0 t) (iblk m c 1 t) (k0_pay8 (F := Ideal)) (iblk m c 5 t) (iblk m c 9 t) r q).trans ?_
  unfold stepAt
  rw [PQ_of_blocks m c t 2 r q (iblk m c 0 t) (iblk m c 1 t) (iblk m c 5 t) (iblk m c 9 t) (fun k => blk0 m c t r k) (fun k => blk1 m c t r k) (fun k => blk5 m c t k q) (fun k => blk9 m c t k q)]
  rw [pay8_apply]

set_option maxHeartbeats 8000000 in
/-- After any other point: the entry after the point before plus the point's block products. -/
theorem acc2_step (c : Dev nD) (t : Fin cfg0.N) (h0 : ¬t.val % 4 = 0) (r : Fin 1024) (q : Fin 256) :
    (accAt m c t.val t.isLt).2.2.1 (ix2 r q)
      = (accAt m c (t.val - 1) (Nat.lt_of_le_of_lt (Nat.sub_le _ _) t.isLt)).2.2.1 (ix2 r q) + PQ m c (rowI t r) (gcolI 2 t q) ⟨t.val % 4, kbl t⟩ := by
  by_cases h1 : t.val % 4 = 3
  · rw [accAt_C m c t h0 h1]
    show soutC_2 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2 (ix2 r q) = _
    rw [soutC_2_eq]
    refine (pay2_apply (iblk m c 0 t) (iblk m c 1 t) ((accAt m c (t.val - 1) (Nat.lt_of_le_of_lt (Nat.sub_le _ _) t.isLt)).2.2.1) (iblk m c 5 t) (iblk m c 9 t) r q).trans ?_
    unfold stepAt
    rw [PQ_of_blocks m c t 2 r q (iblk m c 0 t) (iblk m c 1 t) (iblk m c 5 t) (iblk m c 9 t) (fun k => blk0 m c t r k) (fun k => blk1 m c t r k) (fun k => blk5 m c t k q) (fun k => blk9 m c t k q)]
  · rw [accAt_B m c t h0 h1]
    show soutB_2 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2 (ix2 r q) = _
    rw [soutB_2_eq]
    refine (pay2_apply (iblk m c 0 t) (iblk m c 1 t) ((accAt m c (t.val - 1) (Nat.lt_of_le_of_lt (Nat.sub_le _ _) t.isLt)).2.2.1) (iblk m c 5 t) (iblk m c 9 t) r q).trans ?_
    unfold stepAt
    rw [PQ_of_blocks m c t 2 r q (iblk m c 0 t) (iblk m c 1 t) (iblk m c 5 t) (iblk m c 9 t) (fun k => blk0 m c t r k) (fun k => blk1 m c t r k) (fun k => blk5 m c t k q) (fun k => blk9 m c t k q)]

/-- At a finish point: the four blocks accumulated from zero. -/
theorem acc2_finish (c : Dev nD) (t : Fin cfg0.N) (h1 : t.val % 4 = 3) (r : Fin 1024) (q : Fin 256) :
    (accAt m c t.val t.isLt).2.2.1 (ix2 r q)
      = (((0 + PQ m c (rowI t r) (gcolI 2 t q) 0) + PQ m c (rowI t r) (gcolI 2 t q) 1) + PQ m c (rowI t r) (gcolI 2 t q) 2)
        + PQ m c (rowI t r) (gcolI 2 t q) 3 := by
  have hN := tlt t
  have hl : ∀ d, t.val - d < cfg0.N := fun d => Nat.lt_of_le_of_lt (Nat.sub_le _ _) t.isLt
  have s3 := acc2_step m c t (by omega) r q
  have s2 := acc2_step m c ⟨t.val - 1, hl 1⟩ (by show ¬(t.val - 1) % 4 = 0; omega) r q
  have s1 := acc2_step m c ⟨t.val - 1 - 1, Nat.lt_of_le_of_lt (Nat.sub_le _ _) (hl 1)⟩ (by show ¬(t.val - 1 - 1) % 4 = 0; omega) r q
  have s0 := acc2_reset m c ⟨t.val - 1 - 1 - 1, Nat.lt_of_le_of_lt (Nat.sub_le _ _) (Nat.lt_of_le_of_lt (Nat.sub_le _ _) (hl 1))⟩ (by show (t.val - 1 - 1 - 1) % 4 = 0; omega) r q
  have er : ∀ (n : ℕ) (hn : n < cfg0.N), n / 32 = t.val / 32 → rowI ⟨n, hn⟩ r = rowI t r := fun n hn e => Fin.ext (by show n / 32 * 1024 + r.val = t.val / 32 * 1024 + r.val; rw [e])
  have ec : ∀ (n : ℕ) (hn : n < cfg0.N), n / 4 % 8 = t.val / 4 % 8 → gcolI 2 ⟨n, hn⟩ q = gcolI 2 t q := fun n hn e => Fin.ext (by show ((2 : Fin 4).val * 8 + n / 4 % 8) * 256 + q.val = ((2 : Fin 4).val * 8 + t.val / 4 % 8) * 256 + q.val; rw [e])
  have ek : ∀ (n : ℕ) (hn : n % 4 < 4) (d : Fin 4), n % 4 = d.val → (⟨n % 4, hn⟩ : Fin 4) = d := fun n hn d e => Fin.ext e
  rw [er _ _ (by show (t.val - 1) / 32 = t.val / 32; omega), ec _ _ (by show (t.val - 1) / 4 % 8 = t.val / 4 % 8; omega),
    ek (t.val - 1) _ 2 (by show (t.val - 1) % 4 = 2; omega)] at s2
  rw [er _ _ (by show (t.val - 1 - 1) / 32 = t.val / 32; omega), ec _ _ (by show (t.val - 1 - 1) / 4 % 8 = t.val / 4 % 8; omega),
    ek (t.val - 1 - 1) _ 1 (by show (t.val - 1 - 1) % 4 = 1; omega)] at s1
  rw [er _ _ (by show (t.val - 1 - 1 - 1) / 32 = t.val / 32; omega), ec _ _ (by show (t.val - 1 - 1 - 1) / 4 % 8 = t.val / 4 % 8; omega),
    ek (t.val - 1 - 1 - 1) _ 0 (by show (t.val - 1 - 1 - 1) % 4 = 0; omega)] at s0
  rw [ek t.val (kbl t) 3 (by show t.val % 4 = 3; exact h1)] at s3
  exact s3.trans (by rw [s2, s1, s0])

/-- The pre-activation at a finish point: the accumulator entry plus the summed bias is the reference's form. -/
theorem gate2_finish (c : Dev nD) (t : Fin cfg0.N) (h1 : t.val % 4 = 3) (r : Fin 1024) (q : Fin 256) :
    (accAt m c t.val t.isLt).2.2.1 (ix2 r q) + (A4 m c (ix1 (gcolI 2 t q)) + A6 m c (ix1 (gcolI 2 t q)))
      = (((∑ K, xrow m c (rowI t r) K * wcol m c (gcolI 2 t q) K) + A4 m c (ix1 (gcolI 2 t q)))
          + ∑ K, hrow m c (rowI t r) K * ucol m c (gcolI 2 t q) K) + A6 m c (ix1 (gcolI 2 t q)) := by
  rw [acc2_finish m c t h1 r q]
  unfold PQ
  exact gate_eq _ _ _ _ _ _

end Cert.KernelIdeal.ValueIdeal

end
-- ==== Proof.IdealAccumG3.lean ====
/-
  Gate 3 of the LSTM-cell kernel (cell-candidate gate): its accumulator's entries as blocked sums, and its
  pre-activation at a finish point in the reference's form. (The shared definitions say what the blocks are.)
-/
import proofs.«168456_j39350490366667_2_alg».proof.Proof.IdealAccumBase

set_option maxRecDepth 16384

noncomputable section

namespace Cert.KernelIdeal.ValueIdeal

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

variable (m : (ℓ : Loc nD τ sig) → Buf (Elt Ideal) ℓ) (ρ : Dev nD → PrngReg)

open Cert.KernelIdeal.PayloadIdeal Cert.Lstm

set_option maxHeartbeats 4000000 in
/-- The accumulator entry after a reset point: zero plus the point's block products. -/
theorem acc3_reset (c : Dev nD) (t : Fin cfg0.N) (h0 : t.val % 4 = 0) (r : Fin 1024) (q : Fin 256) :
    (accAt m c t.val t.isLt).2.2.2 (ix2 r q) = 0 + PQ m c (rowI t r) (gcolI 3 t q) ⟨t.val % 4, kbl t⟩ := by
  have h1 : ¬t.val % 4 = 3 := by omega
  rw [accAt_A m c t h0 h1]
  show soutA_3 m c t h0 h1 (ix2 r q) = _
  rw [soutA_3_eq]
  refine (pay3_apply (iblk m c 0 t) (iblk m c 1 t) (k0_pay9 (F := Ideal)) (iblk m c 6 t) (iblk m c 10 t) r q).trans ?_
  unfold stepAt
  rw [PQ_of_blocks m c t 3 r q (iblk m c 0 t) (iblk m c 1 t) (iblk m c 6 t) (iblk m c 10 t) (fun k => blk0 m c t r k) (fun k => blk1 m c t r k) (fun k => blk6 m c t k q) (fun k => blk10 m c t k q)]
  rw [pay9_apply]

set_option maxHeartbeats 8000000 in
/-- After any other point: the entry after the point before plus the point's block products. -/
theorem acc3_step (c : Dev nD) (t : Fin cfg0.N) (h0 : ¬t.val % 4 = 0) (r : Fin 1024) (q : Fin 256) :
    (accAt m c t.val t.isLt).2.2.2 (ix2 r q)
      = (accAt m c (t.val - 1) (Nat.lt_of_le_of_lt (Nat.sub_le _ _) t.isLt)).2.2.2 (ix2 r q) + PQ m c (rowI t r) (gcolI 3 t q) ⟨t.val % 4, kbl t⟩ := by
  by_cases h1 : t.val % 4 = 3
  · rw [accAt_C m c t h0 h1]
    show soutC_3 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2 (ix2 r q) = _
    rw [soutC_3_eq]
    refine (pay3_apply (iblk m c 0 t) (iblk m c 1 t) ((accAt m c (t.val - 1) (Nat.lt_of_le_of_lt (Nat.sub_le _ _) t.isLt)).2.2.2) (iblk m c 6 t) (iblk m c 10 t) r q).trans ?_
    unfold stepAt
    rw [PQ_of_blocks m c t 3 r q (iblk m c 0 t) (iblk m c 1 t) (iblk m c 6 t) (iblk m c 10 t) (fun k => blk0 m c t r k) (fun k => blk1 m c t r k) (fun k => blk6 m c t k q) (fun k => blk10 m c t k q)]
  · rw [accAt_B m c t h0 h1]
    show soutB_3 m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2 (ix2 r q) = _
    rw [soutB_3_eq]
    refine (pay3_apply (iblk m c 0 t) (iblk m c 1 t) ((accAt m c (t.val - 1) (Nat.lt_of_le_of_lt (Nat.sub_le _ _) t.isLt)).2.2.2) (iblk m c 6 t) (iblk m c 10 t) r q).trans ?_
    unfold stepAt
    rw [PQ_of_blocks m c t 3 r q (iblk m c 0 t) (iblk m c 1 t) (iblk m c 6 t) (iblk m c 10 t) (fun k => blk0 m c t r k) (fun k => blk1 m c t r k) (fun k => blk6 m c t k q) (fun k => blk10 m c t k q)]

/-- At a finish point: the four blocks accumulated from zero. -/
theorem acc3_finish (c : Dev nD) (t : Fin cfg0.N) (h1 : t.val % 4 = 3) (r : Fin 1024) (q : Fin 256) :
    (accAt m c t.val t.isLt).2.2.2 (ix2 r q)
      = (((0 + PQ m c (rowI t r) (gcolI 3 t q) 0) + PQ m c (rowI t r) (gcolI 3 t q) 1) + PQ m c (rowI t r) (gcolI 3 t q) 2)
        + PQ m c (rowI t r) (gcolI 3 t q) 3 := by
  have hN := tlt t
  have hl : ∀ d, t.val - d < cfg0.N := fun d => Nat.lt_of_le_of_lt (Nat.sub_le _ _) t.isLt
  have s3 := acc3_step m c t (by omega) r q
  have s2 := acc3_step m c ⟨t.val - 1, hl 1⟩ (by show ¬(t.val - 1) % 4 = 0; omega) r q
  have s1 := acc3_step m c ⟨t.val - 1 - 1, Nat.lt_of_le_of_lt (Nat.sub_le _ _) (hl 1)⟩ (by show ¬(t.val - 1 - 1) % 4 = 0; omega) r q
  have s0 := acc3_reset m c ⟨t.val - 1 - 1 - 1, Nat.lt_of_le_of_lt (Nat.sub_le _ _) (Nat.lt_of_le_of_lt (Nat.sub_le _ _) (hl 1))⟩ (by show (t.val - 1 - 1 - 1) % 4 = 0; omega) r q
  have er : ∀ (n : ℕ) (hn : n < cfg0.N), n / 32 = t.val / 32 → rowI ⟨n, hn⟩ r = rowI t r := fun n hn e => Fin.ext (by show n / 32 * 1024 + r.val = t.val / 32 * 1024 + r.val; rw [e])
  have ec : ∀ (n : ℕ) (hn : n < cfg0.N), n / 4 % 8 = t.val / 4 % 8 → gcolI 3 ⟨n, hn⟩ q = gcolI 3 t q := fun n hn e => Fin.ext (by show ((3 : Fin 4).val * 8 + n / 4 % 8) * 256 + q.val = ((3 : Fin 4).val * 8 + t.val / 4 % 8) * 256 + q.val; rw [e])
  have ek : ∀ (n : ℕ) (hn : n % 4 < 4) (d : Fin 4), n % 4 = d.val → (⟨n % 4, hn⟩ : Fin 4) = d := fun n hn d e => Fin.ext e
  rw [er _ _ (by show (t.val - 1) / 32 = t.val / 32; omega), ec _ _ (by show (t.val - 1) / 4 % 8 = t.val / 4 % 8; omega),
    ek (t.val - 1) _ 2 (by show (t.val - 1) % 4 = 2; omega)] at s2
  rw [er _ _ (by show (t.val - 1 - 1) / 32 = t.val / 32; omega), ec _ _ (by show (t.val - 1 - 1) / 4 % 8 = t.val / 4 % 8; omega),
    ek (t.val - 1 - 1) _ 1 (by show (t.val - 1 - 1) % 4 = 1; omega)] at s1
  rw [er _ _ (by show (t.val - 1 - 1 - 1) / 32 = t.val / 32; omega), ec _ _ (by show (t.val - 1 - 1 - 1) / 4 % 8 = t.val / 4 % 8; omega),
    ek (t.val - 1 - 1 - 1) _ 0 (by show (t.val - 1 - 1 - 1) % 4 = 0; omega)] at s0
  rw [ek t.val (kbl t) 3 (by show t.val % 4 = 3; exact h1)] at s3
  exact s3.trans (by rw [s2, s1, s0])

/-- The pre-activation at a finish point: the accumulator entry plus the summed bias is the reference's form. -/
theorem gate3_finish (c : Dev nD) (t : Fin cfg0.N) (h1 : t.val % 4 = 3) (r : Fin 1024) (q : Fin 256) :
    (accAt m c t.val t.isLt).2.2.2 (ix2 r q) + (A4 m c (ix1 (gcolI 3 t q)) + A6 m c (ix1 (gcolI 3 t q)))
      = (((∑ K, xrow m c (rowI t r) K * wcol m c (gcolI 3 t q) K) + A4 m c (ix1 (gcolI 3 t q)))
          + ∑ K, hrow m c (rowI t r) K * ucol m c (gcolI 3 t q) K) + A6 m c (ix1 (gcolI 3 t q)) := by
  rw [acc3_finish m c t h1 r q]
  unfold PQ
  exact gate_eq _ _ _ _ _ _

end Cert.KernelIdeal.ValueIdeal

end
-- ==== Proof.IdealAccum.lean ====
/-
  The four gates' accumulators of the LSTM-cell kernel, one module per gate, gathered.
-/
import proofs.«168456_j39350490366667_2_alg».proof.Proof.IdealAccumG0
import proofs.«168456_j39350490366667_2_alg».proof.Proof.IdealAccumG1
import proofs.«168456_j39350490366667_2_alg».proof.Proof.IdealAccumG2
import proofs.«168456_j39350490366667_2_alg».proof.Proof.IdealAccumG3
-- ==== Proof.IdealRef.lean ====
/-
  The reference's two results at an entry, on the extended reals.

  The reference forms gates = ((inp·W + b_w) + h0·U) + b_u over the packed 8192 columns, slices the four gates
  i, f, o, g out of it at column offsets 0, 2048, 4096, 6144, and sets c = sigmoid(f)·c0 + sigmoid(i)·tanh(g),
  h = sigmoid(o)·tanh(c), with sigmoid spelled 1/(1 + exp(−x)). On the extended reals that spelling is the logistic
  function itself and the literal it divides is the number one, so at row R and column C the two results are the
  logistic and tanh of the four pre-activations at (R, C), (R, 2048 + C), (R, 4096 + C), (R, 6144 + C).
-/
import proofs.«168456_j39350490366667_2_alg».proof.Proof.Gen.ReferenceIdeal.Read
import proofs.«168456_j39350490366667_2_alg».proof.Proof.LstmAlgebra

noncomputable section

namespace Cert.ReferenceIdeal.RefValue

open Cert.ReferenceIdeal Cert.ReferenceIdeal.Gen Cert.ReferenceIdeal.Read Idealize.ShloMosaic Idealize.ShloMosaic.TcCoe Idealize.SL.Sem
open Idealize.ShloMosaic.ValueIdx
open scoped BigOperators

variable (x0 x1 x2 : S8192x2048.Idx → EReal) (x3 : S2048x8192.Idx → EReal) (x4 : S8192.Idx → EReal) (x5 : S2048x8192.Idx → EReal) (x6 : S8192.Idx → EReal)

/-- A gate's pre-activation at row R and packed column J. -/
def preact (R : Fin 8192) (J : Fin 8192) : EReal :=
  (((∑ K : Fin 2048, x0 (ix2 R K) * x3 (ix2 K J)) + x4 (ix1 J)) + ∑ K : Fin 2048, x1 (ix2 R K) * x5 (ix2 K J)) + x6 (ix1 J)

theorem v8_at (i : S8192x8192.Idx) :
    val_main_v8 (F := Ideal) x0 x1 x3 x4 x5 x6 i = preact x0 x1 x3 x4 x5 x6 (i 0) (i 1) := by
  have el : ∀ k : Fin 2048, lidx_main_v0 i k = ix2 (i 0) k := fun k => funext fun a => by match a with | ⟨0, _⟩ => rfl | ⟨1, _⟩ => rfl
  have er : ∀ k : Fin 2048, ridx_main_v0 i k = ix2 k (i 1) := fun k => funext fun a => by match a with | ⟨0, _⟩ => rfl | ⟨1, _⟩ => rfl
  have el4 : ∀ k : Fin 2048, lidx_main_v4 i k = ix2 (i 0) k := fun k => funext fun a => by match a with | ⟨0, _⟩ => rfl | ⟨1, _⟩ => rfl
  have er4 : ∀ k : Fin 2048, ridx_main_v4 i k = ix2 k (i 1) := fun k => funext fun a => by match a with | ⟨0, _⟩ => rfl | ⟨1, _⟩ => rfl
  have e1 : idx_main_v1 (idx_main_v2 i) = ix1 (i 1) := funext fun a => by match a with | ⟨0, _⟩ => rfl
  have e6 : idx_main_v6 (idx_main_v7 i) = ix1 (i 1) := funext fun a => by match a with | ⟨0, _⟩ => rfl
  rw [val_main_v8_apply, val_main_v5_apply, val_main_v3_apply, val_main_v0_apply, val_main_v2_apply, val_main_v1_apply,
    val_main_v4_apply, val_main_v7_apply, val_main_v6_apply]
  simp only [el, er, el4, er4, e1, e6]
  rfl

/-- Column C of gate g in the packed layout. -/
def gcol (g : Fin 4) (C : Fin 2048) : Fin 8192 := ⟨g.val * 2048 + C.val, by have := g.isLt; omega⟩

/-- The reference's sigmoid of a pre-activation is the logistic function. -/
theorem one_eq : Ideal.ofBits .f32 0x3F800000#32 = (1 : EReal) := Cert.Lstm.ofBits_one

/-- The new cell state at (R, C). -/
def cellRef (R : Fin 8192) (C : Fin 2048) : EReal :=
  Ideal.logistic (preact x0 x1 x3 x4 x5 x6 R (gcol 1 C)) * x2 (ix2 R C)
    + Ideal.logistic (preact x0 x1 x3 x4 x5 x6 R (gcol 0 C)) * Ideal.tanh (preact x0 x1 x3 x4 x5 x6 R (gcol 3 C))

theorem i9 (R : Fin 8192) (C : Fin 2048) : idx_main_v9 (ix2 R C) = ix2 R (gcol 0 C) :=
  funext fun a => by match a with | ⟨0, _⟩ => rfl | ⟨1, _⟩ => exact Fin.ext (by simp [gcol])
theorem i10 (R : Fin 8192) (C : Fin 2048) : idx_main_v10 (ix2 R C) = ix2 R (gcol 1 C) :=
  funext fun a => by match a with | ⟨0, _⟩ => rfl | ⟨1, _⟩ => exact Fin.ext (by simp [gcol])
theorem i11 (R : Fin 8192) (C : Fin 2048) : idx_main_v11 (ix2 R C) = ix2 R (gcol 2 C) :=
  funext fun a => by match a with | ⟨0, _⟩ => rfl | ⟨1, _⟩ => exact Fin.ext (by simp [gcol])
theorem i12 (R : Fin 8192) (C : Fin 2048) : idx_main_v12 (ix2 R C) = ix2 R (gcol 3 C) :=
  funext fun a => by match a with | ⟨0, _⟩ => rfl | ⟨1, _⟩ => exact Fin.ext (by simp [gcol])

theorem v34_at (R : Fin 8192) (C : Fin 2048) :
    val_main_v34 (F := Ideal) x0 x1 x2 x3 x4 x5 x6 (ix2 R C) = cellRef x0 x1 x2 x3 x4 x5 x6 R C := by
  rw [val_main_v34_apply, val_main_v32_apply, val_main_v33_apply, val_main_v24_apply, val_main_v23_apply, val_main_cst_2_apply,
    val_main_v22_apply, val_main_v21_apply, val_main_cst_1_apply, val_main_v20_apply, val_main_v19_apply, val_main_v10_apply,
    val_main_v18_apply, val_main_v17_apply, val_main_cst_0_apply, val_main_v16_apply, val_main_v15_apply, val_main_cst_apply,
    val_main_v14_apply, val_main_v13_apply, val_main_v9_apply, val_main_v31_apply, val_main_v12_apply,
    v8_at, v8_at, v8_at, i9, i10, i12]
  simp only [Ideal.ofBits_def, one_eq]
  rfl

theorem v36_at (R : Fin 8192) (C : Fin 2048) :
    val_main_v36 (F := Ideal) x0 x1 x2 x3 x4 x5 x6 (ix2 R C)
      = Ideal.logistic (preact x0 x1 x3 x4 x5 x6 R (gcol 2 C)) * Ideal.tanh (cellRef x0 x1 x2 x3 x4 x5 x6 R C) := by
  rw [val_main_v36_apply, val_main_v30_apply, val_main_v29_apply, val_main_cst_4_apply, val_main_v28_apply, val_main_v27_apply,
    val_main_cst_3_apply, val_main_v26_apply, val_main_v25_apply, val_main_v11_apply, val_main_v35_apply, v34_at, v8_at, i11]
  simp only [Ideal.ofBits_def, one_eq]
  rfl

end Cert.ReferenceIdeal.RefValue

end
-- ==== Proof.IdealFrame.lean ====
/-
  The LSTM-cell kernel's frame: the invariant before the first point and after the last, the arrays' shares dealt
  among the windows, the run, and the frame claim's post read off it.
-/
import proofs.«168456_j39350490366667_2_alg».proof.Proof.IdealFrameCore

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Before the first point and after the last -/

/-- What the launch hands the region is the invariant before the first point. -/
theorem hin (c : Dev nD) : (Pipeline.scopedRest (Ix := Unit) (Name := ℕ) (U := UR sig nD τ) (Lvl := ℕ) (Val := Elt F) spec0 c : sProp 𝕄) ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the accumulators back, their contents forgotten. -/
theorem hout (c : Dev nD) : (dats m 0 c).Φ (Fin.last cfg0.N) ⊢ (Pipeline.scopedRest (Ix := Unit) (Name := ℕ) (U := UR sig nD τ) (Lvl := ℕ) (Val := Elt F) spec0 c : sProp 𝕄) := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 256 := N_0; omega), scoped0_eq]
  iintro ⟨HS0, HS1, HS2, HS3⟩
  isplitl [HS0]; · iexists _; iexact HS0
  isplitl [HS1]; · iexists _; iexact HS1
  isplitl [HS2]; · iexists _; iexact HS2
  iexists _; iexact HS3

/-! ## The arrays' shares dealt among the windows -/

/-- The distinct buffers behind the seventeen windows' arrays, one by one. -/
theorem arrBufs0_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_v0) ↦{fullShare} W main_v0) ∗ (((c.tc : Thread nD τ).loc main_v1) ↦{fullShare} W main_v1)
        ∗ (((c.tc : Thread nD τ).loc main_arg2) ↦{fullShare} W main_arg2) ∗ (((c.tc : Thread nD τ).loc main_v2) ↦{fullShare} W main_v2)
        ∗ (((c.tc : Thread nD τ).loc main_v3) ↦{fullShare} W main_v3) ∗ (((c.tc : Thread nD τ).loc main_v5) ↦{fullShare} W main_v5)
        ∗ (((c.tc : Thread nD τ).loc main_v6_0) ↦{fullShare} W main_v6_0) ∗ (((c.tc : Thread nD τ).loc main_v6_1) ↦{fullShare} W main_v6_1)) := by
  unfold Pipeline.arrBufs
  exact Idealize.SL.BI.bigSep_eq_bigSepL_of_eq [main_v0, main_v1, main_arg2, main_v2, main_v3, main_v5, main_v6_0, main_v6_1] (by decide) (by decide) _

/-- The eight buffers, each whole at the full share, make the seventeen windows' arrays at the windows' shares: the
    packed weights and the summed bias are each held in quarters, one per gate's window. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [Cert.Lib.SharedFrame.arrays_eq_shares cfgs (dats m) 0 c arr_whole0, bigSep_W0]
  rw [arrBufs0_eq]
  iintro ⟨Hv0, Hv1, Ha2, Hv2, Hv3, Hv5, Ho0, Ho1⟩
  ihave Hq2 := Cert.Lib.SharedFrame.pointsTo_quarters _ $$ Hv2
  icases Hq2 with ⟨Hw3, Hw4, Hw5, Hw6⟩
  ihave Hq3 := Cert.Lib.SharedFrame.pointsTo_quarters _ $$ Hv3
  icases Hq3 with ⟨Hw7, Hw8, Hw9, Hw10⟩
  ihave Hq5 := Cert.Lib.SharedFrame.pointsTo_quarters _ $$ Hv5
  icases Hq5 with ⟨Hw11, Hw12, Hw13, Hw14⟩
  isplitl [Hv0]; · iexact Hv0
  isplitl [Hv1]; · iexact Hv1
  isplitl [Ha2]; · iexact Ha2
  isplitl [Hw3]; · iexact Hw3
  isplitl [Hw4]; · iexact Hw4
  isplitl [Hw5]; · iexact Hw5
  isplitl [Hw6]; · iexact Hw6
  isplitl [Hw7]; · iexact Hw7
  isplitl [Hw8]; · iexact Hw8
  isplitl [Hw9]; · iexact Hw9
  isplitl [Hw10]; · iexact Hw10
  isplitl [Hw11]; · iexact Hw11
  isplitl [Hw12]; · iexact Hw12
  isplitl [Hw13]; · iexact Hw13
  isplitl [Hw14]; · iexact Hw14
  isplitl [Ho0]; · iexact Ho0
  iexact Ho1

/-! ## The run and the frame -/

set_option backward.isDefEq.respectTransparency.types false in
/-- Every weakly fair execution of @main terminates, and every final state has every window's array at what the
    library computes from the proof data and every other unscoped buffer as the region found it. -/
theorem run_main : θ_run defs (onTc (τ := τ) (main (F := F))) (s₀ m ρ) (Pipeline.FramePost cfgs (dats m) 0 (V m)) :=
  Cert.Lib.SharedFrame.θ_run_frame_shared cfgs (dats m) (0 : Fin 1) cellOf_inj winFacts₀0 block_pos0 arr_whole0 stage_whole0
    defs₀ Variants.none m ρ main (fun c => (body_obligation m c).loose) (fun _ _ => rfl) (V m) (hmain m Variants.none)
    (hsplit m) (hin m) (hout m)

/-- The host operations before the region write none of the seven argument arrays. -/
theorem V_main_arg0 (c : Dev nD) : V m c main_arg0 = m ((c : Thread nD τ).loc main_arg0) := by
  first | rfl | (dsimp only [V, V0, hostOps0]; after_results)
theorem V_main_arg1 (c : Dev nD) : V m c main_arg1 = m ((c : Thread nD τ).loc main_arg1) := by
  first | rfl | (dsimp only [V, V0, hostOps0]; after_results)
theorem V_main_arg2 (c : Dev nD) : V m c main_arg2 = m ((c : Thread nD τ).loc main_arg2) := by
  first | rfl | (dsimp only [V, V0, hostOps0]; after_results)
theorem V_main_arg3 (c : Dev nD) : V m c main_arg3 = m ((c : Thread nD τ).loc main_arg3) := by
  first | rfl | (dsimp only [V, V0, hostOps0]; after_results)
theorem V_main_arg4 (c : Dev nD) : V m c main_arg4 = m ((c : Thread nD τ).loc main_arg4) := by
  first | rfl | (dsimp only [V, V0, hostOps0]; after_results)
theorem V_main_arg5 (c : Dev nD) : V m c main_arg5 = m ((c : Thread nD τ).loc main_arg5) := by
  first | rfl | (dsimp only [V, V0, hostOps0]; after_results)
theorem V_main_arg6 (c : Dev nD) : V m c main_arg6 = m ((c : Thread nD τ).loc main_arg6) := by
  first | rfl | (dsimp only [V, V0, hostOps0]; after_results)

theorem rest_main_arg0 : main_arg0 ∈ Pipeline.restRefs sig spec0 := Pipeline.mem_restRefs_of main_arg0 rfl (by decide)
theorem rest_main_arg1 : main_arg1 ∈ Pipeline.restRefs sig spec0 := Pipeline.mem_restRefs_of main_arg1 rfl (by decide)
theorem rest_main_arg3 : main_arg3 ∈ Pipeline.restRefs sig spec0 := Pipeline.mem_restRefs_of main_arg3 rfl (by decide)
theorem rest_main_arg4 : main_arg4 ∈ Pipeline.restRefs sig spec0 := Pipeline.mem_restRefs_of main_arg4 rfl (by decide)
theorem rest_main_arg5 : main_arg5 ∈ Pipeline.restRefs sig spec0 := Pipeline.mem_restRefs_of main_arg5 rfl (by decide)
theorem rest_main_arg6 : main_arg6 ∈ Pipeline.restRefs sig spec0 := Pipeline.mem_restRefs_of main_arg6 rfl (by decide)

/-- The frame: the program runs to the end, faults nowhere, and leaves its seven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨((h c).2 main_arg0 rest_main_arg0).trans (V_main_arg0 m c),
     ((h c).2 main_arg1 rest_main_arg1).trans (V_main_arg1 m c),
     ((h c).1 2).trans (((dats m 0 c).arrAt_in 2 rfl _).trans ((A_eq m c 2).trans (V_main_arg2 m c))),
     ((h c).2 main_arg3 rest_main_arg3).trans (V_main_arg3 m c),
     ((h c).2 main_arg4 rest_main_arg4).trans (V_main_arg4 m c),
     ((h c).2 main_arg5 rest_main_arg5).trans (V_main_arg5 m c),
     ((h c).2 main_arg6 rest_main_arg6).trans (V_main_arg6 m c)⟩) (run_main m ρ)

end Cert.KernelIdeal.Hand

end
-- ==== Proof.IdealValue.lean ====
/-
  What the LSTM-cell kernel's two result arrays hold at the end, on the extended reals: the reference's results.

  At a finish point the four accumulators' entries plus their biases are the reference's four pre-activations at
  the entry's global row and column, so the two blocks the point stores are the reference's new cell state and new
  hidden state there. A finish point writes both blocks back, the blocks of the finish points tile the two result
  arrays, and nothing else writes them: the arrays end at the reference's results, entry by entry.
-/
import proofs.«168456_j39350490366667_2_alg».proof.Proof.IdealAccum
import proofs.«168456_j39350490366667_2_alg».proof.Proof.IdealRef
import proofs.«168456_j39350490366667_2_alg».proof.Proof.IdealFrame

set_option maxRecDepth 16384

noncomputable section

namespace Cert.KernelIdeal.ValueIdeal

open Cert.KernelIdeal Cert.KernelIdeal.Gen Cert.KernelIdeal.Hand
open Idealize.ShloMosaic Idealize.ShloMosaic.TcCoe Idealize.ShloMosaic.Tactic
open Idealize.SL Idealize.SL.Sem
open Idealize.ShloMosaic.Pipeline (Dat Cfg Window)
open Idealize.ShloMosaic.ValueIdx
open scoped BigOperators

variable (m : (ℓ : Loc nD τ sig) → Buf (Elt Ideal) ℓ) (ρ : Dev nD → PrngReg)

open Cert.KernelIdeal.PayloadIdeal Cert.Lstm
open Cert.ReferenceIdeal.RefValue (preact cellRef gcol v34_at v36_at)

/-- Gate g's column in the packed arrays, from the point's column block. -/
theorem gcolI_eq (g : Fin 4) (t : Fin cfg0.N) (q : Fin 256) : gcolI g t q = gcol g (colI t q) :=
  Fin.ext (by show (g.val * 8 + t.val / 4 % 8) * 256 + q.val = g.val * 2048 + (t.val / 4 % 8 * 256 + q.val); have := g.isLt; omega)

/-- Gate 0's pre-activation at a finish point is the reference's at the entry's row and column. -/
theorem gate0_ref (c : Dev nD) (t : Fin cfg0.N) (h1 : t.val % 4 = 3) (r : Fin 1024) (q : Fin 256) :
    (accAt m c t.val t.isLt).1 (ix2 r q) + (A4 m c (ix1 (gcolI 0 t q)) + A6 m c (ix1 (gcolI 0 t q)))
      = preact (A0 m c) (A1 m c) (A3 m c) (A4 m c) (A5 m c) (A6 m c) (rowI t r) (gcol 0 (colI t q)) := by
  rw [gate0_finish m c t h1 r q, gcolI_eq]
  rfl

/-- Gate 1's pre-activation at a finish point is the reference's at the entry's row and column. -/
theorem gate1_ref (c : Dev nD) (t : Fin cfg0.N) (h1 : t.val % 4 = 3) (r : Fin 1024) (q : Fin 256) :
    (accAt m c t.val t.isLt).2.1 (ix2 r q) + (A4 m c (ix1 (gcolI 1 t q)) + A6 m c (ix1 (gcolI 1 t q)))
      = preact (A0 m c) (A1 m c) (A3 m c) (A4 m c) (A5 m c) (A6 m c) (rowI t r) (gcol 1 (colI t q)) := by
  rw [gate1_finish m c t h1 r q, gcolI_eq]
  rfl

/-- Gate 2's pre-activation at a finish point is the reference's at the entry's row and column. -/
theorem gate2_ref (c : Dev nD) (t : Fin cfg0.N) (h1 : t.val % 4 = 3) (r : Fin 1024) (q : Fin 256) :
    (accAt m c t.val t.isLt).2.2.1 (ix2 r q) + (A4 m c (ix1 (gcolI 2 t q)) + A6 m c (ix1 (gcolI 2 t q)))
      = preact (A0 m c) (A1 m c) (A3 m c) (A4 m c) (A5 m c) (A6 m c) (rowI t r) (gcol 2 (colI t q)) := by
  rw [gate2_finish m c t h1 r q, gcolI_eq]
  rfl

/-- Gate 3's pre-activation at a finish point is the reference's at the entry's row and column. -/
theorem gate3_ref (c : Dev nD) (t : Fin cfg0.N) (h1 : t.val % 4 = 3) (r : Fin 1024) (q : Fin 256) :
    (accAt m c t.val t.isLt).2.2.2 (ix2 r q) + (A4 m c (ix1 (gcolI 3 t q)) + A6 m c (ix1 (gcolI 3 t q)))
      = preact (A0 m c) (A1 m c) (A3 m c) (A4 m c) (A5 m c) (A6 m c) (rowI t r) (gcol 3 (colI t q)) := by
  rw [gate3_finish m c t h1 r q, gcolI_eq]
  rfl

set_option maxHeartbeats 8000000 in
/-- The cell-state block at a finish point, entry by entry. -/
theorem finish16 (c : Dev nD) (t : Fin cfg0.N) (h1 : t.val % 4 = 3) (r : Fin 1024) (q : Fin 256) :
    outAt16 m c t (ix2 r q) = cellRef (A0 m c) (A1 m c) (A2 m c) (A3 m c) (A4 m c) (A5 m c) (A6 m c) (rowI t r) (colI t q) := by
  have h0 : ¬t.val % 4 = 0 := by omega
  have e0 : (accAt m c t.val t.isLt).1 = k0_pay12 (iblk m c 0 t) (iblk m c 1 t) (accAt m c (t.val - 1) (Nat.lt_of_le_of_lt (Nat.sub_le _ _) t.isLt)).1 (iblk m c 3 t) (iblk m c 7 t) := by
    rw [accAt_C m c t h0 h1]; exact soutC_0_eq m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2
  have e1 : (accAt m c t.val t.isLt).2.1 = k0_pay1 (k0_pay13 (iblk m c 0 t) (iblk m c 1 t) (accAt m c (t.val - 1) (Nat.lt_of_le_of_lt (Nat.sub_le _ _) t.isLt)).2.1 (iblk m c 4 t) (iblk m c 8 t)) := by
    rw [accAt_C m c t h0 h1]; exact soutC_1_eq m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2
  have e3 : (accAt m c t.val t.isLt).2.2.2 = k0_pay3 (k0_pay10 (iblk m c 0 t)) (k0_pay11 (iblk m c 1 t)) (accAt m c (t.val - 1) (Nat.lt_of_le_of_lt (Nat.sub_le _ _) t.isLt)).2.2.2 (iblk m c 6 t) (iblk m c 10 t) := by
    rw [accAt_C m c t h0 h1]; exact soutC_3_eq m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2
  rw [outAt16_C m c t h0 h1, outC_16_eq, ← e0, ← e1, ← e3]
  refine (pay4_apply ((accAt m c t.val t.isLt).1) (iblk m c 11 t) ((accAt m c t.val t.isLt).2.1) (iblk m c 12 t) ((accAt m c t.val t.isLt).2.2.2) (iblk m c 14 t) (iblk m c 2 t) r q).trans ?_
  rw [blk11, blk12, blk14, blk2]
  unfold cellAt cellRef
  rw [gate0_ref m c t h1 r q, gate1_ref m c t h1 r q, gate3_ref m c t h1 r q]

set_option maxHeartbeats 8000000 in
/-- The hidden-state block at a finish point, entry by entry. -/
theorem finish15 (c : Dev nD) (t : Fin cfg0.N) (h1 : t.val % 4 = 3) (r : Fin 1024) (q : Fin 256) :
    outAt15 m c t (ix2 r q)
      = Ideal.logistic (preact (A0 m c) (A1 m c) (A3 m c) (A4 m c) (A5 m c) (A6 m c) (rowI t r) (gcol 2 (colI t q))) * Ideal.tanh (cellRef (A0 m c) (A1 m c) (A2 m c) (A3 m c) (A4 m c) (A5 m c) (A6 m c) (rowI t r) (colI t q)) := by
  have h0 : ¬t.val % 4 = 0 := by omega
  have e0 : (accAt m c t.val t.isLt).1 = k0_pay12 (iblk m c 0 t) (iblk m c 1 t) (accAt m c (t.val - 1) (Nat.lt_of_le_of_lt (Nat.sub_le _ _) t.isLt)).1 (iblk m c 3 t) (iblk m c 7 t) := by
    rw [accAt_C m c t h0 h1]; exact soutC_0_eq m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2
  have e1 : (accAt m c t.val t.isLt).2.1 = k0_pay1 (k0_pay13 (iblk m c 0 t) (iblk m c 1 t) (accAt m c (t.val - 1) (Nat.lt_of_le_of_lt (Nat.sub_le _ _) t.isLt)).2.1 (iblk m c 4 t) (iblk m c 8 t)) := by
    rw [accAt_C m c t h0 h1]; exact soutC_1_eq m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2
  have e2 : (accAt m c t.val t.isLt).2.2.1 = k0_pay2 (k0_pay10 (iblk m c 0 t)) (k0_pay11 (iblk m c 1 t)) (accAt m c (t.val - 1) (Nat.lt_of_le_of_lt (Nat.sub_le _ _) t.isLt)).2.2.1 (iblk m c 5 t) (iblk m c 9 t) := by
    rw [accAt_C m c t h0 h1]; exact soutC_2_eq m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2
  have e3 : (accAt m c t.val t.isLt).2.2.2 = k0_pay3 (k0_pay10 (iblk m c 0 t)) (k0_pay11 (iblk m c 1 t)) (accAt m c (t.val - 1) (Nat.lt_of_le_of_lt (Nat.sub_le _ _) t.isLt)).2.2.2 (iblk m c 6 t) (iblk m c 10 t) := by
    rw [accAt_C m c t h0 h1]; exact soutC_3_eq m c t h0 h1 (accAt m c (t.val - 1) (Nat.lt_of_le_of_lt (Nat.sub_le _ _) t.isLt)).1 (accAt m c (t.val - 1) (Nat.lt_of_le_of_lt (Nat.sub_le _ _) t.isLt)).2.1 (accAt m c (t.val - 1) (Nat.lt_of_le_of_lt (Nat.sub_le _ _) t.isLt)).2.2.1 (accAt m c (t.val - 1) (Nat.lt_of_le_of_lt (Nat.sub_le _ _) t.isLt)).2.2.2
  rw [outAt15_C m c t h0 h1, outC_15_eq, ← e0, ← e1, ← e2, ← e3]
  refine (pay5_apply ((accAt m c t.val t.isLt).1) (iblk m c 11 t) ((accAt m c t.val t.isLt).2.1) (iblk m c 12 t) ((accAt m c t.val t.isLt).2.2.1) (iblk m c 13 t) ((accAt m c t.val t.isLt).2.2.2) (iblk m c 14 t) (iblk m c 2 t) r q).trans ?_
  rw [blk11, blk12, blk13, blk14, blk2]
  unfold cellAt cellRef
  rw [gate0_ref m c t h1 r q, gate1_ref m c t h1 r q, gate2_ref m c t h1 r q, gate3_ref m c t h1 r q]

/-! ## The two result arrays -/

/-- The reference's hidden state and cell state of the kernel's argument arrays. -/
def Gh (c : Dev nD) : S8192x2048.Idx → EReal := Cert.ReferenceIdeal.Read.val_main_v36 (F := Ideal) (A0 m c) (A1 m c) (A2 m c) (A3 m c) (A4 m c) (A5 m c) (A6 m c)
def Gc (c : Dev nD) : S8192x2048.Idx → EReal := Cert.ReferenceIdeal.Read.val_main_v34 (F := Ideal) (A0 m c) (A1 m c) (A2 m c) (A3 m c) (A4 m c) (A5 m c) (A6 m c)

/-- Where result window 15's block at point t sits in its array. -/
theorem emb15 (t : Fin cfg0.N) (r : Fin 1024) (q : Fin 256) :
    ((cfg0.win 15).blk t).view.emb (ix2 r q) = ix2 (rowI t r) (colI t q) := by
  obtain ⟨-, -, -, -, -, -, e150, e151, e160, e161⟩ := idx_act t
  funext a; apply Fin.ext
  match a with
  | ⟨0, _⟩ => show win0_15.index t (0 : Fin 2) * 1024 + 1 * r.val = t.val / 32 * 1024 + r.val; rw [e150]; omega
  | ⟨1, _⟩ => show win0_15.index t (1 : Fin 2) * 256 + 1 * q.val = t.val / 4 % 8 * 256 + q.val; rw [e151]; omega

/-- What a finish point writes back through window 15 is its block of the reference's result. -/
theorem flushed15 (c : Dev nD) (t : Fin cfg0.N) (hf : (cfg0.win 15).flush t = true) :
    (dats m 0 c).flushed 15 t = ((cfg0.win 15).blk t).view.read (Elt Ideal) (Gh m c) := by
  have h1 : t.val % 4 = 3 := (flush0_15 t).mp hf
  show (cfg0.win 15).cut (grid0.coords t) ((dats m 0 c).after 15 t) = _
  rw [after0_15]
  funext j
  obtain ⟨r, q, rfl⟩ : ∃ (r : Fin 1024) (q : Fin 256), j = ix2 r q := ⟨j 0, j 1, eq_ix2 j⟩
  show outAt15 m c t (ix2 r q) = Gh m c (((cfg0.win 15).blk t).view.emb (ix2 r q))
  rw [finish15 m c t h1 r q, emb15]
  exact (v36_at (A0 m c) (A1 m c) (A2 m c) (A3 m c) (A4 m c) (A5 m c) (A6 m c) (rowI t r) (colI t q)).symm

theorem mem_blk15 (t : Fin cfg0.N) (i : S8192x2048.Idx) :
    i ∈ ((cfg0.win 15).blk t).view.set ↔ ∀ a : Fin 2, win0_15.index t a * S1024x256.size a ≤ (i a).val ∧ (i a).val < win0_15.index t a * S1024x256.size a + S1024x256.size a := by
  show i ∈ ((View.whole main_v6_0).slice (win0_15.rect t)).set ↔ _
  rw [View.set_slice_whole, Rect.mem_set_unit]
  exact Iff.rfl

/-- Every entry of the array is in some finish point's block. -/
theorem cover15 (i : S8192x2048.Idx) : ∃ t : Fin cfg0.N, (cfg0.win 15).flush t = true ∧ i ∈ ((cfg0.win 15).blk t).view.set := by
  have hi0 : (i 0).val < 8192 := (i 0).isLt
  have hi1 : (i 1).val < 2048 := (i 1).isLt
  obtain ⟨tv, htv⟩ : ∃ tv : ℕ, tv = (i 0).val / 1024 * 32 + (i 1).val / 256 * 4 + 3 := ⟨_, rfl⟩
  have hlt : tv < cfg0.N := by rw [show cfg0.N = 256 from N_0]; omega
  refine ⟨⟨tv, hlt⟩, (flush0_15 _).mpr (by show tv % 4 = 3; omega), ?_⟩
  obtain ⟨-, -, -, -, -, -, e150, e151, e160, e161⟩ := idx_act ⟨tv, hlt⟩
  rw [mem_blk15]
  intro a
  match a with
  | ⟨0, _⟩ => show win0_15.index ⟨tv, hlt⟩ (0 : Fin 2) * 1024 ≤ (i 0).val ∧ (i 0).val < win0_15.index ⟨tv, hlt⟩ (0 : Fin 2) * 1024 + 1024; rw [e150]; show tv / 32 * 1024 ≤ _ ∧ _ < tv / 32 * 1024 + 1024; omega
  | ⟨1, _⟩ => show win0_15.index ⟨tv, hlt⟩ (1 : Fin 2) * 256 ≤ (i 1).val ∧ (i 1).val < win0_15.index ⟨tv, hlt⟩ (1 : Fin 2) * 256 + 256; rw [e151]; show tv / 4 % 8 * 256 ≤ _ ∧ _ < tv / 4 % 8 * 256 + 256; omega

/-- The array behind result window 15 after the run. -/
theorem final15 (c : Dev nD) : (dats m 0 c).arrAt 15 cfg0.N = Gh m c :=
  (dats m 0 c).arrAt_eq_of_cover 15 (Gh m c) (fun t hf => flushed15 m c t hf) (cover15)

/-- Where result window 16's block at point t sits in its array. -/
theorem emb16 (t : Fin cfg0.N) (r : Fin 1024) (q : Fin 256) :
    ((cfg0.win 16).blk t).view.emb (ix2 r q) = ix2 (rowI t r) (colI t q) := by
  obtain ⟨-, -, -, -, -, -, e150, e151, e160, e161⟩ := idx_act t
  funext a; apply Fin.ext
  match a with
  | ⟨0, _⟩ => show win0_16.index t (0 : Fin 2) * 1024 + 1 * r.val = t.val / 32 * 1024 + r.val; rw [e160]; omega
  | ⟨1, _⟩ => show win0_16.index t (1 : Fin 2) * 256 + 1 * q.val = t.val / 4 % 8 * 256 + q.val; rw [e161]; omega

/-- What a finish point writes back through window 16 is its block of the reference's result. -/
theorem flushed16 (c : Dev nD) (t : Fin cfg0.N) (hf : (cfg0.win 16).flush t = true) :
    (dats m 0 c).flushed 16 t = ((cfg0.win 16).blk t).view.read (Elt Ideal) (Gc m c) := by
  have h1 : t.val % 4 = 3 := (flush0_16 t).mp hf
  show (cfg0.win 16).cut (grid0.coords t) ((dats m 0 c).after 16 t) = _
  rw [after0_16]
  funext j
  obtain ⟨r, q, rfl⟩ : ∃ (r : Fin 1024) (q : Fin 256), j = ix2 r q := ⟨j 0, j 1, eq_ix2 j⟩
  show outAt16 m c t (ix2 r q) = Gc m c (((cfg0.win 16).blk t).view.emb (ix2 r q))
  rw [finish16 m c t h1 r q, emb16]
  exact (v34_at (A0 m c) (A1 m c) (A2 m c) (A3 m c) (A4 m c) (A5 m c) (A6 m c) (rowI t r) (colI t q)).symm

theorem mem_blk16 (t : Fin cfg0.N) (i : S8192x2048.Idx) :
    i ∈ ((cfg0.win 16).blk t).view.set ↔ ∀ a : Fin 2, win0_16.index t a * S1024x256.size a ≤ (i a).val ∧ (i a).val < win0_16.index t a * S1024x256.size a + S1024x256.size a := by
  show i ∈ ((View.whole main_v6_1).slice (win0_16.rect t)).set ↔ _
  rw [View.set_slice_whole, Rect.mem_set_unit]
  exact Iff.rfl

/-- Every entry of the array is in some finish point's block. -/
theorem cover16 (i : S8192x2048.Idx) : ∃ t : Fin cfg0.N, (cfg0.win 16).flush t = true ∧ i ∈ ((cfg0.win 16).blk t).view.set := by
  have hi0 : (i 0).val < 8192 := (i 0).isLt
  have hi1 : (i 1).val < 2048 := (i 1).isLt
  obtain ⟨tv, htv⟩ : ∃ tv : ℕ, tv = (i 0).val / 1024 * 32 + (i 1).val / 256 * 4 + 3 := ⟨_, rfl⟩
  have hlt : tv < cfg0.N := by rw [show cfg0.N = 256 from N_0]; omega
  refine ⟨⟨tv, hlt⟩, (flush0_16 _).mpr (by show tv % 4 = 3; omega), ?_⟩
  obtain ⟨-, -, -, -, -, -, e150, e151, e160, e161⟩ := idx_act ⟨tv, hlt⟩
  rw [mem_blk16]
  intro a
  match a with
  | ⟨0, _⟩ => show win0_16.index ⟨tv, hlt⟩ (0 : Fin 2) * 1024 ≤ (i 0).val ∧ (i 0).val < win0_16.index ⟨tv, hlt⟩ (0 : Fin 2) * 1024 + 1024; rw [e160]; show tv / 32 * 1024 ≤ _ ∧ _ < tv / 32 * 1024 + 1024; omega
  | ⟨1, _⟩ => show win0_16.index ⟨tv, hlt⟩ (1 : Fin 2) * 256 ≤ (i 1).val ∧ (i 1).val < win0_16.index ⟨tv, hlt⟩ (1 : Fin 2) * 256 + 256; rw [e161]; show tv / 4 % 8 * 256 ≤ _ ∧ _ < tv / 4 % 8 * 256 + 256; omega

/-- The array behind result window 16 after the run. -/
theorem final16 (c : Dev nD) : (dats m 0 c).arrAt 16 cfg0.N = Gc m c :=
  (dats m 0 c).arrAt_eq_of_cover 16 (Gc m c) (fun t hf => flushed16 m c t hf) (cover16)

/-! ## The run, read -/

/-- The kernel's run with both results named: the reference's hidden state and cell state of the argument arrays. -/
theorem run : θ_run defs (onTc (τ := τ) (main (F := Ideal))) ⟨m, fun _ => 0, ρ⟩ fun r => ∀ c : Dev nD,
      r.2.mem ((c.tc : Thread nD τ).loc main_v6_0) = Gh m c
      ∧ r.2.mem ((c.tc : Thread nD τ).loc main_v6_1) = Gc m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c =>
    ⟨((h c).1 15).trans (final15 m c), ((h c).1 16).trans (final16 m c),
     ((h c).2 main_arg0 rest_main_arg0).trans (V_main_arg0 m c),
     ((h c).2 main_arg1 rest_main_arg1).trans (V_main_arg1 m c),
     ((h c).1 2).trans (((dats m 0 c).arrAt_in 2 rfl _).trans ((A_eq m c 2).trans (V_main_arg2 m c))),
     ((h c).2 main_arg3 rest_main_arg3).trans (V_main_arg3 m c),
     ((h c).2 main_arg4 rest_main_arg4).trans (V_main_arg4 m c),
     ((h c).2 main_arg5 rest_main_arg5).trans (V_main_arg5 m c),
     ((h c).2 main_arg6 rest_main_arg6).trans (V_main_arg6 m c)⟩) (run_main m ρ)

end Cert.KernelIdeal.ValueIdeal

end
-- ==== Proof.lean ====
/- The proof of `Cert.Claim`: an LSTM cell, fused into one kernel, against its plain reference.

   The kernel walks an 8 x 8 x 4 grid (row block, column block, reduction block). For each (row block, column
   block) it keeps one accumulator per gate, zeroes them at the first reduction block, adds at every reduction block
   that block's part of inp·W and of h0·U for the gate's own columns of the packed weights, and at the last reduction
   block adds the two biases (summed beforehand), applies the logistic function to three gates and tanh to the
   fourth, and stores the new cell state logistic(f)·c0 + logistic(i)·tanh(g) and the new hidden state
   logistic(o)·tanh(new cell state). The reference forms ((inp·W + b_w) + h0·U) + b_u whole, slices the four gates
   out of it and applies the same functions, its sigmoid spelled 1/(1 + exp(−x)).

   On the extended reals the two agree entry by entry: a change of float format is the identity, a block product
   into a zero accumulator is a plain sum, a sum over the 2048 contracted positions is the sum over the four blocks
   of 512, addition is commutative and associative with zero neutral (nothing is cancelled or distributed, so
   no finiteness is used), and the reference's spelling of sigmoid is the logistic function.

   The three frames: the two kernel programs run to the end, fault nowhere and leave their arguments alone — the
   packed weights and the summed bias are each read through four windows, so their buffers are shared among those
   windows in quarters —, and the reference's run is its operations composed. The idealization rewrote nothing, so
   `preserves` has nothing to state. -/
import proofs.«168456_j39350490366667_2_alg».proof.Defs
import proofs.«168456_j39350490366667_2_alg».proof.Proof.Gen.Kernel
import proofs.«168456_j39350490366667_2_alg».proof.Proof.Gen.KernelIdeal
import proofs.«168456_j39350490366667_2_alg».proof.Proof.Gen.ReferenceIdeal
import proofs.«168456_j39350490366667_2_alg».proof.Proof.Gen.Pre_finite_inputs
import proofs.«168456_j39350490366667_2_alg».proof.Proof.Gen.ReferenceIdeal.Run
import proofs.«168456_j39350490366667_2_alg».proof.Proof.Gen.ReferenceIdeal.Read
import proofs.«168456_j39350490366667_2_alg».proof.Proof.BitsFrame
import proofs.«168456_j39350490366667_2_alg».proof.Proof.IdealValue
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with the reference's hidden state and cell state of the (agreeing) argument arrays. -/
theorem algebraic : Cert.algebraic_KernelIdeal_ReferenceIdeal := by
  intro m ρ m' ρ' _ hagree
  refine ⟨fun c => Cert.KernelIdeal.ValueIdeal.Gh m c, fun c => Cert.KernelIdeal.ValueIdeal.Gc m c,
    Cert.KernelIdeal.ValueIdeal.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [(hagree c).1, (hagree c).2.1, (hagree c).2.2.1, (hagree c).2.2.2.1, (hagree c).2.2.2.2.1, (hagree c).2.2.2.2.2.1, (hagree c).2.2.2.2.2.2]
    rfl
  · rw [(hagree c).1, (hagree c).2.1, (hagree c).2.2.1, (hagree c).2.2.2.1, (hagree c).2.2.2.2.1, (hagree c).2.2.2.2.2.1, (hagree c).2.2.2.2.2.2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
